-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S800000x16 : Shape := ⟨2, ![800000, 16]⟩
abbrev S32x64 : Shape := ⟨2, ![32, 64]⟩
abbrev S64 : Shape := ⟨1, ![64]⟩
abbrev S16x64 : Shape := ⟨2, ![16, 64]⟩
abbrev S64x64 : Shape := ⟨2, ![64, 64]⟩
abbrev S64x1024 : Shape := ⟨2, ![64, 1024]⟩
abbrev S1024 : Shape := ⟨1, ![1024]⟩
abbrev S1024x128 : Shape := ⟨2, ![1024, 128]⟩
abbrev S128 : Shape := ⟨1, ![128]⟩
abbrev S128x1 : Shape := ⟨2, ![128, 1]⟩
abbrev S1 : Shape := ⟨1, ![1]⟩
abbrev S800000 : Shape := ⟨1, ![800000]⟩
abbrev S50000 : Shape := ⟨1, ![50000]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S64x64 : S_.BroadcastsInDim S64x64 (![] : Fin 0 → Fin S64x64.rank)
  reducesTo_S64x64_S_d0_1 : S64x64.ReducesTo [0, 1] S_
  bcast_S_S64x1024 : S_.BroadcastsInDim S64x1024 (![] : Fin 0 → Fin S64x1024.rank)
  reducesTo_S64x1024_S_d0_1 : S64x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x1 .f32) (main_arg13 : FVec F S1 .f32) (main_v48 : IVec S_ 1) (main_v49 : FVec F S1024x128 .f32) (main_v50 : FVec F S1024x128 .f32) : IVec S_ 1 :=
  let main_v51 : IVec S1024x128 1 := cmpf .olt main_v49 main_v50
  let main_c_19 : IVec S_ 1 := constantI S_ 1 1#1
  let main_v52 : IVec S_ 1 := (fun x v => Host.reduce IntOp.andi x v reducesTo_S1024x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg12
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S64 .f32) (main_arg8 : FVec F S64x1024 .f32) (main_arg9 : FVec F S1024 .f32) (main_arg10 : FVec F S1024x128 .f32) (main_arg11 : FVec F S128 .f32) (main_arg12 : FVec F S128x1 .f32) (main_arg13 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1024 .f32 := Host.absf main_arg8
  let main_cst_14 : FVec F S_ .f32 := constant S_ .f32 0x7F800000#32
  let main_v40 : FVec F S64x1024 .f32 := broadcastInDim S64x1024 ![] bcast_S_S64x1024 main_cst_14
  let main_v41 : IVec S64x1024 1 := cmpf .olt main_v39 main_v40
  let main_c_15 : IVec S_ 1 := constantI S_ 1 1#1
  let main_v42 : IVec S_ 1 := (fun x v => Host.reduce IntOp.andi x v reducesTo_S64x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x128 .f32 := Host.absf main_arg10
  let main_cst_18 : FVec F S_ .f32 := constant S_ .f32 0x7F800000#32
  let main_v50 : FVec F S1024x128 .f32 := broadcastInDim S1024x128 ![] bcast_S_S1024x128 main_cst_18
  fn_part3 (F := F) main_arg11 main_arg12 main_arg13 main_v48 main_v49 main_v50

def fn_part1 {F : FTy → Type} [FloatOps F] (main_arg4 : FVec F S16x64 .f32) (main_arg5 : FVec F S64 .f32) (main_arg6 : FVec F S64x64 .f32) (main_arg7 : FVec F S64 .f32) (main_arg8 : FVec F S64x1024 .f32) (main_arg9 : FVec F S1024 .f32) (main_arg10 : FVec F S1024x128 .f32) (main_arg11 : FVec F S128 .f32) (main_arg12 : FVec F S128x1 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x64 .f32 := Host.absf main_arg4
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S50000x32 .f32) (main_arg1 : FVec F S800000x16 .f32) (main_arg2 : FVec F S32x64 .f32) (main_arg3 : FVec F S64 .f32) (main_arg4 : FVec F S16x64 .f32) (main_arg5 : FVec F S64 .f32) (main_arg6 : FVec F S64x64 .f32) (main_arg7 : FVec F S64 .f32) (main_arg8 : FVec F S64x1024 .f32) (main_arg9 : FVec F S1024 .f32) (main_arg10 : FVec F S1024x128 .f32) (main_arg11 : FVec F S128 .f32) (main_arg12 : FVec F S128x1 .f32) (main_arg13 : FVec F S1 .f32) (main_arg14 : IVec S800000 32) (main_arg15 : IVec S800000 32) (main_arg16 : IVec S50000 32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S800000x16 .f32 := Host.absf main_arg1
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_v13 main_v16
-- ==== Kernel.lean ====
abbrev S50000x32 : Shape := ⟨2, ![50000, 32]⟩
abbrev S800000x16 : Shape := ⟨2, ![800000, 16]⟩
abbrev S32x64 : Shape := ⟨2, ![32, 64]⟩
abbrev S64 : Shape := ⟨1, ![64]⟩
abbrev S16x64 : Shape := ⟨2, ![16, 64]⟩
abbrev S64x64 : Shape := ⟨2, ![64, 64]⟩
abbrev S64x1024 : Shape := ⟨2, ![64, 1024]⟩
abbrev S1024 : Shape := ⟨1, ![1024]⟩
abbrev S1024x128 : Shape := ⟨2, ![1024, 128]⟩
abbrev S128 : Shape := ⟨1, ![128]⟩
abbrev S128x1 : Shape := ⟨2, ![128, 1]⟩
abbrev S1 : Shape := ⟨1, ![1]⟩
abbrev S800000 : Shape := ⟨1, ![800000]⟩
abbrev S50000 : Shape := ⟨1, ![50000]⟩
abbrev S1x64 : Shape := ⟨2, ![1, 64]⟩
abbrev S800000x64 : Shape := ⟨2, ![800000, 64]⟩
abbrev S16000x16 : Shape := ⟨2, ![16000, 16]⟩
abbrev S16000x64 : Shape := ⟨2, ![16000, 64]⟩
abbrev S_ : Shape := ⟨0, ![]⟩
abbrev S50000x64 : Shape := ⟨2, ![50000, 64]⟩
abbrev S800000x1 : Shape := ⟨2, ![800000, 1]⟩
abbrev S2000x32 : Shape := ⟨2, ![2000, 32]⟩
abbrev S2000x64 : Shape := ⟨2, ![2000, 64]⟩
abbrev S1x1024 : Shape := ⟨2, ![1, 1024]⟩
abbrev S50000x1024 : Shape := ⟨2, ![50000, 1024]⟩
abbrev S1000x64 : Shape := ⟨2, ![1000, 64]⟩
abbrev S1000x1024 : Shape := ⟨2, ![1000, 1024]⟩
abbrev S256x1024 : Shape := ⟨2, ![256, 1024]⟩
abbrev S50000x1 : Shape := ⟨2, ![50000, 1]⟩
abbrev S1x128 : Shape := ⟨2, ![1, 128]⟩
abbrev S1x1 : Shape := ⟨2, ![1, 1]⟩
abbrev S256x1 : Shape := ⟨2, ![256, 1]⟩
abbrev S256x128 : Shape := ⟨2, ![256, 128]⟩

abbrev nBuf : Space → Nat
  | .hbm => 98
  | .vmem => 60
  | .smem => 0
  | _ => 0

abbrev bufTy : (tb : Table) → Fin (tcTables nBuf tb) → BufTy
  | .hbm, ⟨0, _⟩ => ⟨S50000x32, .f32⟩
  | .hbm, ⟨1, _⟩ => ⟨S800000x16, .f32⟩
  | .hbm, ⟨2, _⟩ => ⟨S32x64, .f32⟩
  | .hbm, ⟨3, _⟩ => ⟨S64, .f32⟩
  | .hbm, ⟨4, _⟩ => ⟨S16x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1024, .f32⟩
  | .hbm, ⟨9, _⟩ => ⟨S1024, .f32⟩
  | .hbm, ⟨10, _⟩ => ⟨S1024x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S800000, .i32⟩
  | .hbm, ⟨15, _⟩ => ⟨S800000, .i32⟩
  | .hbm, ⟨16, _⟩ => ⟨S50000, .i32⟩
  | .hbm, ⟨17, _⟩ => ⟨S1x64, .f32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S1x64, .f32⟩
  | .hbm, ⟨24, _⟩ => ⟨S50000x64, .f32⟩
  | .hbm, ⟨25, _⟩ => ⟨S50000x64, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S1x64, .f32⟩
  | .hbm, ⟨40, _⟩ => ⟨S50000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x64, .f32⟩
  | .hbm, ⟨50, _⟩ => ⟨S_, .f32⟩
  | .hbm, ⟨51, _⟩ => ⟨S50000x64, .f32⟩
  | .hbm, ⟨52, _⟩ => ⟨S800000x1, .i32⟩
  | .hbm, ⟨53, _⟩ => ⟨S50000x64, .f32⟩
  | .hbm, ⟨54, _⟩ => ⟨S1x64, .f32⟩
  | .hbm, ⟨55, _⟩ => ⟨S50000x64, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x64, .f32⟩
  | .hbm, ⟨65, _⟩ => ⟨S_, .f32⟩
  | .hbm, ⟨66, _⟩ => ⟨S50000x64, .f32⟩
  | .hbm, ⟨67, _⟩ => ⟨S800000x1, .i32⟩
  | .hbm, ⟨68, _⟩ => ⟨S50000x64, .f32⟩
  | .hbm, ⟨69, _⟩ => ⟨S1x64, .f32⟩
  | .hbm, ⟨70, _⟩ => ⟨S50000x64, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x64, .f32⟩
  | .hbm, ⟨80, _⟩ => ⟨S_, .f32⟩
  | .hbm, ⟨81, _⟩ => ⟨S50000x64, .f32⟩
  | .hbm, ⟨82, _⟩ => ⟨S800000x1, .i32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S1x1024, .f32⟩
  | .hbm, ⟨87, _⟩ => ⟨S50000x1024, .f32⟩
  | .hbm, ⟨88, _⟩ => ⟨S_, .f32⟩
  | .hbm, ⟨89, _⟩ => ⟨S256x1024, .f32⟩
  | .hbm, ⟨90, _⟩ => ⟨S50000x1, .i32⟩
  | .hbm, ⟨91, _⟩ => ⟨S256x1024, .f32⟩
  | .hbm, ⟨92, _⟩ => ⟨S_, .f32⟩
  | .hbm, ⟨93, _⟩ => ⟨S256x1024, .f32⟩
  | .hbm, ⟨94, _⟩ => ⟨S256x1024, .f32⟩
  | .hbm, ⟨95, _⟩ => ⟨S1x128, .f32⟩
  | .hbm, ⟨96, _⟩ => ⟨S1x1, .f32⟩
  | .hbm, ⟨97, _⟩ => ⟨S256x1, .f32⟩
  | .local _ .vmem, ⟨0, _⟩ => ⟨S16000x16, .f32⟩
  | .local _ .vmem, ⟨1, _⟩ => ⟨S16000x16, .f32⟩
  | .local _ .vmem, ⟨2, _⟩ => ⟨S16x64, .f32⟩
  | .local _ .vmem, ⟨3, _⟩ => ⟨S1x64, .f32⟩
  | .local _ .vmem, ⟨4, _⟩ => ⟨S16000x64, .f32⟩
  | .local _ .vmem, ⟨5, _⟩ => ⟨S16000x64, .f32⟩
  | .local _ .vmem, ⟨6, _⟩ => ⟨S2000x32, .f32⟩
  | .local _ .vmem, ⟨7, _⟩ => ⟨S2000x32, .f32⟩
  | .local _ .vmem, ⟨8, _⟩ => ⟨S32x64, .f32⟩
  | .local _ .vmem, ⟨9, _⟩ => ⟨S1x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S64x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S64x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S64x64, .f32⟩
  | .local _ .vmem, ⟨35, _⟩ => ⟨S1x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S64x64, .f32⟩
  | .local _ .vmem, ⟨43, _⟩ => ⟨S1x64, .f32⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | .local _ .vmem, ⟨48, _⟩ => ⟨S1000x64, .f32⟩
  | .local _ .vmem, ⟨49, _⟩ => ⟨S1000x64, .f32⟩
  | .local _ .vmem, ⟨50, _⟩ => ⟨S64x1024, .f32⟩
  | .local _ .vmem, ⟨51, _⟩ => ⟨S1x1024, .f32⟩
  | .local _ .vmem, ⟨52, _⟩ => ⟨S1000x1024, .f32⟩
  | .local _ .vmem, ⟨53, _⟩ => ⟨S1000x1024, .f32⟩
  | .local _ .vmem, ⟨54, _⟩ => ⟨S256x1024, .f32⟩
  | .local _ .vmem, ⟨55, _⟩ => ⟨S1024x128, .f32⟩
  | .local _ .vmem, ⟨56, _⟩ => ⟨S1x128, .f32⟩
  | .local _ .vmem, ⟨57, _⟩ => ⟨S128x1, .f32⟩
  | .local _ .vmem, ⟨58, _⟩ => ⟨S1x1, .f32⟩
  | .local _ .vmem, ⟨59, _⟩ => ⟨S256x1, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6_0 : Ref sig .tc := ⟨.hbm, 24, rfl⟩
abbrev main_v6_1 : Ref sig .tc := ⟨.hbm, 25, rfl⟩
abbrev main_c : Ref sig .tc := ⟨.hbm, 26, rfl⟩
abbrev main_v7 : Ref sig .tc := ⟨.hbm, 27, rfl⟩
abbrev main_v8 : Ref sig .tc := ⟨.hbm, 28, rfl⟩
abbrev main_c_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_8 : Ref sig .tc := ⟨.hbm, 71, rfl⟩
abbrev main_v43 : Ref sig .tc := ⟨.hbm, 72, rfl⟩
abbrev main_v44 : Ref sig .tc := ⟨.hbm, 73, rfl⟩
abbrev main_c_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc7_stg0_0 : Ref sig .tc := ⟨.vmem, 54, rfl⟩
abbrev cc7_stg1_0 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg4_0 : Ref sig .tc := ⟨.vmem, 58, rfl⟩
abbrev cc7_stg5_0 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem3_1 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53
abbrev cc7_sem0_0 : DmaSem sig := 54
abbrev cc7_sem1_0 : DmaSem sig := 55
abbrev cc7_sem2_0 : DmaSem sig := 56
abbrev cc7_sem3_0 : DmaSem sig := 57
abbrev cc7_sem4_0 : DmaSem sig := 58
abbrev cc7_sem5_0 : DmaSem sig := 59

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1000x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S256x1024 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S1024x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  shapeCasts_S64_S1x64 : S64.ShapeCasts S1x64
  inb_S16000x16_S16000x16_0_0 : ∀ a, (![0, 0] : Fin 2 → Nat) a + S16000x16.size a ≤ S16000x16.size a
  h_S16000x16 : 0 < S16000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  inb_S16000x64_S16000x64_0_0 : ∀ a, (![0, 0] : Fin 2 → Nat) a + S16000x64.size a ≤ S16000x64.size a
  h_S16000x64 : 0 < S16000x64.numel
  bcast_S_S50000x64 : S_.BroadcastsInDim S50000x64 (![] : Fin 0 → Fin S50000x64.rank)
  bcast_S800000_S800000x1_0 : S800000.BroadcastsInDim S800000x1 (![0] : Fin 1 → Fin S800000x1.rank)
  inb_S2000x32_S2000x32_0_0 : ∀ a, (![0, 0] : Fin 2 → Nat) a + S2000x32.size a ≤ S2000x32.size a
  h_S2000x32 : 0 < S2000x32.numel
  inb_S32x64_S32x64_0_0 : ∀ a, (![0, 0] : Fin 2 → Nat) a + S32x64.size a ≤ S32x64.size a
  h_S32x64 : 0 < S32x64.numel
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bcast_S_S800000 : S_.BroadcastsInDim S800000 (![] : Fin 0 → Fin S800000.rank)
  inb_S64x64_S64x64_0_0 : ∀ a, (![0, 0] : Fin 2 → Nat) a + S64x64.size a ≤ S64x64.size a
  h_S64x64 : 0 < S64x64.numel
  shapeCasts_S1024_S1x1024 : S1024.ShapeCasts S1x1024
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x1024_S64x1024_0_0 : ∀ a, (![0, 0] : Fin 2 → Nat) a + S64x1024.size a ≤ S64x1024.size a
  h_S64x1024 : 0 < S64x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1000x1024_S1000x1024_0_0 : ∀ a, (![0, 0] : Fin 2 → Nat) a + S1000x1024.size a ≤ S1000x1024.size a
  h_S1000x1024 : 0 < S1000x1024.numel
  bcast_S_S256x1024 : S_.BroadcastsInDim S256x1024 (![] : Fin 0 → Fin S256x1024.rank)
  bcast_S50000_S50000x1_0 : S50000.BroadcastsInDim S50000x1 (![0] : Fin 1 → Fin S50000x1.rank)
  shapeCasts_S128_S1x128 : S128.ShapeCasts S1x128
  shapeCasts_S1_S1x1 : S1.ShapeCasts S1x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  dot_S16000x16_S16x64_S16000x64_1_0_0_1_n_n_wf : DotDims.WF S16000x16 S16x64 S16000x64 [1] [0] [0] [1] [] []
  scatter_S50000x64_S800000x1_S800000x64_1_0_0_1_wf : ScatterDims.WF S50000x64 S800000x1 S800000x64 [1] [0] [0] 1
  dot_S2000x32_S32x64_S2000x64_1_0_0_1_n_n_wf : DotDims.WF S2000x32 S32x64 S2000x64 [1] [0] [0] [1] [] []
  gather_S50000x64_S800000x1_S800000x64_1_0_n_n_0_1_164_wf : GatherDims.WF S50000x64 S800000x1 S800000x64 [1] [0] [] [0] [] 1 ![1, 64]
  dot_S2000x64_S64x64_S2000x64_1_0_0_1_n_n_wf : DotDims.WF S2000x64 S64x64 S2000x64 [1] [0] [0] [1] [] []
  dot_S1000x64_S64x1024_S1000x1024_1_0_0_1_n_n_wf : DotDims.WF S1000x64 S64x1024 S1000x1024 [1] [0] [0] [1] [] []
  scatter_S256x1024_S50000x1_S50000x1024_1_0_0_1_wf : ScatterDims.WF S256x1024 S50000x1 S50000x1024 [1] [0] [0] 1
  dot_S256x1024_S1024x128_S256x128_1_0_0_1_n_n_wf : DotDims.WF S256x1024 S1024x128 S256x128 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x16.size a ≤ S800000x16.size a
  hwx0_0 : ∀ i : grid0.Coords, EltTy.bits .f32 = 32 ∨ (Rect.block (s := S800000x16) S16000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x64.size a ≤ S800000x64.size a
  hwx0_3 : ∀ i : grid0.Coords, EltTy.bits .f32 = 32 ∨ (Rect.block (s := S800000x64) S16000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S50000x32.size a
  hwx1_0 : ∀ i : grid1.Coords, EltTy.bits .f32 = 32 ∨ (Rect.block (s := S50000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .f32 = 32 ∨ (Rect.block (s := S50000x64) S2000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S50000x64.size a
  hwx2_4 : ∀ i : grid2.Coords, EltTy.bits .f32 = 32 ∨ (Rect.block (s := S50000x64) S2000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .f32 = 32 ∨ (Rect.block (s := S50000x64) S2000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .f32 = 32 ∨ (Rect.block (s := S50000x64) S2000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x64.size a ≤ S50000x64.size a
  hwx4_4 : ∀ i : grid4.Coords, EltTy.bits .f32 = 32 ∨ (Rect.block (s := S50000x64) S2000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .f32 = 32 ∨ (Rect.block (s := S50000x64) S2000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S50000x64.size a
  hwx5_4 : ∀ i : grid5.Coords, EltTy.bits .f32 = 32 ∨ (Rect.block (s := S50000x64) S2000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x64.size a ≤ S50000x64.size a
  hwx6_0 : ∀ i : grid6.Coords, EltTy.bits .f32 = 32 ∨ (Rect.block (s := S50000x64) S1000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x1024.size a ≤ S64x1024.size a
  hwx6_1 : ∀ i : grid6.Coords, EltTy.bits .f32 = 32 ∨ (Rect.block (s := S64x1024) S64x1024.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1024.size a ≤ S1x1024.size a
  hwx6_2 : ∀ i : grid6.Coords, EltTy.bits .f32 = 32 ∨ (Rect.block (s := S1x1024) S1x1024.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1000x1024.size a ≤ S50000x1024.size a
  hwx6_3 : ∀ i : grid6.Coords, EltTy.bits .f32 = 32 ∨ (Rect.block (s := S50000x1024) S1000x1024.size (cc6_transform_3 i) (hinb6_3 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S256x1024.size a ≤ S256x1024.size a
  hwx7_0 : ∀ i : grid7.Coords, EltTy.bits .f32 = 32 ∨ (Rect.block (s := S256x1024) S256x1024.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1024x128.size a ≤ S1024x128.size a
  hwx7_1 : ∀ i : grid7.Coords, EltTy.bits .f32 = 32 ∨ (Rect.block (s := S1024x128) S1024x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x1.size a ≤ S128x1.size a
  hwx7_3 : ∀ i : grid7.Coords, EltTy.bits .f32 = 32 ∨ (Rect.block (s := S128x1) S128x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x1.size a ≤ S256x1.size a
  hwx7_5 : ∀ i : grid7.Coords, EltTy.bits .f32 = 32 ∨ (Rect.block (s := S256x1) S256x1.size (cc7_transform_5 i) (hinb7_5 i)).WholeWords (EltTy.packing .f32)

variable [Facts₀]

def dot_S16000x16_S16x64_S16000x64_1_0_0_1_n_n : DotDims S16000x16 S16x64 S16000x64 where
  lhsContracting := [1]
  rhsContracting := [0]
  lhsNonContracting := [0]
  rhsNonContracting := [1]
  lhsBatch := []
  rhsBatch := []
  wf := dot_S16000x16_S16x64_S16000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S1000x64_S64x1024_S1000x1024_1_0_0_1_n_n : DotDims S1000x64 S64x1024 S1000x1024 where
  lhsContracting := [1]
  rhsContracting := [0]
  lhsNonContracting := [0]
  rhsNonContracting := [1]
  lhsBatch := []
  rhsBatch := []
  wf := dot_S1000x64_S64x1024_S1000x1024_1_0_0_1_n_n_wf
def scatter_S256x1024_S50000x1_S50000x1024_1_0_0_1 : ScatterDims S256x1024 S50000x1 S50000x1024 where
  updateWindowDims := [1]
  insertedWindowDims := [0]
  scatterDimsToOperandDims := [0]
  indexVectorDim := 1
  wf := scatter_S256x1024_S50000x1_S50000x1024_1_0_0_1_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg1) S16000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6_0) S2000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6_1) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v16) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6_0) S2000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v18) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v28) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6_0) S2000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v30) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v40) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v41) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v6_0) S2000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v42) S2000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v52) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v53) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v6_0) S2000x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v54) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v54) S1000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x1024.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v55) S1x1024.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v56) S1000x1024.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v61) S256x1024.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S1024x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v62) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg12) S128x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v63) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v64) S256x1.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x32 : Shape := ⟨2, ![50000, 32]⟩
abbrev S800000x16 : Shape := ⟨2, ![800000, 16]⟩
abbrev S32x64 : Shape := ⟨2, ![32, 64]⟩
abbrev S64 : Shape := ⟨1, ![64]⟩
abbrev S16x64 : Shape := ⟨2, ![16, 64]⟩
abbrev S64x64 : Shape := ⟨2, ![64, 64]⟩
abbrev S64x1024 : Shape := ⟨2, ![64, 1024]⟩
abbrev S1024 : Shape := ⟨1, ![1024]⟩
abbrev S1024x128 : Shape := ⟨2, ![1024, 128]⟩
abbrev S128 : Shape := ⟨1, ![128]⟩
abbrev S128x1 : Shape := ⟨2, ![128, 1]⟩
abbrev S1 : Shape := ⟨1, ![1]⟩
abbrev S800000 : Shape := ⟨1, ![800000]⟩
abbrev S50000 : Shape := ⟨1, ![50000]⟩
abbrev S50000x64 : Shape := ⟨2, ![50000, 64]⟩
abbrev S1x64 : Shape := ⟨2, ![1, 64]⟩
abbrev S800000x64 : Shape := ⟨2, ![800000, 64]⟩
abbrev S_ : Shape := ⟨0, ![]⟩
abbrev S800000x1 : Shape := ⟨2, ![800000, 1]⟩
abbrev S50000x1024 : Shape := ⟨2, ![50000, 1024]⟩
abbrev S1x1024 : Shape := ⟨2, ![1, 1024]⟩
abbrev S256x1024 : Shape := ⟨2, ![256, 1024]⟩
abbrev S50000x1 : Shape := ⟨2, ![50000, 1]⟩
abbrev S256x128 : Shape := ⟨2, ![256, 128]⟩
abbrev S1x128 : Shape := ⟨2, ![1, 128]⟩
abbrev S256x1 : Shape := ⟨2, ![256, 1]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S50000x32, .f32⟩
  | 1 => ⟨S800000x16, .f32⟩
  | 2 => ⟨S32x64, .f32⟩
  | 3 => ⟨S64, .f32⟩
  | 4 => ⟨S16x64, .f32⟩
  | 5 => ⟨S64, .f32⟩
  | 6 => ⟨S64x64, .f32⟩
  | 7 => ⟨S64, .f32⟩
  | 8 => ⟨S64x1024, .f32⟩
  | 9 => ⟨S1024, .f32⟩
  | 10 => ⟨S1024x128, .f32⟩
  | 11 => ⟨S128, .f32⟩
  | 12 => ⟨S128x1, .f32⟩
  | 13 => ⟨S1, .f32⟩
  | 14 => ⟨S800000, .i32⟩
  | 15 => ⟨S800000, .i32⟩
  | 16 => ⟨S50000, .i32⟩
  | 17 => ⟨S50000x64, .f32⟩
  | 18 => ⟨S1x64, .f32⟩
  | 19 => ⟨S50000x64, .f32⟩
  | 20 => ⟨S50000x64, .f32⟩
  | 21 => ⟨S800000x64, .f32⟩
  | 22 => ⟨S1x64, .f32⟩
  | 23 => ⟨S800000x64, .f32⟩
  | 24 => ⟨S800000x64, .f32⟩
  | 25 => ⟨S_, .f32⟩
  | 26 => ⟨S50000x64, .f32⟩
  | 27 => ⟨S800000x1, .i32⟩
  | 28 => ⟨S50000x64, .f32⟩
  | 29 => ⟨S50000x64, .f32⟩
  | 30 => ⟨S_, .f32⟩
  | 31 => ⟨S50000x64, .f32⟩
  | 32 => ⟨S50000x64, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x64, .f32⟩
  | 42 => ⟨S_, .f32⟩
  | 43 => ⟨S50000x64, .f32⟩
  | 44 => ⟨S800000x1, .i32⟩
  | 45 => ⟨S50000x64, .f32⟩
  | 46 => ⟨S50000x64, .f32⟩
  | 47 => ⟨S1x64, .f32⟩
  | 48 => ⟨S50000x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x64, .f32⟩
  | 63 => ⟨S_, .f32⟩
  | 64 => ⟨S50000x64, .f32⟩
  | 65 => ⟨S800000x1, .i32⟩
  | 66 => ⟨S50000x64, .f32⟩
  | 67 => ⟨S50000x64, .f32⟩
  | 68 => ⟨S1x64, .f32⟩
  | 69 => ⟨S50000x64, .f32⟩
  | 70 => ⟨S50000x64, .f32⟩
  | 71 => ⟨S50000x64, .f32⟩
  | 72 => ⟨S_, .f32⟩
  | 73 => ⟨S50000x64, .f32⟩
  | 74 => ⟨S50000x64, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x64, .f32⟩
  | 84 => ⟨S_, .f32⟩
  | 85 => ⟨S50000x64, .f32⟩
  | 86 => ⟨S800000x1, .i32⟩
  | 87 => ⟨S50000x64, .f32⟩
  | 88 => ⟨S50000x64, .f32⟩
  | 89 => ⟨S1x64, .f32⟩
  | 90 => ⟨S50000x64, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x64, .f32⟩
  | 105 => ⟨S_, .f32⟩
  | 106 => ⟨S50000x64, .f32⟩
  | 107 => ⟨S800000x1, .i32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S50000x64, .f32⟩
  | 114 => ⟨S_, .f32⟩
  | 115 => ⟨S50000x64, .f32⟩
  | 116 => ⟨S50000x64, .f32⟩
  | 117 => ⟨S50000x1024, .f32⟩
  | 118 => ⟨S1x1024, .f32⟩
  | 119 => ⟨S50000x1024, .f32⟩
  | 120 => ⟨S50000x1024, .f32⟩
  | 121 => ⟨S_, .f32⟩
  | 122 => ⟨S50000x1024, .f32⟩
  | 123 => ⟨S50000x1024, .f32⟩
  | 124 => ⟨S_, .f32⟩
  | 125 => ⟨S256x1024, .f32⟩
  | 126 => ⟨S50000x1, .i32⟩
  | 127 => ⟨S256x1024, .f32⟩
  | _ => ⟨S50000x32, .f32⟩

abbrev hbmTy0_1 (i : Nat) : BufTy := match i % 128 with
  | 0 => ⟨S_, .f32⟩
  | 1 => ⟨S256x1024, .f32⟩
  | 2 => ⟨S256x1024, .f32⟩
  | 3 => ⟨S256x128, .f32⟩
  | 4 => ⟨S1x128, .f32⟩
  | 5 => ⟨S256x128, .f32⟩
  | 6 => ⟨S256x128, .f32⟩
  | 7 => ⟨S_, .f32⟩
  | 8 => ⟨S256x128, .f32⟩
  | 9 => ⟨S256x128, .f32⟩
  | 10 => ⟨S256x1, .f32⟩
  | 11 => ⟨S1x1, .f32⟩
  | 12 => ⟨S256x1, .f32⟩
  | 13 => ⟨S256x1, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call0_cst : Ref sig .tc := ⟨.hbm, 30, rfl⟩
abbrev main_call0_v0 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call1_cst : Ref sig .tc := ⟨.hbm, 51, rfl⟩
abbrev main_call1_v0 : Ref sig .tc := ⟨.hbm, 52, rfl⟩
abbrev main_v28 : Ref sig .tc := ⟨.hbm, 53, rfl⟩
abbrev main_c_2 : Ref sig .tc := ⟨.hbm, 54, rfl⟩
abbrev main_v29 : Ref sig .tc := ⟨.hbm, 55, rfl⟩
abbrev main_v30 : Ref sig .tc := ⟨.hbm, 56, rfl⟩
abbrev main_c_3 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_4 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call2_cst : Ref sig .tc := ⟨.hbm, 72, rfl⟩
abbrev main_call2_v0 : Ref sig .tc := ⟨.hbm, 73, rfl⟩
abbrev main_v44 : Ref sig .tc := ⟨.hbm, 74, rfl⟩
abbrev main_c_5 : Ref sig .tc := ⟨.hbm, 75, rfl⟩
abbrev main_v45 : Ref sig .tc := ⟨.hbm, 76, rfl⟩
abbrev main_v46 : Ref sig .tc := ⟨.hbm, 77, rfl⟩
abbrev main_c_6 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_7 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_call3_cst : Ref sig .tc := ⟨.hbm, 93, rfl⟩
abbrev main_call3_v0 : Ref sig .tc := ⟨.hbm, 94, rfl⟩
abbrev main_v60 : Ref sig .tc := ⟨.hbm, 95, rfl⟩
abbrev main_c_8 : Ref sig .tc := ⟨.hbm, 96, rfl⟩
abbrev main_v61 : Ref sig .tc := ⟨.hbm, 97, rfl⟩
abbrev main_v62 : Ref sig .tc := ⟨.hbm, 98, rfl⟩
abbrev main_c_9 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_10 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_call4_cst : Ref sig .tc := ⟨.hbm, 114, rfl⟩
abbrev main_call4_v0 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_call5_cst : Ref sig .tc := ⟨.hbm, 121, rfl⟩
abbrev main_call5_v0 : Ref sig .tc := ⟨.hbm, 122, rfl⟩
abbrev main_v81 : Ref sig .tc := ⟨.hbm, 123, rfl⟩
abbrev main_cst_11 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_call6_cst : Ref sig .tc := ⟨.hbm, 128, rfl⟩
abbrev main_call6_v0 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_call7_cst : Ref sig .tc := ⟨.hbm, 135, rfl⟩
abbrev main_call7_v0 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  bcast_S_S50000x1024 : S_.BroadcastsInDim S50000x1024 (![] : Fin 0 → Fin S50000x1024.rank)
  bcast_S_S256x1024 : S_.BroadcastsInDim S256x1024 (![] : Fin 0 → Fin S256x1024.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S50000x32_S32x64_S50000x64_1_0_0_1_n_n_wf : DotDims.WF S50000x32 S32x64 S50000x64 [1] [0] [0] [1] [] []
  dot_S800000x16_S16x64_S800000x64_1_0_0_1_n_n_wf : DotDims.WF S800000x16 S16x64 S800000x64 [1] [0] [0] [1] [] []
  scatter_S50000x64_S800000x1_S800000x64_1_0_0_1_wf : ScatterDims.WF S50000x64 S800000x1 S800000x64 [1] [0] [0] 1
  gather_S50000x64_S800000x1_S800000x64_1_0_n_n_0_1_164_wf : GatherDims.WF S50000x64 S800000x1 S800000x64 [1] [0] [] [0] [] 1 ![1, 64]
  dot_S50000x64_S64x64_S50000x64_1_0_0_1_n_n_wf : DotDims.WF S50000x64 S64x64 S50000x64 [1] [0] [0] [1] [] []
  dot_S50000x64_S64x1024_S50000x1024_1_0_0_1_n_n_wf : DotDims.WF S50000x64 S64x1024 S50000x1024 [1] [0] [0] [1] [] []
  scatter_S256x1024_S50000x1_S50000x1024_1_0_0_1_wf : ScatterDims.WF S256x1024 S50000x1 S50000x1024 [1] [0] [0] 1
  dot_S256x1024_S1024x128_S256x128_1_0_0_1_n_n_wf : DotDims.WF S256x1024 S1024x128 S256x128 [1] [0] [0] [1] [] []
  dot_S256x128_S128x1_S256x1_1_0_0_1_n_n_wf : DotDims.WF S256x128 S128x1 S256x1 [1] [0] [0] [1] [] []

variable [Facts₀]

def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def dot_S800000x16_S16x64_S800000x64_1_0_0_1_n_n : DotDims S800000x16 S16x64 S800000x64 where
  lhsContracting := [1]
  rhsContracting := [0]
  lhsNonContracting := [0]
  rhsNonContracting := [1]
  lhsBatch := []
  rhsBatch := []
  wf := dot_S800000x16_S16x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1024_S50000x1024_1_0_0_1_n_n : DotDims S50000x64 S64x1024 S50000x1024 where
  lhsContracting := [1]
  rhsContracting := [0]
  lhsNonContracting := [0]
  rhsNonContracting := [1]
  lhsBatch := []
  rhsBatch := []
  wf := dot_S50000x64_S64x1024_S50000x1024_1_0_0_1_n_n_wf
def scatter_S256x1024_S50000x1_S50000x1024_1_0_0_1 : ScatterDims S256x1024 S50000x1 S50000x1024 where
  updateWindowDims := [1]
  insertedWindowDims := [0]
  scatterDimsToOperandDims := [0]
  indexVectorDim := 1
  wf := scatter_S256x1024_S50000x1_S50000x1024_1_0_0_1_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibDense.lean ====
/-
  A dense layer on the extended reals: a matrix product of an M × K by a K × N matrix plus one row of N numbers
  added to every row of the product, optionally followed by the maximum with zero.

  Two spellings of the same layer meet here. On the vector unit the product is a matrix-unit product into a zero
  accumulator of operands whose change of float format is the identity on extended reals, and the row is a
  [1, N] vector broadcast down the rows. On the host the product is a plain `dot_general` and the row a
  `broadcast_in_dim`. Entry (r, c) of either is Σ_k X (r, k) · W (k, c) + B (0, c), so the two agree entry by
  entry — also when the vector unit only sees a block of TM rows of X, as long as row p of the block is row r of X.
-/
import Idealize.ShloMosaic.PureOps.Ideal.Laws
import Idealize.ShloMosaic.Lib.Pipeline.Value
import Idealize.ShloMosaic.Lib.ValueIdx
import Idealize.ShloMosaic.Lib.ValueLayout
import proofs.«150986_j70806830842645_1_alg».proof.Proof.LibPlainMatmul
import proofs.«150986_j70806830842645_1_alg».proof.Proof.LibHostReads

noncomputable section

open scoped BigOperators

namespace Cert.Dense

open Idealize.ShloMosaic Idealize.ShloMosaic.ValueIdx

/-- Entry (r, c) of a dense layer: Σ_k X (r, k) · W (k, c) + B (0, c). -/
def entry (M K N : Nat) (X : FVec Ideal ⟨2, ![M, K]⟩ .f32) (W : FVec Ideal ⟨2, ![K, N]⟩ .f32)
    (B : FVec Ideal ⟨2, ![1, N]⟩ .f32) (r : Fin M) (c : Fin N) : EReal :=
  (∑ k : Fin K, X (ix2 r k) * W (ix2 k c)) + B (ix2 (0 : Fin 1) c)

/-- The host's spelling of the layer: a plain product plus the row broadcast to every row. -/
def host (M K N : Nat) (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's spelling read at (r, c). -/
theorem host_apply (M K N : Nat) (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32)
    (r : Fin M) (c : Fin N) : host M K N h2 X W B (ix2 r c) = entry M K N X W B r c := by
  unfold host entry
  rw [addf_apply, Cert.LibHostReads.dotGeneral_plain_apply]
  refine congrArg (fun z => (∑ k : Fin K, X (ix2 r k) * W (ix2 k c)) + z) ?_
  refine broadcastInDim_apply _ h2 B (ix2 r c) (ix2 (0 : Fin 1) c) fun a => ?_
  match a with
  | ⟨0, _⟩ => show (0 : Fin 1).val = if (1 : Nat) = 1 then 0 else r.val; rw [if_pos rfl]; rfl
  | ⟨1, _⟩ =>
    show c.val = if N = 1 then 0 else c.val
    split
    · have := c.isLt; omega
    · rfl

/-- The vector unit's spelling of the layer on a block of TM rows: the product into a zero accumulator of the two
    operands after their change of format, plus the row broadcast down the block. -/
def body (TM K N : Nat) (hbf : FTy.bf16.bits < FTy.f32.bits) (hs : (⟨2, ![1, N]⟩ : Shape).ShapeCasts ⟨2, ![1, N]⟩)
    (hb : (⟨2, ![1, N]⟩ : Shape).Broadcasts ⟨2, ![TM, N]⟩)
    (x : FVec Ideal ⟨2, ![TM, K]⟩ .f32) (w : FVec Ideal ⟨2, ![K, N]⟩ .f32) (b : FVec Ideal ⟨2, ![1, N]⟩ .f32) :
    FVec Ideal ⟨2, ![TM, N]⟩ .f32 :=
  addf (matmul (DotDims.plain TM K N) none (truncf .bf16 x hbf) (truncf .bf16 w hbf) (constant ⟨2, ![TM, N]⟩ .f32 0x00000000#32))
    (broadcastTo ⟨2, ![TM, N]⟩ (shapeCast ⟨2, ![1, N]⟩ b hs) hb)

/-- The vector unit's spelling read at (p, c). -/
theorem body_apply (TM K N : Nat) (hbf : FTy.bf16.bits < FTy.f32.bits) (hs : (⟨2, ![1, N]⟩ : Shape).ShapeCasts ⟨2, ![1, N]⟩)
    (hb : (⟨2, ![1, N]⟩ : Shape).Broadcasts ⟨2, ![TM, N]⟩)
    (x : FVec Ideal ⟨2, ![TM, K]⟩ .f32) (w : FVec Ideal ⟨2, ![K, N]⟩ .f32) (b : FVec Ideal ⟨2, ![1, N]⟩ .f32)
    (p : Fin TM) (c : Fin N) : body TM K N hbf hs hb x w b (ix2 p c) = entry TM K N x w b p c := by
  unfold body entry
  rw [addf_apply]
  refine congrArg₂ (· + ·) ?_ ?_
  · exact Cert.PlainMatmul.matmul_zero_apply TM K N none (truncf .bf16 x hbf) (truncf .bf16 w hbf) p c
  · rw [shapeCast_self]
    exact broadcastTo_1b_ab_apply b hb p c

/-- A block against the whole: when row p of the block is row r of X, and the block's other two operands are W
    and B whole, entry (p, c) of the vector unit's layer on the block is entry (r, c) of the host's layer on X. -/
theorem body_eq_host (M TM K N : Nat) (hbf : FTy.bf16.bits < FTy.f32.bits)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32)
    (x : FVec Ideal ⟨2, ![TM, K]⟩ .f32) (w : FVec Ideal ⟨2, ![K, N]⟩ .f32) (b : FVec Ideal ⟨2, ![1, N]⟩ .f32)
    (p : Fin TM) (r : Fin M) (c : Fin N)
    (ex : ∀ k : Fin K, x (ix2 p k) = X (ix2 r k)) (ew : w = W) (eb : b = B) :
    body TM K N hbf hs hb x w b (ix2 p c) = host M K N h2 X W B (ix2 r c) := by
  rw [body_apply, host_apply]
  subst ew eb
  unfold entry
  refine congrArg (fun z => z + b (ix2 (0 : Fin 1) c)) ?_
  exact Finset.sum_congr rfl fun k _ => by rw [ex k]

/-- The maximum with zero, in the host's spelling: the zero is a rank-zero constant broadcast to the whole shape. -/
def relu (s : Shape) (h : (⟨0, ![]⟩ : Shape).BroadcastsInDim s ![]) (Y : FVec Ideal s .f32) : FVec Ideal s .f32 :=
  maximumf Y (broadcastInDim s ![] h (constant (F := Ideal) ⟨0, ![]⟩ .f32 0x00000000#32))

/-- It reads, at any index, the maximum of the entry and the zero word's value. -/
theorem relu_apply (s : Shape) (h : (⟨0, ![]⟩ : Shape).BroadcastsInDim s ![]) (Y : FVec Ideal s .f32) (i : s.Idx) :
    relu s h Y i = max (Y i) (Scalar.ofBits (F := Ideal) .f32 0x00000000#32) := by
  unfold relu
  rw [maximumf_apply, broadcastInDim_apply ![] h (constant (F := Ideal) ⟨0, ![]⟩ .f32 0x00000000#32) i (fun a => a.elim0) (fun a => a.elim0)]
  rfl

/-- The zero the vector unit compares against (a scalar splat) is the zero the host compares against (a constant
    broadcast from rank zero): the same word at every index. -/
theorem zeros_eq (s : Shape) (h : (⟨0, ![]⟩ : Shape).BroadcastsInDim s ![]) :
    (broadcast s (Scalar.ofBits (F := Ideal) .f32 0x00000000#32) : FVec Ideal s .f32)
      = broadcastInDim s ![] h (constant (F := Ideal) ⟨0, ![]⟩ .f32 0x00000000#32) := by
  funext i
  exact (broadcastInDim_apply ![] h (constant (F := Ideal) ⟨0, ![]⟩ .f32 0x00000000#32) i (fun a => a.elim0) (fun a => a.elim0)).symm

/-- A flat row of N numbers reshaped to [1, N] is the same row broadcast into [1, N] along its one axis. -/
theorem row_eq (N : Nat) (v : FVec Ideal ⟨1, ![N]⟩ .f32) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

end Cert.Dense

end
-- ==== Proof.Layers.lean ====
/-
  The layers of the network, each as one function of whole arrays in the host's spelling.

  * the edge layer: 800000 edges, 16 features in, 64 out;
  * the node input: 50000 nodes, 32 features in, 64 out, plus the messages summed at each node;
  * a convolution step: the neighbours' sum through a 64 × 64 layer, plus the node input, then the maximum with zero;
  * the node output: 64 in, 1024 out, then the maximum with zero;
  * the head on the 256 pooled rows: 1024 → 128, the maximum with zero, then 128 → 1.
-/
import proofs.«150986_j70806830842645_1_alg».proof.Proof.LibDense

noncomputable section

namespace Cert.Layers

open Idealize.ShloMosaic

/-- The edge layer on all edges. -/
def edgeLin (X : FVec Ideal ⟨2, ![800000, 16]⟩ .f32) (W : FVec Ideal ⟨2, ![16, 64]⟩ .f32) (B : FVec Ideal ⟨2, ![1, 64]⟩ .f32) :
    FVec Ideal ⟨2, ![800000, 64]⟩ .f32 :=
  Cert.Dense.host 800000 16 64 (by decide) X W B

/-- The node input: the node layer plus the incoming messages E. -/
def nodeIn (X : FVec Ideal ⟨2, ![50000, 32]⟩ .f32) (W : FVec Ideal ⟨2, ![32, 64]⟩ .f32) (B : FVec Ideal ⟨2, ![1, 64]⟩ .f32)
    (E : FVec Ideal ⟨2, ![50000, 64]⟩ .f32) : FVec Ideal ⟨2, ![50000, 64]⟩ .f32 :=
  addf (Cert.Dense.host 50000 32 64 (by decide) X W B) E

/-- The maximum with zero on a 50000 × 64 array. -/
def relu64 (Y : FVec Ideal ⟨2, ![50000, 64]⟩ .f32) : FVec Ideal ⟨2, ![50000, 64]⟩ .f32 :=
  Cert.Dense.relu ⟨2, ![50000, 64]⟩ (by decide) Y

/-- One convolution step from the neighbours' sum S and the node input IM. -/
def conv (S : FVec Ideal ⟨2, ![50000, 64]⟩ .f32) (W : FVec Ideal ⟨2, ![64, 64]⟩ .f32) (B : FVec Ideal ⟨2, ![1, 64]⟩ .f32)
    (IM : FVec Ideal ⟨2, ![50000, 64]⟩ .f32) : FVec Ideal ⟨2, ![50000, 64]⟩ .f32 :=
  relu64 (addf (Cert.Dense.host 50000 64 64 (by decide) S W B) IM)

/-- The node output layer. -/
def nodeOut (C : FVec Ideal ⟨2, ![50000, 64]⟩ .f32) (W : FVec Ideal ⟨2, ![64, 1024]⟩ .f32) (B : FVec Ideal ⟨2, ![1, 1024]⟩ .f32) :
    FVec Ideal ⟨2, ![50000, 1024]⟩ .f32 :=
  Cert.Dense.relu ⟨2, ![50000, 1024]⟩ (by decide) (Cert.Dense.host 50000 64 1024 (by decide) C W B)

/-- The hidden layer of the head. -/
def hidden (E : FVec Ideal ⟨2, ![256, 1024]⟩ .f32) (W : FVec Ideal ⟨2, ![1024, 128]⟩ .f32) (B : FVec Ideal ⟨2, ![1, 128]⟩ .f32) :
    FVec Ideal ⟨2, ![256, 128]⟩ .f32 :=
  Cert.Dense.relu ⟨2, ![256, 128]⟩ (by decide) (Cert.Dense.host 256 1024 128 (by decide) E W B)

/-- The head: the hidden layer, then one output per row. -/
def head (E : FVec Ideal ⟨2, ![256, 1024]⟩ .f32) (W1 : FVec Ideal ⟨2, ![1024, 128]⟩ .f32) (B1 : FVec Ideal ⟨2, ![1, 128]⟩ .f32)
    (W2 : FVec Ideal ⟨2, ![128, 1]⟩ .f32) (B2 : FVec Ideal ⟨2, ![1, 1]⟩ .f32) : FVec Ideal ⟨2, ![256, 1]⟩ .f32 :=
  Cert.Dense.host 256 128 1 (by decide) (hidden E W1 B1) W2 B2

end Cert.Layers

end
-- ==== Proof.Stages.lean ====
/-
  The network as a chain of whole-array values, each a function of the argument arrays at launch.

  Edges first: every edge's 16 features go through a dense layer; the results are summed at the edges' destination
  nodes. Each node's 32 features go through a dense layer and the summed messages are added: the node input. The
  first node state is the maximum of that with zero. A convolution step gathers the state at every edge's source
  (a negative index counts from the end), sums at the destinations, sends the sum through a 64 × 64 layer, adds the
  node input and takes the maximum with zero; four steps are taken. The last state goes through the output layer,
  the rows are summed per graph, the maximum with zero is taken, and the head gives one number per graph.
-/
import proofs.«150986_j70806830842645_1_alg».proof.Proof.Gen.KernelIdeal
import proofs.«150986_j70806830842645_1_alg».proof.Proof.Layers

noncomputable section

namespace Cert.KernelIdeal.Stages

open Cert.KernelIdeal Cert.KernelIdeal.Gen Idealize.ShloMosaic Idealize.ShloMosaic.TcCoe Idealize.SL.Sem

variable (m : (ℓ : Loc nD τ sig) → Buf (Elt Ideal) ℓ) (c : Dev nD)

/-- A flat row of N numbers broadcasts into [1, N] along its one axis. -/
theorem row64 : S64.BroadcastsInDim S1x64 (![1] : Fin 1 → Fin S1x64.rank) := by decide
theorem row1024 : S1024.BroadcastsInDim S1x1024 (![1] : Fin 1 → Fin S1x1024.rank) := by decide
theorem row128 : S128.BroadcastsInDim S1x128 (![1] : Fin 1 → Fin S1x128.rank) := by decide
theorem row1 : S1.BroadcastsInDim S1x1 (![1] : Fin 1 → Fin S1x1.rank) := by decide

/-- The edge layer's bias as a row. -/
def edgeBias : FVec Ideal S1x64 .f32 := broadcastInDim S1x64 ![1] row64 (m ((c : Thread nD τ).loc main_arg5))
/-- The node layer's bias as a row. -/
def nodeBias : FVec Ideal S1x64 .f32 := broadcastInDim S1x64 ![1] row64 (m ((c : Thread nD τ).loc main_arg3))
/-- The convolution layer's bias as a row. -/
def convBias : FVec Ideal S1x64 .f32 := broadcastInDim S1x64 ![1] row64 (m ((c : Thread nD τ).loc main_arg7))
/-- The output layer's bias as a row. -/
def outBias : FVec Ideal S1x1024 .f32 := broadcastInDim S1x1024 ![1] row1024 (m ((c : Thread nD τ).loc main_arg9))
/-- The hidden layer's bias as a row. -/
def hiddenBias : FVec Ideal S1x128 .f32 := broadcastInDim S1x128 ![1] row128 (m ((c : Thread nD τ).loc main_arg11))
/-- The last layer's bias as a row. -/
def lastBias : FVec Ideal S1x1 .f32 := broadcastInDim S1x1 ![1] row1 (m ((c : Thread nD τ).loc main_arg13))

/-- Every edge's features through the edge layer. -/
def edgeMsg : FVec Ideal S800000x64 .f32 := Cert.Layers.edgeLin (m ((c : Thread nD τ).loc main_arg1)) (m ((c : Thread nD τ).loc main_arg4)) (edgeBias m c)

/-- Rows summed at the edges' destination nodes, from zeros. -/
def sumAtDst (U : FVec Ideal S800000x64 .f32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (m ((c : Thread nD τ).loc main_arg15))) U

/-- The node input: the node layer plus the edge messages summed at each node. -/
def nodeIn : FVec Ideal S50000x64 .f32 :=
  Cert.Layers.nodeIn (m ((c : Thread nD τ).loc main_arg0)) (m ((c : Thread nD τ).loc main_arg2)) (nodeBias m c) (sumAtDst m c (edgeMsg m c))

/-- The first node state. -/
def state0 : FVec Ideal S50000x64 .f32 := Cert.Layers.relu64 (nodeIn m c)

/-- The rows of a node array at every edge's source, a negative index counted from the end. -/
def atSrc (C : FVec Ideal S50000x64 .f32) : FVec Ideal S800000x64 .f32 :=
  Host.gather gather_S50000x64_S800000x1_S800000x64_1_0_n_n_0_1_164 C
    (broadcastInDim S800000x1 ![0] bcast_S800000_S800000x1_0
      (select (cmpi .slt (m ((c : Thread nD τ).loc main_arg14)) (broadcastInDim S800000 ![] bcast_S_S800000 (constantI S_ 32 0#32)))
        (addi (m ((c : Thread nD τ).loc main_arg14)) (broadcastInDim S800000 ![] bcast_S_S800000 (constantI S_ 32 50000#32)))
        (m ((c : Thread nD τ).loc main_arg14))))

/-- One convolution step. -/
def step (C : FVec Ideal S50000x64 .f32) : FVec Ideal S50000x64 .f32 :=
  Cert.Layers.conv (sumAtDst m c (atSrc m c C)) (m ((c : Thread nD τ).loc main_arg6)) (convBias m c) (nodeIn m c)

/-- The node states after one to four steps. -/
def state1 : FVec Ideal S50000x64 .f32 := step m c (state0 m c)
def state2 : FVec Ideal S50000x64 .f32 := step m c (state1 m c)
def state3 : FVec Ideal S50000x64 .f32 := step m c (state2 m c)
def state4 : FVec Ideal S50000x64 .f32 := step m c (state3 m c)

/-- The output layer on the last state. -/
def nodeOut : FVec Ideal S50000x1024 .f32 := Cert.Layers.nodeOut (state4 m c) (m ((c : Thread nD τ).loc main_arg8)) (outBias m c)

/-- The rows summed per graph, then the maximum with zero. -/
def pooled : FVec Ideal S256x1024 .f32 :=
  maximumf (Host.scatterAdd scatter_S256x1024_S50000x1_S50000x1024_1_0_0_1
      (broadcastInDim S256x1024 ![] bcast_S_S256x1024 (constant S_ .f32 0x00000000#32))
      (broadcastInDim S50000x1 ![0] bcast_S50000_S50000x1_0 (m ((c : Thread nD τ).loc main_arg16))) (nodeOut m c))
    (broadcastInDim S256x1024 ![] bcast_S_S256x1024 (constant S_ .f32 0x00000000#32))

/-- One number per graph. -/
def pred : FVec Ideal S256x1 .f32 :=
  Cert.Layers.head (pooled m c) (m ((c : Thread nD τ).loc main_arg10)) (hiddenBias m c) (m ((c : Thread nD τ).loc main_arg12)) (lastBias m c)

end Cert.KernelIdeal.Stages

end
-- ==== Proof.KeptA.lean ====
/-
  The arguments stay as launched through the run: no host operation writes an argument's buffer and no launch
  writes one back (a launch only reads it through an input window), so at every boundary between a stretch of host
  operations and a launch an argument's buffer still holds its launch contents. One step per boundary, for the node and edge features, their weights and the two edge index lists.
-/
import proofs.«150986_j70806830842645_1_alg».proof.Proof.Gen.KernelIdeal.Frame
import Idealize.ShloMosaic.PureOps.Ideal

noncomputable section

namespace Cert.KernelIdeal.Kept

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

theorem kept_arg1_1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl)

theorem kept_arg4_1 (c : Dev nD) : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl)

theorem kept_arg3_1 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl)
theorem kept_arg3_2 (c : Dev nD) : W2 m ρ c (Proc.devRef .tc main_arg3) = m ((c : Thread nD τ).loc main_arg3) :=
  (W2_of_ne m ρ c main_arg3 (by decide)).trans (kept_arg3_1 m ρ c)

theorem kept_arg0_1 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl)
theorem kept_arg0_2 (c : Dev nD) : W2 m ρ c (Proc.devRef .tc main_arg0) = m ((c : Thread nD τ).loc main_arg0) :=
  (W2_of_ne m ρ c main_arg0 (by decide)).trans (kept_arg0_1 m ρ c)
theorem kept_arg0_3 (c : Dev nD) : W3 m ρ c (Proc.devRef .tc main_arg0) = m ((c : Thread nD τ).loc main_arg0) :=
  (StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg0_2 m ρ c)

theorem kept_arg2_1 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl)
theorem kept_arg2_2 (c : Dev nD) : W2 m ρ c (Proc.devRef .tc main_arg2) = m ((c : Thread nD τ).loc main_arg2) :=
  (W2_of_ne m ρ c main_arg2 (by decide)).trans (kept_arg2_1 m ρ c)
theorem kept_arg2_3 (c : Dev nD) : W3 m ρ c (Proc.devRef .tc main_arg2) = m ((c : Thread nD τ).loc main_arg2) :=
  (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg2_2 m ρ c)

theorem kept_arg15_1 (c : Dev nD) : W1 m ρ c (Proc.devRef .tc main_arg15) = m ((c : Thread nD τ).loc main_arg15) :=
  (StableHlo.after_of_forall_not_mem (b := Proc.devRef .tc main_arg15) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl)
theorem kept_arg15_2 (c : Dev nD) : W2 m ρ c (Proc.devRef .tc main_arg15) = m ((c : Thread nD τ).loc main_arg15) :=
  (W2_of_ne m ρ c main_arg15 (by decide)).trans (kept_arg15_1 m ρ c)
theorem kept_arg15_3 (c : Dev nD) : W3 m ρ c (Proc.devRef .tc main_arg15) = m ((c : Thread nD τ).loc main_arg15) :=
  (StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg15_2 m ρ c)
theorem kept_arg15_4 (c : Dev nD) : W4 m ρ c (Proc.devRef .tc main_arg15) = m ((c : Thread nD τ).loc main_arg15) :=
  (W4_of_ne m ρ c main_arg15 (by decide)).trans (kept_arg15_3 m ρ c)
theorem kept_arg15_5 (c : Dev nD) : W5 m ρ c (Proc.devRef .tc main_arg15) = m ((c : Thread nD τ).loc main_arg15) :=
  (StableHlo.after_of_forall_not_mem (b := Proc.devRef .tc main_arg15) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg15_4 m ρ c)
theorem kept_arg15_6 (c : Dev nD) : W6 m ρ c (Proc.devRef .tc main_arg15) = m ((c : Thread nD τ).loc main_arg15) :=
  (W6_of_ne m ρ c main_arg15 (by decide)).trans (kept_arg15_5 m ρ c)
theorem kept_arg15_7 (c : Dev nD) : W7 m ρ c (Proc.devRef .tc main_arg15) = m ((c : Thread nD τ).loc main_arg15) :=
  (StableHlo.after_of_forall_not_mem (b := Proc.devRef .tc main_arg15) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg15_6 m ρ c)
theorem kept_arg15_8 (c : Dev nD) : W8 m ρ c (Proc.devRef .tc main_arg15) = m ((c : Thread nD τ).loc main_arg15) :=
  (W8_of_ne m ρ c main_arg15 (by decide)).trans (kept_arg15_7 m ρ c)
theorem kept_arg15_9 (c : Dev nD) : W9 m ρ c (Proc.devRef .tc main_arg15) = m ((c : Thread nD τ).loc main_arg15) :=
  (StableHlo.after_of_forall_not_mem (b := Proc.devRef .tc main_arg15) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg15_8 m ρ c)
theorem kept_arg15_10 (c : Dev nD) : W10 m ρ c (Proc.devRef .tc main_arg15) = m ((c : Thread nD τ).loc main_arg15) :=
  (W10_of_ne m ρ c main_arg15 (by decide)).trans (kept_arg15_9 m ρ c)

theorem kept_arg14_1 (c : Dev nD) : W1 m ρ c (Proc.devRef .tc main_arg14) = m ((c : Thread nD τ).loc main_arg14) :=
  (StableHlo.after_of_forall_not_mem (b := Proc.devRef .tc main_arg14) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl)
theorem kept_arg14_2 (c : Dev nD) : W2 m ρ c (Proc.devRef .tc main_arg14) = m ((c : Thread nD τ).loc main_arg14) :=
  (W2_of_ne m ρ c main_arg14 (by decide)).trans (kept_arg14_1 m ρ c)
theorem kept_arg14_3 (c : Dev nD) : W3 m ρ c (Proc.devRef .tc main_arg14) = m ((c : Thread nD τ).loc main_arg14) :=
  (StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg14_2 m ρ c)
theorem kept_arg14_4 (c : Dev nD) : W4 m ρ c (Proc.devRef .tc main_arg14) = m ((c : Thread nD τ).loc main_arg14) :=
  (W4_of_ne m ρ c main_arg14 (by decide)).trans (kept_arg14_3 m ρ c)
theorem kept_arg14_5 (c : Dev nD) : W5 m ρ c (Proc.devRef .tc main_arg14) = m ((c : Thread nD τ).loc main_arg14) :=
  (StableHlo.after_of_forall_not_mem (b := Proc.devRef .tc main_arg14) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg14_4 m ρ c)
theorem kept_arg14_6 (c : Dev nD) : W6 m ρ c (Proc.devRef .tc main_arg14) = m ((c : Thread nD τ).loc main_arg14) :=
  (W6_of_ne m ρ c main_arg14 (by decide)).trans (kept_arg14_5 m ρ c)
theorem kept_arg14_7 (c : Dev nD) : W7 m ρ c (Proc.devRef .tc main_arg14) = m ((c : Thread nD τ).loc main_arg14) :=
  (StableHlo.after_of_forall_not_mem (b := Proc.devRef .tc main_arg14) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg14_6 m ρ c)
theorem kept_arg14_8 (c : Dev nD) : W8 m ρ c (Proc.devRef .tc main_arg14) = m ((c : Thread nD τ).loc main_arg14) :=
  (W8_of_ne m ρ c main_arg14 (by decide)).trans (kept_arg14_7 m ρ c)
theorem kept_arg14_9 (c : Dev nD) : W9 m ρ c (Proc.devRef .tc main_arg14) = m ((c : Thread nD τ).loc main_arg14) :=
  (StableHlo.after_of_forall_not_mem (b := Proc.devRef .tc main_arg14) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg14_8 m ρ c)
theorem kept_arg14_10 (c : Dev nD) : W10 m ρ c (Proc.devRef .tc main_arg14) = m ((c : Thread nD τ).loc main_arg14) :=
  (W10_of_ne m ρ c main_arg14 (by decide)).trans (kept_arg14_9 m ρ c)

end Cert.KernelIdeal.Kept

end
-- ==== Proof.KeptB.lean ====
/-
  The arguments stay as launched through the run: no host operation writes an argument's buffer and no launch
  writes one back (a launch only reads it through an input window), so at every boundary between a stretch of host
  operations and a launch an argument's buffer still holds its launch contents. One step per boundary, for the convolution and output weights.
-/
import proofs.«150986_j70806830842645_1_alg».proof.Proof.Gen.KernelIdeal.Frame
import Idealize.ShloMosaic.PureOps.Ideal

noncomputable section

namespace Cert.KernelIdeal.Kept

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

theorem kept_arg7_1 (c : Dev nD) : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl)
theorem kept_arg7_2 (c : Dev nD) : W2 m ρ c (Proc.devRef .tc main_arg7) = m ((c : Thread nD τ).loc main_arg7) :=
  (W2_of_ne m ρ c main_arg7 (by decide)).trans (kept_arg7_1 m ρ c)
theorem kept_arg7_3 (c : Dev nD) : W3 m ρ c (Proc.devRef .tc main_arg7) = m ((c : Thread nD τ).loc main_arg7) :=
  (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg7_2 m ρ c)
theorem kept_arg7_4 (c : Dev nD) : W4 m ρ c (Proc.devRef .tc main_arg7) = m ((c : Thread nD τ).loc main_arg7) :=
  (W4_of_ne m ρ c main_arg7 (by decide)).trans (kept_arg7_3 m ρ c)
theorem kept_arg7_5 (c : Dev nD) : W5 m ρ c (Proc.devRef .tc main_arg7) = m ((c : Thread nD τ).loc main_arg7) :=
  (StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg7_4 m ρ c)
theorem kept_arg7_6 (c : Dev nD) : W6 m ρ c (Proc.devRef .tc main_arg7) = m ((c : Thread nD τ).loc main_arg7) :=
  (W6_of_ne m ρ c main_arg7 (by decide)).trans (kept_arg7_5 m ρ c)
theorem kept_arg7_7 (c : Dev nD) : W7 m ρ c (Proc.devRef .tc main_arg7) = m ((c : Thread nD τ).loc main_arg7) :=
  (StableHlo.after_of_forall_not_mem (b := Proc.devRef .tc main_arg7) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg7_6 m ρ c)
theorem kept_arg7_8 (c : Dev nD) : W8 m ρ c (Proc.devRef .tc main_arg7) = m ((c : Thread nD τ).loc main_arg7) :=
  (W8_of_ne m ρ c main_arg7 (by decide)).trans (kept_arg7_7 m ρ c)
theorem kept_arg7_9 (c : Dev nD) : W9 m ρ c (Proc.devRef .tc main_arg7) = m ((c : Thread nD τ).loc main_arg7) :=
  (StableHlo.after_of_forall_not_mem (b := Proc.devRef .tc main_arg7) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg7_8 m ρ c)
theorem kept_arg7_10 (c : Dev nD) : W10 m ρ c (Proc.devRef .tc main_arg7) = m ((c : Thread nD τ).loc main_arg7) :=
  (W10_of_ne m ρ c main_arg7 (by decide)).trans (kept_arg7_9 m ρ c)

theorem kept_arg6_1 (c : Dev nD) : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl)
theorem kept_arg6_2 (c : Dev nD) : W2 m ρ c (Proc.devRef .tc main_arg6) = m ((c : Thread nD τ).loc main_arg6) :=
  (W2_of_ne m ρ c main_arg6 (by decide)).trans (kept_arg6_1 m ρ c)
theorem kept_arg6_3 (c : Dev nD) : W3 m ρ c (Proc.devRef .tc main_arg6) = m ((c : Thread nD τ).loc main_arg6) :=
  (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg6_2 m ρ c)
theorem kept_arg6_4 (c : Dev nD) : W4 m ρ c (Proc.devRef .tc main_arg6) = m ((c : Thread nD τ).loc main_arg6) :=
  (W4_of_ne m ρ c main_arg6 (by decide)).trans (kept_arg6_3 m ρ c)
theorem kept_arg6_5 (c : Dev nD) : W5 m ρ c (Proc.devRef .tc main_arg6) = m ((c : Thread nD τ).loc main_arg6) :=
  (StableHlo.after_of_forall_not_mem (b := Proc.devRef .tc main_arg6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg6_4 m ρ c)
theorem kept_arg6_6 (c : Dev nD) : W6 m ρ c (Proc.devRef .tc main_arg6) = m ((c : Thread nD τ).loc main_arg6) :=
  ((W6_arr m ρ c 1).trans (((dat2 (V5 m ρ) c).arrAt_in 1 rfl _).trans (A_eq2 (V5 m ρ) c 1))).trans (kept_arg6_5 m ρ c)
theorem kept_arg6_7 (c : Dev nD) : W7 m ρ c (Proc.devRef .tc main_arg6) = m ((c : Thread nD τ).loc main_arg6) :=
  (StableHlo.after_of_forall_not_mem (b := Proc.devRef .tc main_arg6) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg6_6 m ρ c)
theorem kept_arg6_8 (c : Dev nD) : W8 m ρ c (Proc.devRef .tc main_arg6) = m ((c : Thread nD τ).loc main_arg6) :=
  ((W8_arr m ρ c 1).trans (((dat3 (V7 m ρ) c).arrAt_in 1 rfl _).trans (A_eq3 (V7 m ρ) c 1))).trans (kept_arg6_7 m ρ c)
theorem kept_arg6_9 (c : Dev nD) : W9 m ρ c (Proc.devRef .tc main_arg6) = m ((c : Thread nD τ).loc main_arg6) :=
  (StableHlo.after_of_forall_not_mem (b := Proc.devRef .tc main_arg6) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg6_8 m ρ c)
theorem kept_arg6_10 (c : Dev nD) : W10 m ρ c (Proc.devRef .tc main_arg6) = m ((c : Thread nD τ).loc main_arg6) :=
  ((W10_arr m ρ c 1).trans (((dat4 (V9 m ρ) c).arrAt_in 1 rfl _).trans (A_eq4 (V9 m ρ) c 1))).trans (kept_arg6_9 m ρ c)
theorem kept_arg6_11 (c : Dev nD) : W11 m ρ c (Proc.devRef .tc main_arg6) = m ((c : Thread nD τ).loc main_arg6) :=
  (StableHlo.after_of_forall_not_mem (b := Proc.devRef .tc main_arg6) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg6_10 m ρ c)

theorem kept_arg9_1 (c : Dev nD) : W1 m ρ c (Proc.devRef .tc main_arg9) = m ((c : Thread nD τ).loc main_arg9) :=
  (StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl)
theorem kept_arg9_2 (c : Dev nD) : W2 m ρ c (Proc.devRef .tc main_arg9) = m ((c : Thread nD τ).loc main_arg9) :=
  (W2_of_ne m ρ c main_arg9 (by decide)).trans (kept_arg9_1 m ρ c)
theorem kept_arg9_3 (c : Dev nD) : W3 m ρ c (Proc.devRef .tc main_arg9) = m ((c : Thread nD τ).loc main_arg9) :=
  (StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg9_2 m ρ c)
theorem kept_arg9_4 (c : Dev nD) : W4 m ρ c (Proc.devRef .tc main_arg9) = m ((c : Thread nD τ).loc main_arg9) :=
  (W4_of_ne m ρ c main_arg9 (by decide)).trans (kept_arg9_3 m ρ c)
theorem kept_arg9_5 (c : Dev nD) : W5 m ρ c (Proc.devRef .tc main_arg9) = m ((c : Thread nD τ).loc main_arg9) :=
  (StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg9_4 m ρ c)
theorem kept_arg9_6 (c : Dev nD) : W6 m ρ c (Proc.devRef .tc main_arg9) = m ((c : Thread nD τ).loc main_arg9) :=
  (W6_of_ne m ρ c main_arg9 (by decide)).trans (kept_arg9_5 m ρ c)
theorem kept_arg9_7 (c : Dev nD) : W7 m ρ c (Proc.devRef .tc main_arg9) = m ((c : Thread nD τ).loc main_arg9) :=
  (StableHlo.after_of_forall_not_mem (b := Proc.devRef .tc main_arg9) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg9_6 m ρ c)
theorem kept_arg9_8 (c : Dev nD) : W8 m ρ c (Proc.devRef .tc main_arg9) = m ((c : Thread nD τ).loc main_arg9) :=
  (W8_of_ne m ρ c main_arg9 (by decide)).trans (kept_arg9_7 m ρ c)
theorem kept_arg9_9 (c : Dev nD) : W9 m ρ c (Proc.devRef .tc main_arg9) = m ((c : Thread nD τ).loc main_arg9) :=
  (StableHlo.after_of_forall_not_mem (b := Proc.devRef .tc main_arg9) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg9_8 m ρ c)
theorem kept_arg9_10 (c : Dev nD) : W10 m ρ c (Proc.devRef .tc main_arg9) = m ((c : Thread nD τ).loc main_arg9) :=
  (W10_of_ne m ρ c main_arg9 (by decide)).trans (kept_arg9_9 m ρ c)
theorem kept_arg9_11 (c : Dev nD) : W11 m ρ c (Proc.devRef .tc main_arg9) = m ((c : Thread nD τ).loc main_arg9) :=
  (StableHlo.after_of_forall_not_mem (b := Proc.devRef .tc main_arg9) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg9_10 m ρ c)
theorem kept_arg9_12 (c : Dev nD) : W12 m ρ c (Proc.devRef .tc main_arg9) = m ((c : Thread nD τ).loc main_arg9) :=
  (W12_of_ne m ρ c main_arg9 (by decide)).trans (kept_arg9_11 m ρ c)

theorem kept_arg8_1 (c : Dev nD) : W1 m ρ c (Proc.devRef .tc main_arg8) = m ((c : Thread nD τ).loc main_arg8) :=
  (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl)
theorem kept_arg8_2 (c : Dev nD) : W2 m ρ c (Proc.devRef .tc main_arg8) = m ((c : Thread nD τ).loc main_arg8) :=
  (W2_of_ne m ρ c main_arg8 (by decide)).trans (kept_arg8_1 m ρ c)
theorem kept_arg8_3 (c : Dev nD) : W3 m ρ c (Proc.devRef .tc main_arg8) = m ((c : Thread nD τ).loc main_arg8) :=
  (StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg8_2 m ρ c)
theorem kept_arg8_4 (c : Dev nD) : W4 m ρ c (Proc.devRef .tc main_arg8) = m ((c : Thread nD τ).loc main_arg8) :=
  (W4_of_ne m ρ c main_arg8 (by decide)).trans (kept_arg8_3 m ρ c)
theorem kept_arg8_5 (c : Dev nD) : W5 m ρ c (Proc.devRef .tc main_arg8) = m ((c : Thread nD τ).loc main_arg8) :=
  (StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg8_4 m ρ c)
theorem kept_arg8_6 (c : Dev nD) : W6 m ρ c (Proc.devRef .tc main_arg8) = m ((c : Thread nD τ).loc main_arg8) :=
  (W6_of_ne m ρ c main_arg8 (by decide)).trans (kept_arg8_5 m ρ c)
theorem kept_arg8_7 (c : Dev nD) : W7 m ρ c (Proc.devRef .tc main_arg8) = m ((c : Thread nD τ).loc main_arg8) :=
  (StableHlo.after_of_forall_not_mem (b := Proc.devRef .tc main_arg8) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg8_6 m ρ c)
theorem kept_arg8_8 (c : Dev nD) : W8 m ρ c (Proc.devRef .tc main_arg8) = m ((c : Thread nD τ).loc main_arg8) :=
  (W8_of_ne m ρ c main_arg8 (by decide)).trans (kept_arg8_7 m ρ c)
theorem kept_arg8_9 (c : Dev nD) : W9 m ρ c (Proc.devRef .tc main_arg8) = m ((c : Thread nD τ).loc main_arg8) :=
  (StableHlo.after_of_forall_not_mem (b := Proc.devRef .tc main_arg8) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg8_8 m ρ c)
theorem kept_arg8_10 (c : Dev nD) : W10 m ρ c (Proc.devRef .tc main_arg8) = m ((c : Thread nD τ).loc main_arg8) :=
  (W10_of_ne m ρ c main_arg8 (by decide)).trans (kept_arg8_9 m ρ c)
theorem kept_arg8_11 (c : Dev nD) : W11 m ρ c (Proc.devRef .tc main_arg8) = m ((c : Thread nD τ).loc main_arg8) :=
  (StableHlo.after_of_forall_not_mem (b := Proc.devRef .tc main_arg8) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg8_10 m ρ c)
theorem kept_arg8_12 (c : Dev nD) : W12 m ρ c (Proc.devRef .tc main_arg8) = m ((c : Thread nD τ).loc main_arg8) :=
  (W12_of_ne m ρ c main_arg8 (by decide)).trans (kept_arg8_11 m ρ c)
theorem kept_arg8_13 (c : Dev nD) : W13 m ρ c (Proc.devRef .tc main_arg8) = m ((c : Thread nD τ).loc main_arg8) :=
  (StableHlo.after_of_forall_not_mem (b := Proc.devRef .tc main_arg8) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg8_12 m ρ c)

end Cert.KernelIdeal.Kept

end
-- ==== Proof.KeptC.lean ====
/-
  The arguments stay as launched through the run: no host operation writes an argument's buffer and no launch
  writes one back (a launch only reads it through an input window), so at every boundary between a stretch of host
  operations and a launch an argument's buffer still holds its launch contents. One step per boundary, for the graph index list and the head's weights.
-/
import proofs.«150986_j70806830842645_1_alg».proof.Proof.Gen.KernelIdeal.Frame
import Idealize.ShloMosaic.PureOps.Ideal

noncomputable section

namespace Cert.KernelIdeal.Kept

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

theorem kept_arg16_1 (c : Dev nD) : W1 m ρ c (Proc.devRef .tc main_arg16) = m ((c : Thread nD τ).loc main_arg16) :=
  (StableHlo.after_of_forall_not_mem (b := Proc.devRef .tc main_arg16) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl)
theorem kept_arg16_2 (c : Dev nD) : W2 m ρ c (Proc.devRef .tc main_arg16) = m ((c : Thread nD τ).loc main_arg16) :=
  (W2_of_ne m ρ c main_arg16 (by decide)).trans (kept_arg16_1 m ρ c)
theorem kept_arg16_3 (c : Dev nD) : W3 m ρ c (Proc.devRef .tc main_arg16) = m ((c : Thread nD τ).loc main_arg16) :=
  (StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg16_2 m ρ c)
theorem kept_arg16_4 (c : Dev nD) : W4 m ρ c (Proc.devRef .tc main_arg16) = m ((c : Thread nD τ).loc main_arg16) :=
  (W4_of_ne m ρ c main_arg16 (by decide)).trans (kept_arg16_3 m ρ c)
theorem kept_arg16_5 (c : Dev nD) : W5 m ρ c (Proc.devRef .tc main_arg16) = m ((c : Thread nD τ).loc main_arg16) :=
  (StableHlo.after_of_forall_not_mem (b := Proc.devRef .tc main_arg16) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg16_4 m ρ c)
theorem kept_arg16_6 (c : Dev nD) : W6 m ρ c (Proc.devRef .tc main_arg16) = m ((c : Thread nD τ).loc main_arg16) :=
  (W6_of_ne m ρ c main_arg16 (by decide)).trans (kept_arg16_5 m ρ c)
theorem kept_arg16_7 (c : Dev nD) : W7 m ρ c (Proc.devRef .tc main_arg16) = m ((c : Thread nD τ).loc main_arg16) :=
  (StableHlo.after_of_forall_not_mem (b := Proc.devRef .tc main_arg16) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg16_6 m ρ c)
theorem kept_arg16_8 (c : Dev nD) : W8 m ρ c (Proc.devRef .tc main_arg16) = m ((c : Thread nD τ).loc main_arg16) :=
  (W8_of_ne m ρ c main_arg16 (by decide)).trans (kept_arg16_7 m ρ c)
theorem kept_arg16_9 (c : Dev nD) : W9 m ρ c (Proc.devRef .tc main_arg16) = m ((c : Thread nD τ).loc main_arg16) :=
  (StableHlo.after_of_forall_not_mem (b := Proc.devRef .tc main_arg16) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg16_8 m ρ c)
theorem kept_arg16_10 (c : Dev nD) : W10 m ρ c (Proc.devRef .tc main_arg16) = m ((c : Thread nD τ).loc main_arg16) :=
  (W10_of_ne m ρ c main_arg16 (by decide)).trans (kept_arg16_9 m ρ c)
theorem kept_arg16_11 (c : Dev nD) : W11 m ρ c (Proc.devRef .tc main_arg16) = m ((c : Thread nD τ).loc main_arg16) :=
  (StableHlo.after_of_forall_not_mem (b := Proc.devRef .tc main_arg16) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg16_10 m ρ c)
theorem kept_arg16_12 (c : Dev nD) : W12 m ρ c (Proc.devRef .tc main_arg16) = m ((c : Thread nD τ).loc main_arg16) :=
  (W12_of_ne m ρ c main_arg16 (by decide)).trans (kept_arg16_11 m ρ c)
theorem kept_arg16_13 (c : Dev nD) : W13 m ρ c (Proc.devRef .tc main_arg16) = m ((c : Thread nD τ).loc main_arg16) :=
  (StableHlo.after_of_forall_not_mem (b := Proc.devRef .tc main_arg16) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg16_12 m ρ c)
theorem kept_arg16_14 (c : Dev nD) : W14 m ρ c (Proc.devRef .tc main_arg16) = m ((c : Thread nD τ).loc main_arg16) :=
  (W14_of_ne m ρ c main_arg16 (by decide)).trans (kept_arg16_13 m ρ c)

theorem kept_arg11_1 (c : Dev nD) : W1 m ρ c (Proc.devRef .tc main_arg11) = m ((c : Thread nD τ).loc main_arg11) :=
  (StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl)
theorem kept_arg11_2 (c : Dev nD) : W2 m ρ c (Proc.devRef .tc main_arg11) = m ((c : Thread nD τ).loc main_arg11) :=
  (W2_of_ne m ρ c main_arg11 (by decide)).trans (kept_arg11_1 m ρ c)
theorem kept_arg11_3 (c : Dev nD) : W3 m ρ c (Proc.devRef .tc main_arg11) = m ((c : Thread nD τ).loc main_arg11) :=
  (StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg11_2 m ρ c)
theorem kept_arg11_4 (c : Dev nD) : W4 m ρ c (Proc.devRef .tc main_arg11) = m ((c : Thread nD τ).loc main_arg11) :=
  (W4_of_ne m ρ c main_arg11 (by decide)).trans (kept_arg11_3 m ρ c)
theorem kept_arg11_5 (c : Dev nD) : W5 m ρ c (Proc.devRef .tc main_arg11) = m ((c : Thread nD τ).loc main_arg11) :=
  (StableHlo.after_of_forall_not_mem (b := Proc.devRef .tc main_arg11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg11_4 m ρ c)
theorem kept_arg11_6 (c : Dev nD) : W6 m ρ c (Proc.devRef .tc main_arg11) = m ((c : Thread nD τ).loc main_arg11) :=
  (W6_of_ne m ρ c main_arg11 (by decide)).trans (kept_arg11_5 m ρ c)
theorem kept_arg11_7 (c : Dev nD) : W7 m ρ c (Proc.devRef .tc main_arg11) = m ((c : Thread nD τ).loc main_arg11) :=
  (StableHlo.after_of_forall_not_mem (b := Proc.devRef .tc main_arg11) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg11_6 m ρ c)
theorem kept_arg11_8 (c : Dev nD) : W8 m ρ c (Proc.devRef .tc main_arg11) = m ((c : Thread nD τ).loc main_arg11) :=
  (W8_of_ne m ρ c main_arg11 (by decide)).trans (kept_arg11_7 m ρ c)
theorem kept_arg11_9 (c : Dev nD) : W9 m ρ c (Proc.devRef .tc main_arg11) = m ((c : Thread nD τ).loc main_arg11) :=
  (StableHlo.after_of_forall_not_mem (b := Proc.devRef .tc main_arg11) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg11_8 m ρ c)
theorem kept_arg11_10 (c : Dev nD) : W10 m ρ c (Proc.devRef .tc main_arg11) = m ((c : Thread nD τ).loc main_arg11) :=
  (W10_of_ne m ρ c main_arg11 (by decide)).trans (kept_arg11_9 m ρ c)
theorem kept_arg11_11 (c : Dev nD) : W11 m ρ c (Proc.devRef .tc main_arg11) = m ((c : Thread nD τ).loc main_arg11) :=
  (StableHlo.after_of_forall_not_mem (b := Proc.devRef .tc main_arg11) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg11_10 m ρ c)
theorem kept_arg11_12 (c : Dev nD) : W12 m ρ c (Proc.devRef .tc main_arg11) = m ((c : Thread nD τ).loc main_arg11) :=
  (W12_of_ne m ρ c main_arg11 (by decide)).trans (kept_arg11_11 m ρ c)
theorem kept_arg11_13 (c : Dev nD) : W13 m ρ c (Proc.devRef .tc main_arg11) = m ((c : Thread nD τ).loc main_arg11) :=
  (StableHlo.after_of_forall_not_mem (b := Proc.devRef .tc main_arg11) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg11_12 m ρ c)
theorem kept_arg11_14 (c : Dev nD) : W14 m ρ c (Proc.devRef .tc main_arg11) = m ((c : Thread nD τ).loc main_arg11) :=
  (W14_of_ne m ρ c main_arg11 (by decide)).trans (kept_arg11_13 m ρ c)

theorem kept_arg13_1 (c : Dev nD) : W1 m ρ c (Proc.devRef .tc main_arg13) = m ((c : Thread nD τ).loc main_arg13) :=
  (StableHlo.after_of_forall_not_mem (b := Proc.devRef .tc main_arg13) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl)
theorem kept_arg13_2 (c : Dev nD) : W2 m ρ c (Proc.devRef .tc main_arg13) = m ((c : Thread nD τ).loc main_arg13) :=
  (W2_of_ne m ρ c main_arg13 (by decide)).trans (kept_arg13_1 m ρ c)
theorem kept_arg13_3 (c : Dev nD) : W3 m ρ c (Proc.devRef .tc main_arg13) = m ((c : Thread nD τ).loc main_arg13) :=
  (StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg13_2 m ρ c)
theorem kept_arg13_4 (c : Dev nD) : W4 m ρ c (Proc.devRef .tc main_arg13) = m ((c : Thread nD τ).loc main_arg13) :=
  (W4_of_ne m ρ c main_arg13 (by decide)).trans (kept_arg13_3 m ρ c)
theorem kept_arg13_5 (c : Dev nD) : W5 m ρ c (Proc.devRef .tc main_arg13) = m ((c : Thread nD τ).loc main_arg13) :=
  (StableHlo.after_of_forall_not_mem (b := Proc.devRef .tc main_arg13) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg13_4 m ρ c)
theorem kept_arg13_6 (c : Dev nD) : W6 m ρ c (Proc.devRef .tc main_arg13) = m ((c : Thread nD τ).loc main_arg13) :=
  (W6_of_ne m ρ c main_arg13 (by decide)).trans (kept_arg13_5 m ρ c)
theorem kept_arg13_7 (c : Dev nD) : W7 m ρ c (Proc.devRef .tc main_arg13) = m ((c : Thread nD τ).loc main_arg13) :=
  (StableHlo.after_of_forall_not_mem (b := Proc.devRef .tc main_arg13) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg13_6 m ρ c)
theorem kept_arg13_8 (c : Dev nD) : W8 m ρ c (Proc.devRef .tc main_arg13) = m ((c : Thread nD τ).loc main_arg13) :=
  (W8_of_ne m ρ c main_arg13 (by decide)).trans (kept_arg13_7 m ρ c)
theorem kept_arg13_9 (c : Dev nD) : W9 m ρ c (Proc.devRef .tc main_arg13) = m ((c : Thread nD τ).loc main_arg13) :=
  (StableHlo.after_of_forall_not_mem (b := Proc.devRef .tc main_arg13) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg13_8 m ρ c)
theorem kept_arg13_10 (c : Dev nD) : W10 m ρ c (Proc.devRef .tc main_arg13) = m ((c : Thread nD τ).loc main_arg13) :=
  (W10_of_ne m ρ c main_arg13 (by decide)).trans (kept_arg13_9 m ρ c)
theorem kept_arg13_11 (c : Dev nD) : W11 m ρ c (Proc.devRef .tc main_arg13) = m ((c : Thread nD τ).loc main_arg13) :=
  (StableHlo.after_of_forall_not_mem (b := Proc.devRef .tc main_arg13) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg13_10 m ρ c)
theorem kept_arg13_12 (c : Dev nD) : W12 m ρ c (Proc.devRef .tc main_arg13) = m ((c : Thread nD τ).loc main_arg13) :=
  (W12_of_ne m ρ c main_arg13 (by decide)).trans (kept_arg13_11 m ρ c)
theorem kept_arg13_13 (c : Dev nD) : W13 m ρ c (Proc.devRef .tc main_arg13) = m ((c : Thread nD τ).loc main_arg13) :=
  (StableHlo.after_of_forall_not_mem (b := Proc.devRef .tc main_arg13) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg13_12 m ρ c)
theorem kept_arg13_14 (c : Dev nD) : W14 m ρ c (Proc.devRef .tc main_arg13) = m ((c : Thread nD τ).loc main_arg13) :=
  (W14_of_ne m ρ c main_arg13 (by decide)).trans (kept_arg13_13 m ρ c)

theorem kept_arg10_1 (c : Dev nD) : W1 m ρ c (Proc.devRef .tc main_arg10) = m ((c : Thread nD τ).loc main_arg10) :=
  (StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl)
theorem kept_arg10_2 (c : Dev nD) : W2 m ρ c (Proc.devRef .tc main_arg10) = m ((c : Thread nD τ).loc main_arg10) :=
  (W2_of_ne m ρ c main_arg10 (by decide)).trans (kept_arg10_1 m ρ c)
theorem kept_arg10_3 (c : Dev nD) : W3 m ρ c (Proc.devRef .tc main_arg10) = m ((c : Thread nD τ).loc main_arg10) :=
  (StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg10_2 m ρ c)
theorem kept_arg10_4 (c : Dev nD) : W4 m ρ c (Proc.devRef .tc main_arg10) = m ((c : Thread nD τ).loc main_arg10) :=
  (W4_of_ne m ρ c main_arg10 (by decide)).trans (kept_arg10_3 m ρ c)
theorem kept_arg10_5 (c : Dev nD) : W5 m ρ c (Proc.devRef .tc main_arg10) = m ((c : Thread nD τ).loc main_arg10) :=
  (StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg10_4 m ρ c)
theorem kept_arg10_6 (c : Dev nD) : W6 m ρ c (Proc.devRef .tc main_arg10) = m ((c : Thread nD τ).loc main_arg10) :=
  (W6_of_ne m ρ c main_arg10 (by decide)).trans (kept_arg10_5 m ρ c)
theorem kept_arg10_7 (c : Dev nD) : W7 m ρ c (Proc.devRef .tc main_arg10) = m ((c : Thread nD τ).loc main_arg10) :=
  (StableHlo.after_of_forall_not_mem (b := Proc.devRef .tc main_arg10) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg10_6 m ρ c)
theorem kept_arg10_8 (c : Dev nD) : W8 m ρ c (Proc.devRef .tc main_arg10) = m ((c : Thread nD τ).loc main_arg10) :=
  (W8_of_ne m ρ c main_arg10 (by decide)).trans (kept_arg10_7 m ρ c)
theorem kept_arg10_9 (c : Dev nD) : W9 m ρ c (Proc.devRef .tc main_arg10) = m ((c : Thread nD τ).loc main_arg10) :=
  (StableHlo.after_of_forall_not_mem (b := Proc.devRef .tc main_arg10) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg10_8 m ρ c)
theorem kept_arg10_10 (c : Dev nD) : W10 m ρ c (Proc.devRef .tc main_arg10) = m ((c : Thread nD τ).loc main_arg10) :=
  (W10_of_ne m ρ c main_arg10 (by decide)).trans (kept_arg10_9 m ρ c)
theorem kept_arg10_11 (c : Dev nD) : W11 m ρ c (Proc.devRef .tc main_arg10) = m ((c : Thread nD τ).loc main_arg10) :=
  (StableHlo.after_of_forall_not_mem (b := Proc.devRef .tc main_arg10) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg10_10 m ρ c)
theorem kept_arg10_12 (c : Dev nD) : W12 m ρ c (Proc.devRef .tc main_arg10) = m ((c : Thread nD τ).loc main_arg10) :=
  (W12_of_ne m ρ c main_arg10 (by decide)).trans (kept_arg10_11 m ρ c)
theorem kept_arg10_13 (c : Dev nD) : W13 m ρ c (Proc.devRef .tc main_arg10) = m ((c : Thread nD τ).loc main_arg10) :=
  (StableHlo.after_of_forall_not_mem (b := Proc.devRef .tc main_arg10) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg10_12 m ρ c)
theorem kept_arg10_14 (c : Dev nD) : W14 m ρ c (Proc.devRef .tc main_arg10) = m ((c : Thread nD τ).loc main_arg10) :=
  (W14_of_ne m ρ c main_arg10 (by decide)).trans (kept_arg10_13 m ρ c)
theorem kept_arg10_15 (c : Dev nD) : W15 m ρ c (Proc.devRef .tc main_arg10) = m ((c : Thread nD τ).loc main_arg10) :=
  (StableHlo.after_of_forall_not_mem (b := Proc.devRef .tc main_arg10) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg10_14 m ρ c)

theorem kept_arg12_1 (c : Dev nD) : W1 m ρ c (Proc.devRef .tc main_arg12) = m ((c : Thread nD τ).loc main_arg12) :=
  (StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl)
theorem kept_arg12_2 (c : Dev nD) : W2 m ρ c (Proc.devRef .tc main_arg12) = m ((c : Thread nD τ).loc main_arg12) :=
  (W2_of_ne m ρ c main_arg12 (by decide)).trans (kept_arg12_1 m ρ c)
theorem kept_arg12_3 (c : Dev nD) : W3 m ρ c (Proc.devRef .tc main_arg12) = m ((c : Thread nD τ).loc main_arg12) :=
  (StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg12_2 m ρ c)
theorem kept_arg12_4 (c : Dev nD) : W4 m ρ c (Proc.devRef .tc main_arg12) = m ((c : Thread nD τ).loc main_arg12) :=
  (W4_of_ne m ρ c main_arg12 (by decide)).trans (kept_arg12_3 m ρ c)
theorem kept_arg12_5 (c : Dev nD) : W5 m ρ c (Proc.devRef .tc main_arg12) = m ((c : Thread nD τ).loc main_arg12) :=
  (StableHlo.after_of_forall_not_mem (b := Proc.devRef .tc main_arg12) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg12_4 m ρ c)
theorem kept_arg12_6 (c : Dev nD) : W6 m ρ c (Proc.devRef .tc main_arg12) = m ((c : Thread nD τ).loc main_arg12) :=
  (W6_of_ne m ρ c main_arg12 (by decide)).trans (kept_arg12_5 m ρ c)
theorem kept_arg12_7 (c : Dev nD) : W7 m ρ c (Proc.devRef .tc main_arg12) = m ((c : Thread nD τ).loc main_arg12) :=
  (StableHlo.after_of_forall_not_mem (b := Proc.devRef .tc main_arg12) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg12_6 m ρ c)
theorem kept_arg12_8 (c : Dev nD) : W8 m ρ c (Proc.devRef .tc main_arg12) = m ((c : Thread nD τ).loc main_arg12) :=
  (W8_of_ne m ρ c main_arg12 (by decide)).trans (kept_arg12_7 m ρ c)
theorem kept_arg12_9 (c : Dev nD) : W9 m ρ c (Proc.devRef .tc main_arg12) = m ((c : Thread nD τ).loc main_arg12) :=
  (StableHlo.after_of_forall_not_mem (b := Proc.devRef .tc main_arg12) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg12_8 m ρ c)
theorem kept_arg12_10 (c : Dev nD) : W10 m ρ c (Proc.devRef .tc main_arg12) = m ((c : Thread nD τ).loc main_arg12) :=
  (W10_of_ne m ρ c main_arg12 (by decide)).trans (kept_arg12_9 m ρ c)
theorem kept_arg12_11 (c : Dev nD) : W11 m ρ c (Proc.devRef .tc main_arg12) = m ((c : Thread nD τ).loc main_arg12) :=
  (StableHlo.after_of_forall_not_mem (b := Proc.devRef .tc main_arg12) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg12_10 m ρ c)
theorem kept_arg12_12 (c : Dev nD) : W12 m ρ c (Proc.devRef .tc main_arg12) = m ((c : Thread nD τ).loc main_arg12) :=
  (W12_of_ne m ρ c main_arg12 (by decide)).trans (kept_arg12_11 m ρ c)
theorem kept_arg12_13 (c : Dev nD) : W13 m ρ c (Proc.devRef .tc main_arg12) = m ((c : Thread nD τ).loc main_arg12) :=
  (StableHlo.after_of_forall_not_mem (b := Proc.devRef .tc main_arg12) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg12_12 m ρ c)
theorem kept_arg12_14 (c : Dev nD) : W14 m ρ c (Proc.devRef .tc main_arg12) = m ((c : Thread nD τ).loc main_arg12) :=
  (W14_of_ne m ρ c main_arg12 (by decide)).trans (kept_arg12_13 m ρ c)
theorem kept_arg12_15 (c : Dev nD) : W15 m ρ c (Proc.devRef .tc main_arg12) = m ((c : Thread nD τ).loc main_arg12) :=
  (StableHlo.after_of_forall_not_mem (b := Proc.devRef .tc main_arg12) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept_arg12_14 m ρ c)

end Cert.KernelIdeal.Kept

end
-- ==== Proof.Region0.lean ====
/-
  The first launch: every block of 16000 rows of the edge features goes through one dense layer (16 inputs, 64
  outputs). Block t is rows 16000·t … 16000·t + 15999, the weight matrix and the bias row are seen whole at every
  point, and the 50 blocks tile the 800000 rows; so the array the launch leaves is the host's spelling of the
  layer on the whole edge-feature matrix.
-/
import proofs.«150986_j70806830842645_1_alg».proof.Proof.Gen.KernelIdeal.Frame
import Idealize.ShloMosaic.Lib.Pipeline.Value
import proofs.«150986_j70806830842645_1_alg».proof.Proof.LibDense
import proofs.«150986_j70806830842645_1_alg».proof.Proof.Layers

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row blocks of the input and of the output move together, one
    block per point; the other windows stay at the origin. -/
theorem idx0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- What point t writes back is block t of the layer on the whole matrix. -/
theorem flushed0 (c : Dev nD) (t : Fin cfg0.N) :
    (dat0 V c).flushed 3 t = ((cfg0.win 3).blk t).view.read (Elt Ideal) (Cert.Layers.edgeLin (V c main_arg1) (V c main_arg4) (V c main_v0)) := by
  show (cfg0.win 3).cut (grid0.coords t) ((dat0 V c).after 3 t) = _
  rw [after0_3]
  unfold out0_3
  rw [View.canon_unit_zero hz]
  simp only [View.ld_unit_zero (S := S16000x16) hz, View.ld_unit_zero (S := S16x64) hz, View.ld_unit_zero (S := S1x64) hz]
  obtain ⟨e00, e01, e10, e11, e20, e21, e31, e30⟩ := idx0 t
  have ht : t.val < 50 := t.isLt
  funext y
  obtain ⟨p, q, rfl⟩ : ∃ (p : Fin 16000) (q : Fin 64), y = ix2 p q := ⟨y 0, y 1, eq_ix2 y⟩
  have hp : p.val < 16000 := p.isLt
  have hr : win0_3.index t (0 : Fin 2) * 16000 + 1 * p.val < 800000 := by omega
  show k0_pay1 (iblk0 V c 0 t) (iblk0 V c 1 t) (iblk0 V c 2 t) (ix2 p q)
    = Cert.Layers.edgeLin (V c main_arg1) (V c main_arg4) (V c main_v0) (((cfg0.win 3).blk t).view.emb (ix2 p q))
  have hemb : ((cfg0.win 3).blk t).view.emb (ix2 p q) = ix2 (⟨win0_3.index t (0 : Fin 2) * 16000 + 1 * p.val, hr⟩ : Fin 800000) q := by
    funext a; apply Fin.ext
    match a with
    | ⟨0, _⟩ => rfl
    | ⟨1, _⟩ => show win0_3.index t (1 : Fin 2) * 64 + 1 * q.val = q.val; omega
  rw [hemb]
  show Cert.Dense.body 16000 16 64 bitsLt_bf16_f32 shapeCasts_S1x64_S1x64 broadcasts_S1x64_S16000x64 (iblk0 V c 0 t) (iblk0 V c 1 t) (iblk0 V c 2 t) (ix2 p q) = _
  unfold Cert.Layers.edgeLin
  refine Cert.Dense.body_eq_host 800000 16000 16 64 _ _ _ _ (V c main_arg1) (V c main_arg4) (V c main_v0)
    (iblk0 V c 0 t) (iblk0 V c 1 t) (iblk0 V c 2 t) p _ q ?_ ?_ ?_
  · intro k
    show V c main_arg1 (((cfg0.win 0).blk t).view.emb (ix2 p k)) = V c main_arg1 (ix2 _ k)
    have hk : ((cfg0.win 0).blk t).view.emb (ix2 p k) = ix2 (⟨win0_3.index t (0 : Fin 2) * 16000 + 1 * p.val, hr⟩ : Fin 800000) k := by
      funext a; apply Fin.ext
      match a with
      | ⟨0, _⟩ => show win0_0.index t (0 : Fin 2) * 16000 + 1 * p.val = win0_3.index t (0 : Fin 2) * 16000 + 1 * p.val; omega
      | ⟨1, _⟩ => show win0_0.index t (1 : Fin 2) * 16 + 1 * k.val = k.val; omega
    rw [hk]
  · funext z
    show V c main_arg4 (((cfg0.win 1).blk t).view.emb z) = V c main_arg4 z
    have hz' : ((cfg0.win 1).blk t).view.emb z = z := by
      funext a; apply Fin.ext
      match a with
      | ⟨0, _⟩ => show win0_1.index t (0 : Fin 2) * 16 + 1 * (z 0).val = (z 0).val; omega
      | ⟨1, _⟩ => show win0_1.index t (1 : Fin 2) * 64 + 1 * (z 1).val = (z 1).val; omega
    rw [hz']
  · funext z
    show V c main_v0 (((cfg0.win 2).blk t).view.emb z) = V c main_v0 z
    have hz' : ((cfg0.win 2).blk t).view.emb z = z := by
      funext a; apply Fin.ext
      match a with
      | ⟨0, _⟩ => show win0_2.index t (0 : Fin 2) * 1 + 1 * (z 0).val = (z 0).val; omega
      | ⟨1, _⟩ => show win0_2.index t (1 : Fin 2) * 64 + 1 * (z 1).val = (z 1).val; omega
    rw [hz']

/-- An index is in point t's block iff each coordinate is in the block's range on its axis. -/
theorem mem_blk0 (t : Fin cfg0.N) (i : S800000x64.Idx) :
    i ∈ ((cfg0.win 3).blk t).view.set ↔ ∀ a : Fin 2, win0_3.index t a * S16000x64.size a ≤ (i a).val ∧ (i a).val < win0_3.index t a * S16000x64.size a + S16000x64.size a := by
  show i ∈ ((View.whole main_v1).slice (win0_3.rect t)).set ↔ _
  rw [View.set_slice_whole, Rect.mem_set_unit]
  exact Iff.rfl

/-- Row r lies in the block of point r / 16000. -/
theorem cover0 (i : S800000x64.Idx) : ∃ t : Fin cfg0.N, (cfg0.win 3).flush t = true ∧ i ∈ ((cfg0.win 3).blk t).view.set := by
  have hi0 : (i 0).val < 800000 := (i 0).isLt
  have hi1 : (i 1).val < 64 := (i 1).isLt
  have hN : cfg0.N = 50 := N_0
  have hlt : (i 0).val / 16000 < cfg0.N := by rw [hN]; omega
  obtain ⟨e00, e01, e10, e11, e20, e21, e31, e30⟩ := idx0 ⟨(i 0).val / 16000, hlt⟩
  refine ⟨⟨(i 0).val / 16000, hlt⟩, flush0_3 _, ?_⟩
  rw [mem_blk0]
  intro a
  match a with
  | ⟨0, _⟩ =>
    show win0_3.index ⟨(i 0).val / 16000, hlt⟩ (0 : Fin 2) * 16000 ≤ (i 0).val ∧ (i 0).val < win0_3.index ⟨(i 0).val / 16000, hlt⟩ (0 : Fin 2) * 16000 + 16000
    rw [e30]; show (i 0).val / 16000 * 16000 ≤ (i 0).val ∧ (i 0).val < (i 0).val / 16000 * 16000 + 16000; omega
  | ⟨1, _⟩ =>
    show win0_3.index ⟨(i 0).val / 16000, hlt⟩ (1 : Fin 2) * 64 ≤ (i 1).val ∧ (i 1).val < win0_3.index ⟨(i 0).val / 16000, hlt⟩ (1 : Fin 2) * 64 + 64
    rw [e31]; omega

/-- The array the first launch leaves: the layer on the whole matrix. -/
theorem final0 (c : Dev nD) :
    (dat0 V c).arrAt 3 cfg0.N = Cert.Layers.edgeLin (V c main_arg1) (V c main_arg4) (V c main_v0) :=
  (dat0 V c).arrAt_eq_of_cover 3 _ (fun t _ => flushed0 V c t) cover0

end Cert.KernelIdeal.Regions

end
-- ==== Proof.Region1.lean ====
/-
  The node launch: every block of 2000 rows of the node features goes through the 32 → 64 layer and the same rows of
  the summed edge messages are added; that sum is written out once as it is (the node input) and once after the
  maximum with zero (the first node state). Block t is rows 2000·t … 2000·t + 1999, the weight matrix and the bias
  row are seen whole at every point, and the 25 blocks tile the 50000 rows of either output.
-/
import proofs.«150986_j70806830842645_1_alg».proof.Proof.Gen.KernelIdeal.Frame
import Idealize.ShloMosaic.Lib.Pipeline.Value
import proofs.«150986_j70806830842645_1_alg».proof.Proof.LibDense
import proofs.«150986_j70806830842645_1_alg».proof.Proof.Layers

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- Where each window's block sits at point t: the row blocks of the tiled inputs and of the outputs move together,
    one block per point; the windows seen whole stay at the origin. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- What point t writes back to the node input is block t of the node input on the whole arrays. -/
theorem flushed1_4 (c : Dev nD) (t : Fin cfg1.N) :
    (dat1 V c).flushed 4 t = ((cfg1.win 4).blk t).view.read (Elt Ideal) (Cert.Layers.nodeIn (V c main_arg0) (V c main_arg2) (V c main_v5) (V c main_v4)) := by
  show (cfg1.win 4).cut (grid1.coords t) ((dat1 V c).after 4 t) = _
  rw [after1_4]
  unfold out1_4
  rw [View.canon_unit_zero hz1]
  simp only [View.ld_unit_zero (S := S2000x32) hz1, View.ld_unit_zero (S := S32x64) hz1, View.ld_unit_zero (S := S1x64) hz1, View.ld_unit_zero (S := S2000x64) hz1]
  obtain ⟨e00, e01, e10, e11, e20, e21, e30, e31, o40, o41, o50, o51⟩ := idx1 t
  have ht : t.val < 25 := t.isLt
  funext y
  obtain ⟨p, q, rfl⟩ : ∃ (p : Fin 2000) (q : Fin 64), y = ix2 p q := ⟨y 0, y 1, eq_ix2 y⟩
  have hp : p.val < 2000 := p.isLt
  have hr : win1_4.index t (0 : Fin 2) * 2000 + 1 * p.val < 50000 := by omega
  show k1_pay1 (iblk1 V c 0 t) (iblk1 V c 1 t) (iblk1 V c 2 t) (iblk1 V c 3 t) (ix2 p q)
    = (Cert.Layers.nodeIn (V c main_arg0) (V c main_arg2) (V c main_v5) (V c main_v4)) (((cfg1.win 4).blk t).view.emb (ix2 p q))
  have hemb : ((cfg1.win 4).blk t).view.emb (ix2 p q) = ix2 (⟨win1_4.index t (0 : Fin 2) * 2000 + 1 * p.val, hr⟩ : Fin 50000) q := by
    funext a; apply Fin.ext
    match a with
    | ⟨0, _⟩ => rfl
    | ⟨1, _⟩ => show win1_4.index t (1 : Fin 2) * 64 + 1 * q.val = q.val; omega
  rw [hemb]
  unfold Cert.Layers.nodeIn
  show Cert.Dense.body 2000 32 64 bitsLt_bf16_f32 shapeCasts_S1x64_S1x64 broadcasts_S1x64_S2000x64 (iblk1 V c 0 t) (iblk1 V c 1 t) (iblk1 V c 2 t) (ix2 p q) + shapeCast S2000x64 (iblk1 V c 3 t) shapeCasts_S2000x64_S2000x64 (ix2 p q)
    = Cert.Dense.host 50000 32 64 (by decide) (V c main_arg0) (V c main_arg2) (V c main_v5) (ix2 (⟨win1_4.index t (0 : Fin 2) * 2000 + 1 * p.val, hr⟩ : Fin 50000) q) + V c main_v4 (ix2 (⟨win1_4.index t (0 : Fin 2) * 2000 + 1 * p.val, hr⟩ : Fin 50000) q)
  refine congrArg₂ (· + ·) ?_ ?_
  · refine Cert.Dense.body_eq_host 50000 2000 32 64 _ _ _ _ (V c main_arg0) (V c main_arg2) (V c main_v5)
        (iblk1 V c 0 t) (iblk1 V c 1 t) (iblk1 V c 2 t) p _ q ?_ ?_ ?_
    · intro k
      show V c main_arg0 (((cfg1.win 0).blk t).view.emb (ix2 p k)) = V c main_arg0 (ix2 (⟨win1_4.index t (0 : Fin 2) * 2000 + 1 * p.val, hr⟩ : Fin 50000) k)
      have hk : ((cfg1.win 0).blk t).view.emb (ix2 p k) = ix2 (⟨win1_4.index t (0 : Fin 2) * 2000 + 1 * p.val, hr⟩ : Fin 50000) k := by
        funext a; apply Fin.ext
        match a with
        | ⟨0, _⟩ => show win1_0.index t (0 : Fin 2) * 2000 + 1 * p.val = win1_4.index t (0 : Fin 2) * 2000 + 1 * p.val; omega
        | ⟨1, _⟩ => show win1_0.index t (1 : Fin 2) * 32 + 1 * k.val = k.val; omega
      rw [hk]
    · funext z
      show V c main_arg2 (((cfg1.win 1).blk t).view.emb z) = V c main_arg2 z
      have hz' : ((cfg1.win 1).blk t).view.emb z = z := by
        funext a; apply Fin.ext
        match a with
        | ⟨0, _⟩ => show win1_1.index t (0 : Fin 2) * 32 + 1 * (z 0).val = (z 0).val; omega
        | ⟨1, _⟩ => show win1_1.index t (1 : Fin 2) * 64 + 1 * (z 1).val = (z 1).val; omega
      rw [hz']
    · funext z
      show V c main_v5 (((cfg1.win 2).blk t).view.emb z) = V c main_v5 z
      have hz' : ((cfg1.win 2).blk t).view.emb z = z := by
        funext a; apply Fin.ext
        match a with
        | ⟨0, _⟩ => show win1_2.index t (0 : Fin 2) * 1 + 1 * (z 0).val = (z 0).val; omega
        | ⟨1, _⟩ => show win1_2.index t (1 : Fin 2) * 64 + 1 * (z 1).val = (z 1).val; omega
      rw [hz']
  · refine (congrFun (shapeCast_self (iblk1 V c 3 t) shapeCasts_S2000x64_S2000x64) (ix2 p q)).trans ?_
    show V c main_v4 (((cfg1.win 3).blk t).view.emb (ix2 p q)) = V c main_v4 (ix2 (⟨win1_4.index t (0 : Fin 2) * 2000 + 1 * p.val, hr⟩ : Fin 50000) q)
    have h3 : ((cfg1.win 3).blk t).view.emb (ix2 p q) = ix2 (⟨win1_4.index t (0 : Fin 2) * 2000 + 1 * p.val, hr⟩ : Fin 50000) q := by
      funext a; apply Fin.ext
      match a with
      | ⟨0, _⟩ => show win1_3.index t (0 : Fin 2) * 2000 + 1 * p.val = win1_4.index t (0 : Fin 2) * 2000 + 1 * p.val; omega
      | ⟨1, _⟩ => show win1_3.index t (1 : Fin 2) * 64 + 1 * q.val = q.val; omega
    rw [h3]

/-- An index is in point t's block of the node input iff each coordinate is in the block's range on its axis. -/
theorem mem_blk1_4 (t : Fin cfg1.N) (i : S50000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v6_0).slice (win1_4.rect t)).set ↔ _
  rw [View.set_slice_whole, Rect.mem_set_unit]
  exact Iff.rfl

/-- Row r of the node input lies in the block of point r / 2000. -/
theorem cover1_4 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 25 := N_1
  have hlt : (i 0).val / 2000 < cfg1.N := by rw [hN]; omega
  obtain ⟨e00, e01, e10, e11, e20, e21, e30, e31, o40, o41, o50, o51⟩ := idx1 ⟨(i 0).val / 2000, hlt⟩
  refine ⟨⟨(i 0).val / 2000, hlt⟩, flush1_4 _, ?_⟩
  rw [mem_blk1_4]
  intro a
  match a with
  | ⟨0, _⟩ =>
    show win1_4.index ⟨(i 0).val / 2000, hlt⟩ (0 : Fin 2) * 2000 ≤ (i 0).val ∧ (i 0).val < win1_4.index ⟨(i 0).val / 2000, hlt⟩ (0 : Fin 2) * 2000 + 2000
    rw [o40]; show (i 0).val / 2000 * 2000 ≤ (i 0).val ∧ (i 0).val < (i 0).val / 2000 * 2000 + 2000; omega
  | ⟨1, _⟩ =>
    show win1_4.index ⟨(i 0).val / 2000, hlt⟩ (1 : Fin 2) * 64 ≤ (i 1).val ∧ (i 1).val < win1_4.index ⟨(i 0).val / 2000, hlt⟩ (1 : Fin 2) * 64 + 64
    rw [o41]; omega

/-- The array the launch leaves in the node input: the node input on the whole arrays. -/
theorem final1_4 (c : Dev nD) :
    (dat1 V c).arrAt 4 cfg1.N = Cert.Layers.nodeIn (V c main_arg0) (V c main_arg2) (V c main_v5) (V c main_v4) :=
  (dat1 V c).arrAt_eq_of_cover 4 _ (fun t _ => flushed1_4 V c t) cover1_4

/-- What point t writes back to the first node state is block t of the maximum with zero of the node input on the whole arrays. -/
theorem flushed1_5 (c : Dev nD) (t : Fin cfg1.N) :
    (dat1 V c).flushed 5 t = ((cfg1.win 5).blk t).view.read (Elt Ideal) (Cert.Layers.relu64 (Cert.Layers.nodeIn (V c main_arg0) (V c main_arg2) (V c main_v5) (V c main_v4))) := by
  show (cfg1.win 5).cut (grid1.coords t) ((dat1 V c).after 5 t) = _
  rw [after1_5]
  unfold out1_5
  rw [View.canon_unit_zero hz1]
  simp only [View.ld_unit_zero (S := S2000x32) hz1, View.ld_unit_zero (S := S32x64) hz1, View.ld_unit_zero (S := S1x64) hz1, View.ld_unit_zero (S := S2000x64) hz1]
  obtain ⟨e00, e01, e10, e11, e20, e21, e30, e31, o40, o41, o50, o51⟩ := idx1 t
  have ht : t.val < 25 := t.isLt
  funext y
  obtain ⟨p, q, rfl⟩ : ∃ (p : Fin 2000) (q : Fin 64), y = ix2 p q := ⟨y 0, y 1, eq_ix2 y⟩
  have hp : p.val < 2000 := p.isLt
  have hr : win1_5.index t (0 : Fin 2) * 2000 + 1 * p.val < 50000 := by omega
  show k1_pay2 (iblk1 V c 0 t) (iblk1 V c 1 t) (iblk1 V c 2 t) (iblk1 V c 3 t) (ix2 p q)
    = (Cert.Layers.relu64 (Cert.Layers.nodeIn (V c main_arg0) (V c main_arg2) (V c main_v5) (V c main_v4))) (((cfg1.win 5).blk t).view.emb (ix2 p q))
  have hemb : ((cfg1.win 5).blk t).view.emb (ix2 p q) = ix2 (⟨win1_5.index t (0 : Fin 2) * 2000 + 1 * p.val, hr⟩ : Fin 50000) q := by
    funext a; apply Fin.ext
    match a with
    | ⟨0, _⟩ => rfl
    | ⟨1, _⟩ => show win1_5.index t (1 : Fin 2) * 64 + 1 * q.val = q.val; omega
  rw [hemb]
  unfold Cert.Layers.relu64 Cert.Layers.nodeIn
  rw [Cert.Dense.relu_apply]
  show max (Cert.Dense.body 2000 32 64 bitsLt_bf16_f32 shapeCasts_S1x64_S1x64 broadcasts_S1x64_S2000x64 (iblk1 V c 0 t) (iblk1 V c 1 t) (iblk1 V c 2 t) (ix2 p q) + shapeCast S2000x64 (iblk1 V c 3 t) shapeCasts_S2000x64_S2000x64 (ix2 p q)) (Scalar.ofBits (F := Ideal) .f32 0x00000000#32)
    = max (Cert.Dense.host 50000 32 64 (by decide) (V c main_arg0) (V c main_arg2) (V c main_v5) (ix2 (⟨win1_5.index t (0 : Fin 2) * 2000 + 1 * p.val, hr⟩ : Fin 50000) q) + V c main_v4 (ix2 (⟨win1_5.index t (0 : Fin 2) * 2000 + 1 * p.val, hr⟩ : Fin 50000) q)) (Scalar.ofBits (F := Ideal) .f32 0x00000000#32)
  refine congrArg (fun z => max z (Scalar.ofBits (F := Ideal) .f32 0x00000000#32)) ?_
  refine congrArg₂ (· + ·) ?_ ?_
  · refine Cert.Dense.body_eq_host 50000 2000 32 64 _ _ _ _ (V c main_arg0) (V c main_arg2) (V c main_v5)
        (iblk1 V c 0 t) (iblk1 V c 1 t) (iblk1 V c 2 t) p _ q ?_ ?_ ?_
    · intro k
      show V c main_arg0 (((cfg1.win 0).blk t).view.emb (ix2 p k)) = V c main_arg0 (ix2 (⟨win1_5.index t (0 : Fin 2) * 2000 + 1 * p.val, hr⟩ : Fin 50000) k)
      have hk : ((cfg1.win 0).blk t).view.emb (ix2 p k) = ix2 (⟨win1_5.index t (0 : Fin 2) * 2000 + 1 * p.val, hr⟩ : Fin 50000) k := by
        funext a; apply Fin.ext
        match a with
        | ⟨0, _⟩ => show win1_0.index t (0 : Fin 2) * 2000 + 1 * p.val = win1_5.index t (0 : Fin 2) * 2000 + 1 * p.val; omega
        | ⟨1, _⟩ => show win1_0.index t (1 : Fin 2) * 32 + 1 * k.val = k.val; omega
      rw [hk]
    · funext z
      show V c main_arg2 (((cfg1.win 1).blk t).view.emb z) = V c main_arg2 z
      have hz' : ((cfg1.win 1).blk t).view.emb z = z := by
        funext a; apply Fin.ext
        match a with
        | ⟨0, _⟩ => show win1_1.index t (0 : Fin 2) * 32 + 1 * (z 0).val = (z 0).val; omega
        | ⟨1, _⟩ => show win1_1.index t (1 : Fin 2) * 64 + 1 * (z 1).val = (z 1).val; omega
      rw [hz']
    · funext z
      show V c main_v5 (((cfg1.win 2).blk t).view.emb z) = V c main_v5 z
      have hz' : ((cfg1.win 2).blk t).view.emb z = z := by
        funext a; apply Fin.ext
        match a with
        | ⟨0, _⟩ => show win1_2.index t (0 : Fin 2) * 1 + 1 * (z 0).val = (z 0).val; omega
        | ⟨1, _⟩ => show win1_2.index t (1 : Fin 2) * 64 + 1 * (z 1).val = (z 1).val; omega
      rw [hz']
  · refine (congrFun (shapeCast_self (iblk1 V c 3 t) shapeCasts_S2000x64_S2000x64) (ix2 p q)).trans ?_
    show V c main_v4 (((cfg1.win 3).blk t).view.emb (ix2 p q)) = V c main_v4 (ix2 (⟨win1_5.index t (0 : Fin 2) * 2000 + 1 * p.val, hr⟩ : Fin 50000) q)
    have h3 : ((cfg1.win 3).blk t).view.emb (ix2 p q) = ix2 (⟨win1_5.index t (0 : Fin 2) * 2000 + 1 * p.val, hr⟩ : Fin 50000) q := by
      funext a; apply Fin.ext
      match a with
      | ⟨0, _⟩ => show win1_3.index t (0 : Fin 2) * 2000 + 1 * p.val = win1_5.index t (0 : Fin 2) * 2000 + 1 * p.val; omega
      | ⟨1, _⟩ => show win1_3.index t (1 : Fin 2) * 64 + 1 * q.val = q.val; omega
    rw [h3]

/-- An index is in point t's block of the first node state iff each coordinate is in the block's range on its axis. -/
theorem mem_blk1_5 (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v6_1).slice (win1_5.rect t)).set ↔ _
  rw [View.set_slice_whole, Rect.mem_set_unit]
  exact Iff.rfl

/-- Row r of the first node state lies in the block of point r / 2000. -/
theorem cover1_5 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 25 := N_1
  have hlt : (i 0).val / 2000 < cfg1.N := by rw [hN]; omega
  obtain ⟨e00, e01, e10, e11, e20, e21, e30, e31, o40, o41, o50, o51⟩ := idx1 ⟨(i 0).val / 2000, hlt⟩
  refine ⟨⟨(i 0).val / 2000, hlt⟩, flush1_5 _, ?_⟩
  rw [mem_blk1_5]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [o50]; show (i 0).val / 2000 * 2000 ≤ (i 0).val ∧ (i 0).val < (i 0).val / 2000 * 2000 + 2000; omega
  | ⟨1, _⟩ =>
    show win1_5.index ⟨(i 0).val / 2000, hlt⟩ (1 : Fin 2) * 64 ≤ (i 1).val ∧ (i 1).val < win1_5.index ⟨(i 0).val / 2000, hlt⟩ (1 : Fin 2) * 64 + 64
    rw [o51]; omega

/-- The array the launch leaves in the first node state: the maximum with zero of the node input on the whole arrays. -/
theorem final1_5 (c : Dev nD) :
    (dat1 V c).arrAt 5 cfg1.N = Cert.Layers.relu64 (Cert.Layers.nodeIn (V c main_arg0) (V c main_arg2) (V c main_v5) (V c main_v4)) :=
  (dat1 V c).arrAt_eq_of_cover 5 _ (fun t _ => flushed1_5 V c t) cover1_5

end Cert.KernelIdeal.Regions

end
-- ==== Proof.Region2.lean ====
/-
  The first convolution launch: every block of 2000 rows of the neighbours' sum goes through the 64 × 64 layer, the same
  rows of the node input are added, and the maximum with zero is taken. Block t is rows 2000·t … 2000·t + 1999; the
  weight matrix and the bias row are seen whole at every point; the 25 blocks tile the 50000 rows. So the array the
  launch leaves is the convolution step on the whole arrays.
-/
import proofs.«150986_j70806830842645_1_alg».proof.Proof.Gen.KernelIdeal.Frame
import Idealize.ShloMosaic.Lib.Pipeline.Value
import proofs.«150986_j70806830842645_1_alg».proof.Proof.LibDense
import proofs.«150986_j70806830842645_1_alg».proof.Proof.Layers

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Where each window's block sits at point t: the row blocks of the tiled inputs and of the outputs move together,
    one block per point; the windows seen whole stay at the origin. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What point t writes back to the output array is block t of the convolution step on the whole arrays. -/
theorem flushed2_4 (c : Dev nD) (t : Fin cfg2.N) :
    (dat2 V c).flushed 4 t = ((cfg2.win 4).blk t).view.read (Elt Ideal) (Cert.Layers.conv (V c main_v16) (V c main_arg6) (V c main_v17) (V c main_v6_0)) := by
  show (cfg2.win 4).cut (grid2.coords t) ((dat2 V c).after 4 t) = _
  rw [after2_4]
  unfold out2_4
  rw [View.canon_unit_zero hz2]
  simp only [View.ld_unit_zero (S := S2000x64) hz2, View.ld_unit_zero (S := S64x64) hz2, View.ld_unit_zero (S := S1x64) hz2]
  obtain ⟨e00, e01, e10, e11, e20, e21, e30, e31, o40, o41⟩ := idx2 t
  have ht : t.val < 25 := t.isLt
  funext y
  obtain ⟨p, q, rfl⟩ : ∃ (p : Fin 2000) (q : Fin 64), y = ix2 p q := ⟨y 0, y 1, eq_ix2 y⟩
  have hp : p.val < 2000 := p.isLt
  have hr : win2_4.index t (0 : Fin 2) * 2000 + 1 * p.val < 50000 := by omega
  show k2_pay1 (iblk2 V c 0 t) (iblk2 V c 1 t) (iblk2 V c 2 t) (iblk2 V c 3 t) (ix2 p q)
    = (Cert.Layers.conv (V c main_v16) (V c main_arg6) (V c main_v17) (V c main_v6_0)) (((cfg2.win 4).blk t).view.emb (ix2 p q))
  have hemb : ((cfg2.win 4).blk t).view.emb (ix2 p q) = ix2 (⟨win2_4.index t (0 : Fin 2) * 2000 + 1 * p.val, hr⟩ : Fin 50000) q := by
    funext a; apply Fin.ext
    match a with
    | ⟨0, _⟩ => rfl
    | ⟨1, _⟩ => show win2_4.index t (1 : Fin 2) * 64 + 1 * q.val = q.val; omega
  rw [hemb]
  unfold Cert.Layers.conv Cert.Layers.relu64
  rw [Cert.Dense.relu_apply]
  show max (Cert.Dense.body 2000 64 64 bitsLt_bf16_f32 shapeCasts_S1x64_S1x64 broadcasts_S1x64_S2000x64 (shapeCast S2000x64 (iblk2 V c 0 t) shapeCasts_S2000x64_S2000x64) (iblk2 V c 1 t) (iblk2 V c 2 t) (ix2 p q) + shapeCast S2000x64 (iblk2 V c 3 t) shapeCasts_S2000x64_S2000x64 (ix2 p q)) (Scalar.ofBits (F := Ideal) .f32 0x00000000#32)
    = max (Cert.Dense.host 50000 64 64 (by decide) (V c main_v16) (V c main_arg6) (V c main_v17) (ix2 (⟨win2_4.index t (0 : Fin 2) * 2000 + 1 * p.val, hr⟩ : Fin 50000) q) + V c main_v6_0 (ix2 (⟨win2_4.index t (0 : Fin 2) * 2000 + 1 * p.val, hr⟩ : Fin 50000) q)) (Scalar.ofBits (F := Ideal) .f32 0x00000000#32)
  refine congrArg (fun z => max z (Scalar.ofBits (F := Ideal) .f32 0x00000000#32)) ?_
  refine congrArg₂ (· + ·) ?_ ?_
  · refine Cert.Dense.body_eq_host 50000 2000 64 64 _ _ _ _ (V c main_v16) (V c main_arg6) (V c main_v17)
        (shapeCast S2000x64 (iblk2 V c 0 t) shapeCasts_S2000x64_S2000x64) (iblk2 V c 1 t) (iblk2 V c 2 t) p _ q ?_ ?_ ?_
    · intro k
      refine (congrFun (shapeCast_self (iblk2 V c 0 t) shapeCasts_S2000x64_S2000x64) (ix2 p k)).trans ?_
      show V c main_v16 (((cfg2.win 0).blk t).view.emb (ix2 p k)) = V c main_v16 (ix2 (⟨win2_4.index t (0 : Fin 2) * 2000 + 1 * p.val, hr⟩ : Fin 50000) k)
      have hk : ((cfg2.win 0).blk t).view.emb (ix2 p k) = ix2 (⟨win2_4.index t (0 : Fin 2) * 2000 + 1 * p.val, hr⟩ : Fin 50000) k := by
        funext a; apply Fin.ext
        match a with
        | ⟨0, _⟩ => show win2_0.index t (0 : Fin 2) * 2000 + 1 * p.val = win2_4.index t (0 : Fin 2) * 2000 + 1 * p.val; omega
        | ⟨1, _⟩ => show win2_0.index t (1 : Fin 2) * 64 + 1 * k.val = k.val; omega
      rw [hk]
    · funext z
      show V c main_arg6 (((cfg2.win 1).blk t).view.emb z) = V c main_arg6 z
      have hz' : ((cfg2.win 1).blk t).view.emb z = z := by
        funext a; apply Fin.ext
        match a with
        | ⟨0, _⟩ => show win2_1.index t (0 : Fin 2) * 64 + 1 * (z 0).val = (z 0).val; omega
        | ⟨1, _⟩ => show win2_1.index t (1 : Fin 2) * 64 + 1 * (z 1).val = (z 1).val; omega
      rw [hz']
    · funext z
      show V c main_v17 (((cfg2.win 2).blk t).view.emb z) = V c main_v17 z
      have hz' : ((cfg2.win 2).blk t).view.emb z = z := by
        funext a; apply Fin.ext
        match a with
        | ⟨0, _⟩ => show win2_2.index t (0 : Fin 2) * 1 + 1 * (z 0).val = (z 0).val; omega
        | ⟨1, _⟩ => show win2_2.index t (1 : Fin 2) * 64 + 1 * (z 1).val = (z 1).val; omega
      rw [hz']
  · refine (congrFun (shapeCast_self (iblk2 V c 3 t) shapeCasts_S2000x64_S2000x64) (ix2 p q)).trans ?_
    show V c main_v6_0 (((cfg2.win 3).blk t).view.emb (ix2 p q)) = V c main_v6_0 (ix2 (⟨win2_4.index t (0 : Fin 2) * 2000 + 1 * p.val, hr⟩ : Fin 50000) q)
    have h3 : ((cfg2.win 3).blk t).view.emb (ix2 p q) = ix2 (⟨win2_4.index t (0 : Fin 2) * 2000 + 1 * p.val, hr⟩ : Fin 50000) q := by
      funext a; apply Fin.ext
      match a with
      | ⟨0, _⟩ => show win2_3.index t (0 : Fin 2) * 2000 + 1 * p.val = win2_4.index t (0 : Fin 2) * 2000 + 1 * p.val; omega
      | ⟨1, _⟩ => show win2_3.index t (1 : Fin 2) * 64 + 1 * q.val = q.val; omega
    rw [h3]

/-- An index is in point t's block of the output array iff each coordinate is in the block's range on its axis. -/
theorem mem_blk2_4 (t : Fin cfg2.N) (i : S50000x64.Idx) :
    i ∈ ((cfg2.win 4).blk t).view.set ↔ ∀ a : Fin 2, win2_4.index t a * S2000x64.size a ≤ (i a).val ∧ (i a).val < win2_4.index t a * S2000x64.size a + S2000x64.size a := by
  show i ∈ ((View.whole main_v18).slice (win2_4.rect t)).set ↔ _
  rw [View.set_slice_whole, Rect.mem_set_unit]
  exact Iff.rfl

/-- Row r of the output array lies in the block of point r / 2000. -/
theorem cover2_4 (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  have hN : cfg2.N = 25 := N_2
  have hlt : (i 0).val / 2000 < cfg2.N := by rw [hN]; omega
  obtain ⟨e00, e01, e10, e11, e20, e21, e30, e31, o40, o41⟩ := idx2 ⟨(i 0).val / 2000, hlt⟩
  refine ⟨⟨(i 0).val / 2000, hlt⟩, flush2_4 _, ?_⟩
  rw [mem_blk2_4]
  intro a
  match a with
  | ⟨0, _⟩ =>
    show win2_4.index ⟨(i 0).val / 2000, hlt⟩ (0 : Fin 2) * 2000 ≤ (i 0).val ∧ (i 0).val < win2_4.index ⟨(i 0).val / 2000, hlt⟩ (0 : Fin 2) * 2000 + 2000
    rw [o40]; show (i 0).val / 2000 * 2000 ≤ (i 0).val ∧ (i 0).val < (i 0).val / 2000 * 2000 + 2000; omega
  | ⟨1, _⟩ =>
    show win2_4.index ⟨(i 0).val / 2000, hlt⟩ (1 : Fin 2) * 64 ≤ (i 1).val ∧ (i 1).val < win2_4.index ⟨(i 0).val / 2000, hlt⟩ (1 : Fin 2) * 64 + 64
    rw [o41]; omega

/-- The array the launch leaves in the output array: the convolution step on the whole arrays. -/
theorem final2_4 (c : Dev nD) :
    (dat2 V c).arrAt 4 cfg2.N = Cert.Layers.conv (V c main_v16) (V c main_arg6) (V c main_v17) (V c main_v6_0) :=
  (dat2 V c).arrAt_eq_of_cover 4 _ (fun t _ => flushed2_4 V c t) cover2_4

end Cert.KernelIdeal.Regions

end
-- ==== Proof.Region3.lean ====
/-
  The second convolution launch: every block of 2000 rows of the neighbours' sum goes through the 64 × 64 layer, the same
  rows of the node input are added, and the maximum with zero is taken. Block t is rows 2000·t … 2000·t + 1999; the
  weight matrix and the bias row are seen whole at every point; the 25 blocks tile the 50000 rows. So the array the
  launch leaves is the convolution step on the whole arrays.
-/
import proofs.«150986_j70806830842645_1_alg».proof.Proof.Gen.KernelIdeal.Frame
import Idealize.ShloMosaic.Lib.Pipeline.Value
import proofs.«150986_j70806830842645_1_alg».proof.Proof.LibDense
import proofs.«150986_j70806830842645_1_alg».proof.Proof.Layers

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- Where each window's block sits at point t: the row blocks of the tiled inputs and of the outputs move together,
    one block per point; the windows seen whole stay at the origin. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- What point t writes back to the output array is block t of the convolution step on the whole arrays. -/
theorem flushed3_4 (c : Dev nD) (t : Fin cfg3.N) :
    (dat3 V c).flushed 4 t = ((cfg3.win 4).blk t).view.read (Elt Ideal) (Cert.Layers.conv (V c main_v28) (V c main_arg6) (V c main_v29) (V c main_v6_0)) := by
  show (cfg3.win 4).cut (grid3.coords t) ((dat3 V c).after 4 t) = _
  rw [after3_4]
  unfold out3_4
  rw [View.canon_unit_zero hz3]
  simp only [View.ld_unit_zero (S := S2000x64) hz3, View.ld_unit_zero (S := S64x64) hz3, View.ld_unit_zero (S := S1x64) hz3]
  obtain ⟨e00, e01, e10, e11, e20, e21, e30, e31, o40, o41⟩ := idx3 t
  have ht : t.val < 25 := t.isLt
  funext y
  obtain ⟨p, q, rfl⟩ : ∃ (p : Fin 2000) (q : Fin 64), y = ix2 p q := ⟨y 0, y 1, eq_ix2 y⟩
  have hp : p.val < 2000 := p.isLt
  have hr : win3_4.index t (0 : Fin 2) * 2000 + 1 * p.val < 50000 := by omega
  show k3_pay1 (iblk3 V c 0 t) (iblk3 V c 1 t) (iblk3 V c 2 t) (iblk3 V c 3 t) (ix2 p q)
    = (Cert.Layers.conv (V c main_v28) (V c main_arg6) (V c main_v29) (V c main_v6_0)) (((cfg3.win 4).blk t).view.emb (ix2 p q))
  have hemb : ((cfg3.win 4).blk t).view.emb (ix2 p q) = ix2 (⟨win3_4.index t (0 : Fin 2) * 2000 + 1 * p.val, hr⟩ : Fin 50000) q := by
    funext a; apply Fin.ext
    match a with
    | ⟨0, _⟩ => rfl
    | ⟨1, _⟩ => show win3_4.index t (1 : Fin 2) * 64 + 1 * q.val = q.val; omega
  rw [hemb]
  unfold Cert.Layers.conv Cert.Layers.relu64
  rw [Cert.Dense.relu_apply]
  show max (Cert.Dense.body 2000 64 64 bitsLt_bf16_f32 shapeCasts_S1x64_S1x64 broadcasts_S1x64_S2000x64 (shapeCast S2000x64 (iblk3 V c 0 t) shapeCasts_S2000x64_S2000x64) (iblk3 V c 1 t) (iblk3 V c 2 t) (ix2 p q) + shapeCast S2000x64 (iblk3 V c 3 t) shapeCasts_S2000x64_S2000x64 (ix2 p q)) (Scalar.ofBits (F := Ideal) .f32 0x00000000#32)
    = max (Cert.Dense.host 50000 64 64 (by decide) (V c main_v28) (V c main_arg6) (V c main_v29) (ix2 (⟨win3_4.index t (0 : Fin 2) * 2000 + 1 * p.val, hr⟩ : Fin 50000) q) + V c main_v6_0 (ix2 (⟨win3_4.index t (0 : Fin 2) * 2000 + 1 * p.val, hr⟩ : Fin 50000) q)) (Scalar.ofBits (F := Ideal) .f32 0x00000000#32)
  refine congrArg (fun z => max z (Scalar.ofBits (F := Ideal) .f32 0x00000000#32)) ?_
  refine congrArg₂ (· + ·) ?_ ?_
  · refine Cert.Dense.body_eq_host 50000 2000 64 64 _ _ _ _ (V c main_v28) (V c main_arg6) (V c main_v29)
        (shapeCast S2000x64 (iblk3 V c 0 t) shapeCasts_S2000x64_S2000x64) (iblk3 V c 1 t) (iblk3 V c 2 t) p _ q ?_ ?_ ?_
    · intro k
      refine (congrFun (shapeCast_self (iblk3 V c 0 t) shapeCasts_S2000x64_S2000x64) (ix2 p k)).trans ?_
      show V c main_v28 (((cfg3.win 0).blk t).view.emb (ix2 p k)) = V c main_v28 (ix2 (⟨win3_4.index t (0 : Fin 2) * 2000 + 1 * p.val, hr⟩ : Fin 50000) k)
      have hk : ((cfg3.win 0).blk t).view.emb (ix2 p k) = ix2 (⟨win3_4.index t (0 : Fin 2) * 2000 + 1 * p.val, hr⟩ : Fin 50000) k := by
        funext a; apply Fin.ext
        match a with
        | ⟨0, _⟩ => show win3_0.index t (0 : Fin 2) * 2000 + 1 * p.val = win3_4.index t (0 : Fin 2) * 2000 + 1 * p.val; omega
        | ⟨1, _⟩ => show win3_0.index t (1 : Fin 2) * 64 + 1 * k.val = k.val; omega
      rw [hk]
    · funext z
      show V c main_arg6 (((cfg3.win 1).blk t).view.emb z) = V c main_arg6 z
      have hz' : ((cfg3.win 1).blk t).view.emb z = z := by
        funext a; apply Fin.ext
        match a with
        | ⟨0, _⟩ => show win3_1.index t (0 : Fin 2) * 64 + 1 * (z 0).val = (z 0).val; omega
        | ⟨1, _⟩ => show win3_1.index t (1 : Fin 2) * 64 + 1 * (z 1).val = (z 1).val; omega
      rw [hz']
    · funext z
      show V c main_v29 (((cfg3.win 2).blk t).view.emb z) = V c main_v29 z
      have hz' : ((cfg3.win 2).blk t).view.emb z = z := by
        funext a; apply Fin.ext
        match a with
        | ⟨0, _⟩ => show win3_2.index t (0 : Fin 2) * 1 + 1 * (z 0).val = (z 0).val; omega
        | ⟨1, _⟩ => show win3_2.index t (1 : Fin 2) * 64 + 1 * (z 1).val = (z 1).val; omega
      rw [hz']
  · refine (congrFun (shapeCast_self (iblk3 V c 3 t) shapeCasts_S2000x64_S2000x64) (ix2 p q)).trans ?_
    show V c main_v6_0 (((cfg3.win 3).blk t).view.emb (ix2 p q)) = V c main_v6_0 (ix2 (⟨win3_4.index t (0 : Fin 2) * 2000 + 1 * p.val, hr⟩ : Fin 50000) q)
    have h3 : ((cfg3.win 3).blk t).view.emb (ix2 p q) = ix2 (⟨win3_4.index t (0 : Fin 2) * 2000 + 1 * p.val, hr⟩ : Fin 50000) q := by
      funext a; apply Fin.ext
      match a with
      | ⟨0, _⟩ => show win3_3.index t (0 : Fin 2) * 2000 + 1 * p.val = win3_4.index t (0 : Fin 2) * 2000 + 1 * p.val; omega
      | ⟨1, _⟩ => show win3_3.index t (1 : Fin 2) * 64 + 1 * q.val = q.val; omega
    rw [h3]

/-- An index is in point t's block of the output array iff each coordinate is in the block's range on its axis. -/
theorem mem_blk3_4 (t : Fin cfg3.N) (i : S50000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v30).slice (win3_4.rect t)).set ↔ _
  rw [View.set_slice_whole, Rect.mem_set_unit]
  exact Iff.rfl

/-- Row r of the output array lies in the block of point r / 2000. -/
theorem cover3_4 (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  have hN : cfg3.N = 25 := N_3
  have hlt : (i 0).val / 2000 < cfg3.N := by rw [hN]; omega
  obtain ⟨e00, e01, e10, e11, e20, e21, e30, e31, o40, o41⟩ := idx3 ⟨(i 0).val / 2000, hlt⟩
  refine ⟨⟨(i 0).val / 2000, hlt⟩, flush3_4 _, ?_⟩
  rw [mem_blk3_4]
  intro a
  match a with
  | ⟨0, _⟩ =>
    show win3_4.index ⟨(i 0).val / 2000, hlt⟩ (0 : Fin 2) * 2000 ≤ (i 0).val ∧ (i 0).val < win3_4.index ⟨(i 0).val / 2000, hlt⟩ (0 : Fin 2) * 2000 + 2000
    rw [o40]; show (i 0).val / 2000 * 2000 ≤ (i 0).val ∧ (i 0).val < (i 0).val / 2000 * 2000 + 2000; omega
  | ⟨1, _⟩ =>
    show win3_4.index ⟨(i 0).val / 2000, hlt⟩ (1 : Fin 2) * 64 ≤ (i 1).val ∧ (i 1).val < win3_4.index ⟨(i 0).val / 2000, hlt⟩ (1 : Fin 2) * 64 + 64
    rw [o41]; omega

/-- The array the launch leaves in the output array: the convolution step on the whole arrays. -/
theorem final3_4 (c : Dev nD) :
    (dat3 V c).arrAt 4 cfg3.N = Cert.Layers.conv (V c main_v28) (V c main_arg6) (V c main_v29) (V c main_v6_0) :=
  (dat3 V c).arrAt_eq_of_cover 4 _ (fun t _ => flushed3_4 V c t) cover3_4

end Cert.KernelIdeal.Regions

end
-- ==== Proof.Region4.lean ====
/-
  The third convolution launch: every block of 2000 rows of the neighbours' sum goes through the 64 × 64 layer, the same
  rows of the node input are added, and the maximum with zero is taken. Block t is rows 2000·t … 2000·t + 1999; the
  weight matrix and the bias row are seen whole at every point; the 25 blocks tile the 50000 rows. So the array the
  launch leaves is the convolution step on the whole arrays.
-/
import proofs.«150986_j70806830842645_1_alg».proof.Proof.Gen.KernelIdeal.Frame
import Idealize.ShloMosaic.Lib.Pipeline.Value
import proofs.«150986_j70806830842645_1_alg».proof.Proof.LibDense
import proofs.«150986_j70806830842645_1_alg».proof.Proof.Layers

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- Where each window's block sits at point t: the row blocks of the tiled inputs and of the outputs move together,
    one block per point; the windows seen whole stay at the origin. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- What point t writes back to the output array is block t of the convolution step on the whole arrays. -/
theorem flushed4_4 (c : Dev nD) (t : Fin cfg4.N) :
    (dat4 V c).flushed 4 t = ((cfg4.win 4).blk t).view.read (Elt Ideal) (Cert.Layers.conv (V c main_v40) (V c main_arg6) (V c main_v41) (V c main_v6_0)) := by
  show (cfg4.win 4).cut (grid4.coords t) ((dat4 V c).after 4 t) = _
  rw [after4_4]
  unfold out4_4
  rw [View.canon_unit_zero hz4]
  simp only [View.ld_unit_zero (S := S2000x64) hz4, View.ld_unit_zero (S := S64x64) hz4, View.ld_unit_zero (S := S1x64) hz4]
  obtain ⟨e00, e01, e10, e11, e20, e21, e30, e31, o40, o41⟩ := idx4 t
  have ht : t.val < 25 := t.isLt
  funext y
  obtain ⟨p, q, rfl⟩ : ∃ (p : Fin 2000) (q : Fin 64), y = ix2 p q := ⟨y 0, y 1, eq_ix2 y⟩
  have hp : p.val < 2000 := p.isLt
  have hr : win4_4.index t (0 : Fin 2) * 2000 + 1 * p.val < 50000 := by omega
  show k4_pay1 (iblk4 V c 0 t) (iblk4 V c 1 t) (iblk4 V c 2 t) (iblk4 V c 3 t) (ix2 p q)
    = (Cert.Layers.conv (V c main_v40) (V c main_arg6) (V c main_v41) (V c main_v6_0)) (((cfg4.win 4).blk t).view.emb (ix2 p q))
  have hemb : ((cfg4.win 4).blk t).view.emb (ix2 p q) = ix2 (⟨win4_4.index t (0 : Fin 2) * 2000 + 1 * p.val, hr⟩ : Fin 50000) q := by
    funext a; apply Fin.ext
    match a with
    | ⟨0, _⟩ => rfl
    | ⟨1, _⟩ => show win4_4.index t (1 : Fin 2) * 64 + 1 * q.val = q.val; omega
  rw [hemb]
  unfold Cert.Layers.conv Cert.Layers.relu64
  rw [Cert.Dense.relu_apply]
  show max (Cert.Dense.body 2000 64 64 bitsLt_bf16_f32 shapeCasts_S1x64_S1x64 broadcasts_S1x64_S2000x64 (shapeCast S2000x64 (iblk4 V c 0 t) shapeCasts_S2000x64_S2000x64) (iblk4 V c 1 t) (iblk4 V c 2 t) (ix2 p q) + shapeCast S2000x64 (iblk4 V c 3 t) shapeCasts_S2000x64_S2000x64 (ix2 p q)) (Scalar.ofBits (F := Ideal) .f32 0x00000000#32)
    = max (Cert.Dense.host 50000 64 64 (by decide) (V c main_v40) (V c main_arg6) (V c main_v41) (ix2 (⟨win4_4.index t (0 : Fin 2) * 2000 + 1 * p.val, hr⟩ : Fin 50000) q) + V c main_v6_0 (ix2 (⟨win4_4.index t (0 : Fin 2) * 2000 + 1 * p.val, hr⟩ : Fin 50000) q)) (Scalar.ofBits (F := Ideal) .f32 0x00000000#32)
  refine congrArg (fun z => max z (Scalar.ofBits (F := Ideal) .f32 0x00000000#32)) ?_
  refine congrArg₂ (· + ·) ?_ ?_
  · refine Cert.Dense.body_eq_host 50000 2000 64 64 _ _ _ _ (V c main_v40) (V c main_arg6) (V c main_v41)
        (shapeCast S2000x64 (iblk4 V c 0 t) shapeCasts_S2000x64_S2000x64) (iblk4 V c 1 t) (iblk4 V c 2 t) p _ q ?_ ?_ ?_
    · intro k
      refine (congrFun (shapeCast_self (iblk4 V c 0 t) shapeCasts_S2000x64_S2000x64) (ix2 p k)).trans ?_
      show V c main_v40 (((cfg4.win 0).blk t).view.emb (ix2 p k)) = V c main_v40 (ix2 (⟨win4_4.index t (0 : Fin 2) * 2000 + 1 * p.val, hr⟩ : Fin 50000) k)
      have hk : ((cfg4.win 0).blk t).view.emb (ix2 p k) = ix2 (⟨win4_4.index t (0 : Fin 2) * 2000 + 1 * p.val, hr⟩ : Fin 50000) k := by
        funext a; apply Fin.ext
        match a with
        | ⟨0, _⟩ => show win4_0.index t (0 : Fin 2) * 2000 + 1 * p.val = win4_4.index t (0 : Fin 2) * 2000 + 1 * p.val; omega
        | ⟨1, _⟩ => show win4_0.index t (1 : Fin 2) * 64 + 1 * k.val = k.val; omega
      rw [hk]
    · funext z
      show V c main_arg6 (((cfg4.win 1).blk t).view.emb z) = V c main_arg6 z
      have hz' : ((cfg4.win 1).blk t).view.emb z = z := by
        funext a; apply Fin.ext
        match a with
        | ⟨0, _⟩ => show win4_1.index t (0 : Fin 2) * 64 + 1 * (z 0).val = (z 0).val; omega
        | ⟨1, _⟩ => show win4_1.index t (1 : Fin 2) * 64 + 1 * (z 1).val = (z 1).val; omega
      rw [hz']
    · funext z
      show V c main_v41 (((cfg4.win 2).blk t).view.emb z) = V c main_v41 z
      have hz' : ((cfg4.win 2).blk t).view.emb z = z := by
        funext a; apply Fin.ext
        match a with
        | ⟨0, _⟩ => show win4_2.index t (0 : Fin 2) * 1 + 1 * (z 0).val = (z 0).val; omega
        | ⟨1, _⟩ => show win4_2.index t (1 : Fin 2) * 64 + 1 * (z 1).val = (z 1).val; omega
      rw [hz']
  · refine (congrFun (shapeCast_self (iblk4 V c 3 t) shapeCasts_S2000x64_S2000x64) (ix2 p q)).trans ?_
    show V c main_v6_0 (((cfg4.win 3).blk t).view.emb (ix2 p q)) = V c main_v6_0 (ix2 (⟨win4_4.index t (0 : Fin 2) * 2000 + 1 * p.val, hr⟩ : Fin 50000) q)
    have h3 : ((cfg4.win 3).blk t).view.emb (ix2 p q) = ix2 (⟨win4_4.index t (0 : Fin 2) * 2000 + 1 * p.val, hr⟩ : Fin 50000) q := by
      funext a; apply Fin.ext
      match a with
      | ⟨0, _⟩ => show win4_3.index t (0 : Fin 2) * 2000 + 1 * p.val = win4_4.index t (0 : Fin 2) * 2000 + 1 * p.val; omega
      | ⟨1, _⟩ => show win4_3.index t (1 : Fin 2) * 64 + 1 * q.val = q.val; omega
    rw [h3]

/-- An index is in point t's block of the output array iff each coordinate is in the block's range on its axis. -/
theorem mem_blk4_4 (t : Fin cfg4.N) (i : S50000x64.Idx) :
    i ∈ ((cfg4.win 4).blk t).view.set ↔ ∀ a : Fin 2, win4_4.index t a * S2000x64.size a ≤ (i a).val ∧ (i a).val < win4_4.index t a * S2000x64.size a + S2000x64.size a := by
  show i ∈ ((View.whole main_v42).slice (win4_4.rect t)).set ↔ _
  rw [View.set_slice_whole, Rect.mem_set_unit]
  exact Iff.rfl

/-- Row r of the output array lies in the block of point r / 2000. -/
theorem cover4_4 (i : S50000x64.Idx) : ∃ t : Fin cfg4.N, (cfg4.win 4).flush t = true ∧ i ∈ ((cfg4.win 4).blk t).view.set := by
  have hi0 : (i 0).val < 50000 := (i 0).isLt
  have hi1 : (i 1).val < 64 := (i 1).isLt
  have hN : cfg4.N = 25 := N_4
  have hlt : (i 0).val / 2000 < cfg4.N := by rw [hN]; omega
  obtain ⟨e00, e01, e10, e11, e20, e21, e30, e31, o40, o41⟩ := idx4 ⟨(i 0).val / 2000, hlt⟩
  refine ⟨⟨(i 0).val / 2000, hlt⟩, flush4_4 _, ?_⟩
  rw [mem_blk4_4]
  intro a
  match a with
  | ⟨0, _⟩ =>
    show win4_4.index ⟨(i 0).val / 2000, hlt⟩ (0 : Fin 2) * 2000 ≤ (i 0).val ∧ (i 0).val < win4_4.index ⟨(i 0).val / 2000, hlt⟩ (0 : Fin 2) * 2000 + 2000
    rw [o40]; show (i 0).val / 2000 * 2000 ≤ (i 0).val ∧ (i 0).val < (i 0).val / 2000 * 2000 + 2000; omega
  | ⟨1, _⟩ =>
    show win4_4.index ⟨(i 0).val / 2000, hlt⟩ (1 : Fin 2) * 64 ≤ (i 1).val ∧ (i 1).val < win4_4.index ⟨(i 0).val / 2000, hlt⟩ (1 : Fin 2) * 64 + 64
    rw [o41]; omega

/-- The array the launch leaves in the output array: the convolution step on the whole arrays. -/
theorem final4_4 (c : Dev nD) :
    (dat4 V c).arrAt 4 cfg4.N = Cert.Layers.conv (V c main_v40) (V c main_arg6) (V c main_v41) (V c main_v6_0) :=
  (dat4 V c).arrAt_eq_of_cover 4 _ (fun t _ => flushed4_4 V c t) cover4_4

end Cert.KernelIdeal.Regions

end
-- ==== Proof.Region5.lean ====
/-
  The fourth convolution launch: every block of 2000 rows of the neighbours' sum goes through the 64 × 64 layer, the same
  rows of the node input are added, and the maximum with zero is taken. Block t is rows 2000·t … 2000·t + 1999; the
  weight matrix and the bias row are seen whole at every point; the 25 blocks tile the 50000 rows. So the array the
  launch leaves is the convolution step on the whole arrays.
-/
import proofs.«150986_j70806830842645_1_alg».proof.Proof.Gen.KernelIdeal.Frame
import Idealize.ShloMosaic.Lib.Pipeline.Value
import proofs.«150986_j70806830842645_1_alg».proof.Proof.LibDense
import proofs.«150986_j70806830842645_1_alg».proof.Proof.Layers

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- Where each window's block sits at point t: the row blocks of the tiled inputs and of the outputs move together,
    one block per point; the windows seen whole stay at the origin. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- What point t writes back to the output array is block t of the convolution step on the whole arrays. -/
theorem flushed5_4 (c : Dev nD) (t : Fin cfg5.N) :
    (dat5 V c).flushed 4 t = ((cfg5.win 4).blk t).view.read (Elt Ideal) (Cert.Layers.conv (V c main_v52) (V c main_arg6) (V c main_v53) (V c main_v6_0)) := by
  show (cfg5.win 4).cut (grid5.coords t) ((dat5 V c).after 4 t) = _
  rw [after5_4]
  unfold out5_4
  rw [View.canon_unit_zero hz5]
  simp only [View.ld_unit_zero (S := S2000x64) hz5, View.ld_unit_zero (S := S64x64) hz5, View.ld_unit_zero (S := S1x64) hz5]
  obtain ⟨e00, e01, e10, e11, e20, e21, e30, e31, o40, o41⟩ := idx5 t
  have ht : t.val < 25 := t.isLt
  funext y
  obtain ⟨p, q, rfl⟩ : ∃ (p : Fin 2000) (q : Fin 64), y = ix2 p q := ⟨y 0, y 1, eq_ix2 y⟩
  have hp : p.val < 2000 := p.isLt
  have hr : win5_4.index t (0 : Fin 2) * 2000 + 1 * p.val < 50000 := by omega
  show k5_pay1 (iblk5 V c 0 t) (iblk5 V c 1 t) (iblk5 V c 2 t) (iblk5 V c 3 t) (ix2 p q)
    = (Cert.Layers.conv (V c main_v52) (V c main_arg6) (V c main_v53) (V c main_v6_0)) (((cfg5.win 4).blk t).view.emb (ix2 p q))
  have hemb : ((cfg5.win 4).blk t).view.emb (ix2 p q) = ix2 (⟨win5_4.index t (0 : Fin 2) * 2000 + 1 * p.val, hr⟩ : Fin 50000) q := by
    funext a; apply Fin.ext
    match a with
    | ⟨0, _⟩ => rfl
    | ⟨1, _⟩ => show win5_4.index t (1 : Fin 2) * 64 + 1 * q.val = q.val; omega
  rw [hemb]
  unfold Cert.Layers.conv Cert.Layers.relu64
  rw [Cert.Dense.relu_apply]
  show max (Cert.Dense.body 2000 64 64 bitsLt_bf16_f32 shapeCasts_S1x64_S1x64 broadcasts_S1x64_S2000x64 (shapeCast S2000x64 (iblk5 V c 0 t) shapeCasts_S2000x64_S2000x64) (iblk5 V c 1 t) (iblk5 V c 2 t) (ix2 p q) + shapeCast S2000x64 (iblk5 V c 3 t) shapeCasts_S2000x64_S2000x64 (ix2 p q)) (Scalar.ofBits (F := Ideal) .f32 0x00000000#32)
    = max (Cert.Dense.host 50000 64 64 (by decide) (V c main_v52) (V c main_arg6) (V c main_v53) (ix2 (⟨win5_4.index t (0 : Fin 2) * 2000 + 1 * p.val, hr⟩ : Fin 50000) q) + V c main_v6_0 (ix2 (⟨win5_4.index t (0 : Fin 2) * 2000 + 1 * p.val, hr⟩ : Fin 50000) q)) (Scalar.ofBits (F := Ideal) .f32 0x00000000#32)
  refine congrArg (fun z => max z (Scalar.ofBits (F := Ideal) .f32 0x00000000#32)) ?_
  refine congrArg₂ (· + ·) ?_ ?_
  · refine Cert.Dense.body_eq_host 50000 2000 64 64 _ _ _ _ (V c main_v52) (V c main_arg6) (V c main_v53)
        (shapeCast S2000x64 (iblk5 V c 0 t) shapeCasts_S2000x64_S2000x64) (iblk5 V c 1 t) (iblk5 V c 2 t) p _ q ?_ ?_ ?_
    · intro k
      refine (congrFun (shapeCast_self (iblk5 V c 0 t) shapeCasts_S2000x64_S2000x64) (ix2 p k)).trans ?_
      show V c main_v52 (((cfg5.win 0).blk t).view.emb (ix2 p k)) = V c main_v52 (ix2 (⟨win5_4.index t (0 : Fin 2) * 2000 + 1 * p.val, hr⟩ : Fin 50000) k)
      have hk : ((cfg5.win 0).blk t).view.emb (ix2 p k) = ix2 (⟨win5_4.index t (0 : Fin 2) * 2000 + 1 * p.val, hr⟩ : Fin 50000) k := by
        funext a; apply Fin.ext
        match a with
        | ⟨0, _⟩ => show win5_0.index t (0 : Fin 2) * 2000 + 1 * p.val = win5_4.index t (0 : Fin 2) * 2000 + 1 * p.val; omega
        | ⟨1, _⟩ => show win5_0.index t (1 : Fin 2) * 64 + 1 * k.val = k.val; omega
      rw [hk]
    · funext z
      show V c main_arg6 (((cfg5.win 1).blk t).view.emb z) = V c main_arg6 z
      have hz' : ((cfg5.win 1).blk t).view.emb z = z := by
        funext a; apply Fin.ext
        match a with
        | ⟨0, _⟩ => show win5_1.index t (0 : Fin 2) * 64 + 1 * (z 0).val = (z 0).val; omega
        | ⟨1, _⟩ => show win5_1.index t (1 : Fin 2) * 64 + 1 * (z 1).val = (z 1).val; omega
      rw [hz']
    · funext z
      show V c main_v53 (((cfg5.win 2).blk t).view.emb z) = V c main_v53 z
      have hz' : ((cfg5.win 2).blk t).view.emb z = z := by
        funext a; apply Fin.ext
        match a with
        | ⟨0, _⟩ => show win5_2.index t (0 : Fin 2) * 1 + 1 * (z 0).val = (z 0).val; omega
        | ⟨1, _⟩ => show win5_2.index t (1 : Fin 2) * 64 + 1 * (z 1).val = (z 1).val; omega
      rw [hz']
  · refine (congrFun (shapeCast_self (iblk5 V c 3 t) shapeCasts_S2000x64_S2000x64) (ix2 p q)).trans ?_
    show V c main_v6_0 (((cfg5.win 3).blk t).view.emb (ix2 p q)) = V c main_v6_0 (ix2 (⟨win5_4.index t (0 : Fin 2) * 2000 + 1 * p.val, hr⟩ : Fin 50000) q)
    have h3 : ((cfg5.win 3).blk t).view.emb (ix2 p q) = ix2 (⟨win5_4.index t (0 : Fin 2) * 2000 + 1 * p.val, hr⟩ : Fin 50000) q := by
      funext a; apply Fin.ext
      match a with
      | ⟨0, _⟩ => show win5_3.index t (0 : Fin 2) * 2000 + 1 * p.val = win5_4.index t (0 : Fin 2) * 2000 + 1 * p.val; omega
      | ⟨1, _⟩ => show win5_3.index t (1 : Fin 2) * 64 + 1 * q.val = q.val; omega
    rw [h3]

/-- An index is in point t's block of the output array iff each coordinate is in the block's range on its axis. -/
theorem mem_blk5_4 (t : Fin cfg5.N) (i : S50000x64.Idx) :
    i ∈ ((cfg5.win 4).blk t).view.set ↔ ∀ a : Fin 2, win5_4.index t a * S2000x64.size a ≤ (i a).val ∧ (i a).val < win5_4.index t a * S2000x64.size a + S2000x64.size a := by
  show i ∈ ((View.whole main_v54).slice (win5_4.rect t)).set ↔ _
  rw [View.set_slice_whole, Rect.mem_set_unit]
  exact Iff.rfl

/-- Row r of the output array lies in the block of point r / 2000. -/
theorem cover5_4 (i : S50000x64.Idx) : ∃ t : Fin cfg5.N, (cfg5.win 4).flush t = true ∧ i ∈ ((cfg5.win 4).blk t).view.set := by
  have hi0 : (i 0).val < 50000 := (i 0).isLt
  have hi1 : (i 1).val < 64 := (i 1).isLt
  have hN : cfg5.N = 25 := N_5
  have hlt : (i 0).val / 2000 < cfg5.N := by rw [hN]; omega
  obtain ⟨e00, e01, e10, e11, e20, e21, e30, e31, o40, o41⟩ := idx5 ⟨(i 0).val / 2000, hlt⟩
  refine ⟨⟨(i 0).val / 2000, hlt⟩, flush5_4 _, ?_⟩
  rw [mem_blk5_4]
  intro a
  match a with
  | ⟨0, _⟩ =>
    show win5_4.index ⟨(i 0).val / 2000, hlt⟩ (0 : Fin 2) * 2000 ≤ (i 0).val ∧ (i 0).val < win5_4.index ⟨(i 0).val / 2000, hlt⟩ (0 : Fin 2) * 2000 + 2000
    rw [o40]; show (i 0).val / 2000 * 2000 ≤ (i 0).val ∧ (i 0).val < (i 0).val / 2000 * 2000 + 2000; omega
  | ⟨1, _⟩ =>
    show win5_4.index ⟨(i 0).val / 2000, hlt⟩ (1 : Fin 2) * 64 ≤ (i 1).val ∧ (i 1).val < win5_4.index ⟨(i 0).val / 2000, hlt⟩ (1 : Fin 2) * 64 + 64
    rw [o41]; omega

/-- The array the launch leaves in the output array: the convolution step on the whole arrays. -/
theorem final5_4 (c : Dev nD) :
    (dat5 V c).arrAt 4 cfg5.N = Cert.Layers.conv (V c main_v52) (V c main_arg6) (V c main_v53) (V c main_v6_0) :=
  (dat5 V c).arrAt_eq_of_cover 4 _ (fun t _ => flushed5_4 V c t) cover5_4

end Cert.KernelIdeal.Regions

end
-- ==== Proof.Region6.lean ====
/-
  The node output launch: every block of 1000 rows of the last node state goes through the 64 → 1024 layer and the
  maximum with zero. Block t is rows 1000·t … 1000·t + 999, the weight matrix and the bias row are seen whole at every
  point, and the 50 blocks tile the 50000 rows.
-/
import proofs.«150986_j70806830842645_1_alg».proof.Proof.Gen.KernelIdeal.Frame
import Idealize.ShloMosaic.Lib.Pipeline.Value
import proofs.«150986_j70806830842645_1_alg».proof.Proof.LibDense
import proofs.«150986_j70806830842645_1_alg».proof.Proof.Layers

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz6 : (![0, 0] : Fin 2 → Nat) = fun _ => 0 := funext fun a => by fin_cases a <;> rfl

/-- Where each window's block sits at point t: the row blocks of the tiled inputs and of the outputs move together,
    one block per point; the windows seen whole stay at the origin. -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point t writes back to the output array is block t of the node output layer on the whole arrays. -/
theorem flushed6_3 (c : Dev nD) (t : Fin cfg6.N) :
    (dat6 V c).flushed 3 t = ((cfg6.win 3).blk t).view.read (Elt Ideal) (Cert.Layers.nodeOut (V c main_v54) (V c main_arg8) (V c main_v55)) := by
  show (cfg6.win 3).cut (grid6.coords t) ((dat6 V c).after 3 t) = _
  rw [after6_3]
  unfold out6_3
  rw [View.canon_unit_zero hz6]
  simp only [View.ld_unit_zero (S := S1000x64) hz6, View.ld_unit_zero (S := S64x1024) hz6, View.ld_unit_zero (S := S1x1024) hz6]
  obtain ⟨e00, e01, e10, e11, e20, e21, o30, o31⟩ := idx6 t
  have ht : t.val < 50 := t.isLt
  funext y
  obtain ⟨p, q, rfl⟩ : ∃ (p : Fin 1000) (q : Fin 1024), y = ix2 p q := ⟨y 0, y 1, eq_ix2 y⟩
  have hp : p.val < 1000 := p.isLt
  have hr : win6_3.index t (0 : Fin 2) * 1000 + 1 * p.val < 50000 := by omega
  show k6_pay1 (iblk6 V c 0 t) (iblk6 V c 1 t) (iblk6 V c 2 t) (ix2 p q)
    = (Cert.Layers.nodeOut (V c main_v54) (V c main_arg8) (V c main_v55)) (((cfg6.win 3).blk t).view.emb (ix2 p q))
  have hemb : ((cfg6.win 3).blk t).view.emb (ix2 p q) = ix2 (⟨win6_3.index t (0 : Fin 2) * 1000 + 1 * p.val, hr⟩ : Fin 50000) q := by
    funext a; apply Fin.ext
    match a with
    | ⟨0, _⟩ => rfl
    | ⟨1, _⟩ => show win6_3.index t (1 : Fin 2) * 1024 + 1 * q.val = q.val; omega
  rw [hemb]
  unfold Cert.Layers.nodeOut
  rw [Cert.Dense.relu_apply]
  show max (Cert.Dense.body 1000 64 1024 bitsLt_bf16_f32 shapeCasts_S1x1024_S1x1024 broadcasts_S1x1024_S1000x1024 (shapeCast S1000x64 (iblk6 V c 0 t) shapeCasts_S1000x64_S1000x64) (iblk6 V c 1 t) (iblk6 V c 2 t) (ix2 p q)) (Scalar.ofBits (F := Ideal) .f32 0x00000000#32)
    = max (Cert.Dense.host 50000 64 1024 (by decide) (V c main_v54) (V c main_arg8) (V c main_v55) (ix2 (⟨win6_3.index t (0 : Fin 2) * 1000 + 1 * p.val, hr⟩ : Fin 50000) q)) (Scalar.ofBits (F := Ideal) .f32 0x00000000#32)
  refine congrArg (fun z => max z (Scalar.ofBits (F := Ideal) .f32 0x00000000#32)) ?_
  refine Cert.Dense.body_eq_host 50000 1000 64 1024 _ _ _ _ (V c main_v54) (V c main_arg8) (V c main_v55)
      (shapeCast S1000x64 (iblk6 V c 0 t) shapeCasts_S1000x64_S1000x64) (iblk6 V c 1 t) (iblk6 V c 2 t) p _ q ?_ ?_ ?_
  · intro k
    refine (congrFun (shapeCast_self (iblk6 V c 0 t) shapeCasts_S1000x64_S1000x64) (ix2 p k)).trans ?_
    show V c main_v54 (((cfg6.win 0).blk t).view.emb (ix2 p k)) = V c main_v54 (ix2 (⟨win6_3.index t (0 : Fin 2) * 1000 + 1 * p.val, hr⟩ : Fin 50000) k)
    have hk : ((cfg6.win 0).blk t).view.emb (ix2 p k) = ix2 (⟨win6_3.index t (0 : Fin 2) * 1000 + 1 * p.val, hr⟩ : Fin 50000) k := by
      funext a; apply Fin.ext
      match a with
      | ⟨0, _⟩ => show win6_0.index t (0 : Fin 2) * 1000 + 1 * p.val = win6_3.index t (0 : Fin 2) * 1000 + 1 * p.val; omega
      | ⟨1, _⟩ => show win6_0.index t (1 : Fin 2) * 64 + 1 * k.val = k.val; omega
    rw [hk]
  · funext z
    show V c main_arg8 (((cfg6.win 1).blk t).view.emb z) = V c main_arg8 z
    have hz' : ((cfg6.win 1).blk t).view.emb z = z := by
      funext a; apply Fin.ext
      match a with
      | ⟨0, _⟩ => show win6_1.index t (0 : Fin 2) * 64 + 1 * (z 0).val = (z 0).val; omega
      | ⟨1, _⟩ => show win6_1.index t (1 : Fin 2) * 1024 + 1 * (z 1).val = (z 1).val; omega
    rw [hz']
  · funext z
    show V c main_v55 (((cfg6.win 2).blk t).view.emb z) = V c main_v55 z
    have hz' : ((cfg6.win 2).blk t).view.emb z = z := by
      funext a; apply Fin.ext
      match a with
      | ⟨0, _⟩ => show win6_2.index t (0 : Fin 2) * 1 + 1 * (z 0).val = (z 0).val; omega
      | ⟨1, _⟩ => show win6_2.index t (1 : Fin 2) * 1024 + 1 * (z 1).val = (z 1).val; omega
    rw [hz']

/-- An index is in point t's block of the output array iff each coordinate is in the block's range on its axis. -/
theorem mem_blk6_3 (t : Fin cfg6.N) (i : S50000x1024.Idx) :
    i ∈ ((cfg6.win 3).blk t).view.set ↔ ∀ a : Fin 2, win6_3.index t a * S1000x1024.size a ≤ (i a).val ∧ (i a).val < win6_3.index t a * S1000x1024.size a + S1000x1024.size a := by
  show i ∈ ((View.whole main_v56).slice (win6_3.rect t)).set ↔ _
  rw [View.set_slice_whole, Rect.mem_set_unit]
  exact Iff.rfl

/-- Row r of the output array lies in the block of point r / 1000. -/
theorem cover6_3 (i : S50000x1024.Idx) : ∃ t : Fin cfg6.N, (cfg6.win 3).flush t = true ∧ i ∈ ((cfg6.win 3).blk t).view.set := by
  have hi0 : (i 0).val < 50000 := (i 0).isLt
  have hi1 : (i 1).val < 1024 := (i 1).isLt
  have hN : cfg6.N = 50 := N_6
  have hlt : (i 0).val / 1000 < cfg6.N := by rw [hN]; omega
  obtain ⟨e00, e01, e10, e11, e20, e21, o30, o31⟩ := idx6 ⟨(i 0).val / 1000, hlt⟩
  refine ⟨⟨(i 0).val / 1000, hlt⟩, flush6_3 _, ?_⟩
  rw [mem_blk6_3]
  intro a
  match a with
  | ⟨0, _⟩ =>
    show win6_3.index ⟨(i 0).val / 1000, hlt⟩ (0 : Fin 2) * 1000 ≤ (i 0).val ∧ (i 0).val < win6_3.index ⟨(i 0).val / 1000, hlt⟩ (0 : Fin 2) * 1000 + 1000
    rw [o30]; show (i 0).val / 1000 * 1000 ≤ (i 0).val ∧ (i 0).val < (i 0).val / 1000 * 1000 + 1000; omega
  | ⟨1, _⟩ =>
    show win6_3.index ⟨(i 0).val / 1000, hlt⟩ (1 : Fin 2) * 1024 ≤ (i 1).val ∧ (i 1).val < win6_3.index ⟨(i 0).val / 1000, hlt⟩ (1 : Fin 2) * 1024 + 1024
    rw [o31]; omega

/-- The array the launch leaves in the output array: the node output layer on the whole arrays. -/
theorem final6_3 (c : Dev nD) :
    (dat6 V c).arrAt 3 cfg6.N = Cert.Layers.nodeOut (V c main_v54) (V c main_arg8) (V c main_v55) :=
  (dat6 V c).arrAt_eq_of_cover 3 _ (fun t _ => flushed6_3 V c t) cover6_3

end Cert.KernelIdeal.Regions

end
-- ==== Proof.Region7.lean ====
/-
  The last launch: one point, every window whole. The 256 pooled rows go through the 1024 → 128 layer and the
  maximum with zero, and the result through the 128 → 1 layer; what is written back is the whole output, so the array
  the launch leaves is the head on the whole arrays.
-/
import proofs.«150986_j70806830842645_1_alg».proof.Proof.Gen.KernelIdeal.Frame
import Idealize.ShloMosaic.Lib.Pipeline.Value
import proofs.«150986_j70806830842645_1_alg».proof.Proof.LibDense
import proofs.«150986_j70806830842645_1_alg».proof.Proof.Layers

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz7 : (![0, 0] : Fin 2 → Nat) = fun _ => 0 := funext fun a => by fin_cases a <;> rfl

/-- Every window's block sits at the origin at the one point. -/
theorem idx7 : ∀ t : Fin cfg7.N,
    win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

/-- Window 0's one block is its whole array. -/
theorem blk7_0 (c : Dev nD) (t : Fin cfg7.N) : iblk7 V c 0 t = V c main_v61 := by
  obtain ⟨e00, e01, e10, e11, e20, e21, e30, e31, e40, e41, e50, e51⟩ := idx7 t
  funext z
  show V c main_v61 (((cfg7.win 0).blk t).view.emb z) = V c main_v61 z
  have hz' : ((cfg7.win 0).blk t).view.emb z = z := by
    funext a; apply Fin.ext
    match a with
    | ⟨0, _⟩ => show win7_0.index t (0 : Fin 2) * 256 + 1 * (z 0).val = (z 0).val; rw [e00]; simp
    | ⟨1, _⟩ => show win7_0.index t (1 : Fin 2) * 1024 + 1 * (z 1).val = (z 1).val; rw [e01]; simp
  rw [hz']

/-- Window 1's one block is its whole array. -/
theorem blk7_1 (c : Dev nD) (t : Fin cfg7.N) : iblk7 V c 1 t = V c main_arg10 := by
  obtain ⟨e00, e01, e10, e11, e20, e21, e30, e31, e40, e41, e50, e51⟩ := idx7 t
  funext z
  show V c main_arg10 (((cfg7.win 1).blk t).view.emb z) = V c main_arg10 z
  have hz' : ((cfg7.win 1).blk t).view.emb z = z := by
    funext a; apply Fin.ext
    match a with
    | ⟨0, _⟩ => show win7_1.index t (0 : Fin 2) * 1024 + 1 * (z 0).val = (z 0).val; rw [e10]; simp
    | ⟨1, _⟩ => show win7_1.index t (1 : Fin 2) * 128 + 1 * (z 1).val = (z 1).val; rw [e11]; simp
  rw [hz']

/-- Window 2's one block is its whole array. -/
theorem blk7_2 (c : Dev nD) (t : Fin cfg7.N) : iblk7 V c 2 t = V c main_v62 := by
  obtain ⟨e00, e01, e10, e11, e20, e21, e30, e31, e40, e41, e50, e51⟩ := idx7 t
  funext z
  show V c main_v62 (((cfg7.win 2).blk t).view.emb z) = V c main_v62 z
  have hz' : ((cfg7.win 2).blk t).view.emb z = z := by
    funext a; apply Fin.ext
    match a with
    | ⟨0, _⟩ => show win7_2.index t (0 : Fin 2) * 1 + 1 * (z 0).val = (z 0).val; rw [e20]; simp
    | ⟨1, _⟩ => show win7_2.index t (1 : Fin 2) * 128 + 1 * (z 1).val = (z 1).val; rw [e21]; simp
  rw [hz']

/-- Window 3's one block is its whole array. -/
theorem blk7_3 (c : Dev nD) (t : Fin cfg7.N) : iblk7 V c 3 t = V c main_arg12 := by
  obtain ⟨e00, e01, e10, e11, e20, e21, e30, e31, e40, e41, e50, e51⟩ := idx7 t
  funext z
  show V c main_arg12 (((cfg7.win 3).blk t).view.emb z) = V c main_arg12 z
  have hz' : ((cfg7.win 3).blk t).view.emb z = z := by
    funext a; apply Fin.ext
    match a with
    | ⟨0, _⟩ => show win7_3.index t (0 : Fin 2) * 128 + 1 * (z 0).val = (z 0).val; rw [e30]; simp
    | ⟨1, _⟩ => show win7_3.index t (1 : Fin 2) * 1 + 1 * (z 1).val = (z 1).val; rw [e31]; simp
  rw [hz']

/-- Window 4's one block is its whole array. -/
theorem blk7_4 (c : Dev nD) (t : Fin cfg7.N) : iblk7 V c 4 t = V c main_v63 := by
  obtain ⟨e00, e01, e10, e11, e20, e21, e30, e31, e40, e41, e50, e51⟩ := idx7 t
  funext z
  show V c main_v63 (((cfg7.win 4).blk t).view.emb z) = V c main_v63 z
  have hz' : ((cfg7.win 4).blk t).view.emb z = z := by
    funext a; apply Fin.ext
    match a with
    | ⟨0, _⟩ => show win7_4.index t (0 : Fin 2) * 1 + 1 * (z 0).val = (z 0).val; rw [e40]; simp
    | ⟨1, _⟩ => show win7_4.index t (1 : Fin 2) * 1 + 1 * (z 1).val = (z 1).val; rw [e41]; simp
  rw [hz']

/-- What the one point writes back is the head on the whole arrays. -/
theorem flushed7 (c : Dev nD) (t : Fin cfg7.N) :
    (dat7 V c).flushed 5 t = ((cfg7.win 5).blk t).view.read (Elt Ideal)
      (Cert.Layers.head (V c main_v61) (V c main_arg10) (V c main_v62) (V c main_arg12) (V c main_v63)) := by
  show (cfg7.win 5).cut (grid7.coords t) ((dat7 V c).after 5 t) = _
  rw [after7_5]
  unfold out7_5
  rw [View.canon_unit_zero hz7]
  simp only [View.ld_unit_zero (S := S256x1024) hz7, View.ld_unit_zero (S := S1024x128) hz7, View.ld_unit_zero (S := S1x128) hz7,
    View.ld_unit_zero (S := S128x1) hz7, View.ld_unit_zero (S := S1x1) hz7]
  obtain ⟨e00, e01, e10, e11, e20, e21, e30, e31, e40, e41, e50, e51⟩ := idx7 t
  funext y
  obtain ⟨p, q, rfl⟩ : ∃ (p : Fin 256) (q : Fin 1), y = ix2 p q := ⟨y 0, y 1, eq_ix2 y⟩
  show k7_pay1 (iblk7 V c 0 t) (iblk7 V c 1 t) (iblk7 V c 2 t) (iblk7 V c 3 t) (iblk7 V c 4 t) (ix2 p q)
    = (Cert.Layers.head (V c main_v61) (V c main_arg10) (V c main_v62) (V c main_arg12) (V c main_v63)) (((cfg7.win 5).blk t).view.emb (ix2 p q))
  have hemb : ((cfg7.win 5).blk t).view.emb (ix2 p q) = ix2 p q := by
    funext a; apply Fin.ext
    match a with
    | ⟨0, _⟩ => show win7_5.index t (0 : Fin 2) * 256 + 1 * p.val = p.val; rw [e50]; simp
    | ⟨1, _⟩ => show win7_5.index t (1 : Fin 2) * 1 + 1 * q.val = q.val; rw [e51]; simp
  rw [hemb]
  unfold Cert.Layers.head
  show Cert.Dense.body 256 128 1 bitsLt_bf16_f32 shapeCasts_S1x1_S1x1 broadcasts_S1x1_S256x1
      (maximumf (Cert.Dense.body 256 1024 128 bitsLt_bf16_f32 shapeCasts_S1x128_S1x128 broadcasts_S1x128_S256x128
        (shapeCast S256x1024 (iblk7 V c 0 t) shapeCasts_S256x1024_S256x1024) (iblk7 V c 1 t) (iblk7 V c 2 t))
        (broadcast S256x128 (Scalar.ofBits (F := Ideal) .f32 0x00000000#32)))
      (iblk7 V c 3 t) (iblk7 V c 4 t) (ix2 p q)
    = Cert.Dense.host 256 128 1 (by decide) (Cert.Layers.hidden (V c main_v61) (V c main_arg10) (V c main_v62)) (V c main_arg12) (V c main_v63) (ix2 p q)
  refine Cert.Dense.body_eq_host 256 256 128 1 _ _ _ _ (Cert.Layers.hidden (V c main_v61) (V c main_arg10) (V c main_v62)) (V c main_arg12) (V c main_v63)
      (maximumf (Cert.Dense.body 256 1024 128 bitsLt_bf16_f32 shapeCasts_S1x128_S1x128 broadcasts_S1x128_S256x128
        (shapeCast S256x1024 (iblk7 V c 0 t) shapeCasts_S256x1024_S256x1024) (iblk7 V c 1 t) (iblk7 V c 2 t))
        (broadcast S256x128 (Scalar.ofBits (F := Ideal) .f32 0x00000000#32)))
      (iblk7 V c 3 t) (iblk7 V c 4 t) p p q ?_ (blk7_3 V c t) (blk7_4 V c t)
  intro k
  unfold Cert.Layers.hidden
  rw [Cert.Dense.relu_apply]
  show max (Cert.Dense.body 256 1024 128 bitsLt_bf16_f32 shapeCasts_S1x128_S1x128 broadcasts_S1x128_S256x128
      (shapeCast S256x1024 (iblk7 V c 0 t) shapeCasts_S256x1024_S256x1024) (iblk7 V c 1 t) (iblk7 V c 2 t) (ix2 p k)) (Scalar.ofBits (F := Ideal) .f32 0x00000000#32)
    = max (Cert.Dense.host 256 1024 128 (by decide) (V c main_v61) (V c main_arg10) (V c main_v62) (ix2 p k)) (Scalar.ofBits (F := Ideal) .f32 0x00000000#32)
  refine congrArg (fun z => max z (Scalar.ofBits (F := Ideal) .f32 0x00000000#32)) ?_
  refine Cert.Dense.body_eq_host 256 256 1024 128 _ _ _ _ (V c main_v61) (V c main_arg10) (V c main_v62)
      (shapeCast S256x1024 (iblk7 V c 0 t) shapeCasts_S256x1024_S256x1024) (iblk7 V c 1 t) (iblk7 V c 2 t) p p k ?_ (blk7_1 V c t) (blk7_2 V c t)
  intro k'
  refine (congrFun (shapeCast_self (iblk7 V c 0 t) shapeCasts_S256x1024_S256x1024) (ix2 p k')).trans ?_
  exact congrFun (blk7_0 V c t) (ix2 p k')

/-- An index is in the one point's block iff each coordinate is in the block's range on its axis. -/
theorem mem_blk7 (t : Fin cfg7.N) (i : S256x1.Idx) :
    i ∈ ((cfg7.win 5).blk t).view.set ↔ ∀ a : Fin 2, win7_5.index t a * S256x1.size a ≤ (i a).val ∧ (i a).val < win7_5.index t a * S256x1.size a + S256x1.size a := by
  show i ∈ ((View.whole main_v64).slice (win7_5.rect t)).set ↔ _
  rw [View.set_slice_whole, Rect.mem_set_unit]
  exact Iff.rfl

/-- The one block is the whole output. -/
theorem cover7 (i : S256x1.Idx) : ∃ t : Fin cfg7.N, (cfg7.win 5).flush t = true ∧ i ∈ ((cfg7.win 5).blk t).view.set := by
  have hi0 : (i 0).val < 256 := (i 0).isLt
  have hi1 : (i 1).val < 1 := (i 1).isLt
  have hN : cfg7.N = 1 := N_7
  have hlt : 0 < cfg7.N := by rw [hN]; omega
  obtain ⟨e00, e01, e10, e11, e20, e21, e30, e31, e40, e41, e50, e51⟩ := idx7 ⟨0, hlt⟩
  refine ⟨⟨0, hlt⟩, flush7_5 _, ?_⟩
  rw [mem_blk7]
  intro a
  match a with
  | ⟨0, _⟩ =>
    show win7_5.index ⟨0, hlt⟩ (0 : Fin 2) * 256 ≤ (i 0).val ∧ (i 0).val < win7_5.index ⟨0, hlt⟩ (0 : Fin 2) * 256 + 256
    rw [e50]; omega
  | ⟨1, _⟩ =>
    show win7_5.index ⟨0, hlt⟩ (1 : Fin 2) * 1 ≤ (i 1).val ∧ (i 1).val < win7_5.index ⟨0, hlt⟩ (1 : Fin 2) * 1 + 1
    rw [e51]; omega

/-- The array the last launch leaves: the head on the whole arrays. -/
theorem final7 (c : Dev nD) :
    (dat7 V c).arrAt 5 cfg7.N = Cert.Layers.head (V c main_v61) (V c main_arg10) (V c main_v62) (V c main_arg12) (V c main_v63) :=
  (dat7 V c).arrAt_eq_of_cover 5 _ (fun t _ => flushed7 V c t) cover7

end Cert.KernelIdeal.Regions

end
-- ==== Proof.Chain.lean ====
/-
  The run, boundary by boundary: what each buffer the next stretch reads holds, as a value of the chain of layers.

  A stretch of host operations leaves in each buffer it writes the operation's value of the buffers it reads; a
  launch leaves in its output array the layer on its input arrays as they stood at its entry; everything else is
  carried over unchanged. Walking the sixteen boundaries from the launch to the return gives the result buffer as
  the network's value of the argument arrays.
-/
import proofs.«150986_j70806830842645_1_alg».proof.Proof.Gen.KernelIdeal.Frame
import Idealize.ShloMosaic.Lib.StableHlo.Run
import proofs.«150986_j70806830842645_1_alg».proof.Proof.Stages
import proofs.«150986_j70806830842645_1_alg».proof.Proof.KeptA
import proofs.«150986_j70806830842645_1_alg».proof.Proof.KeptB
import proofs.«150986_j70806830842645_1_alg».proof.Proof.KeptC
import proofs.«150986_j70806830842645_1_alg».proof.Proof.Region0
import proofs.«150986_j70806830842645_1_alg».proof.Proof.Region1
import proofs.«150986_j70806830842645_1_alg».proof.Proof.Region2
import proofs.«150986_j70806830842645_1_alg».proof.Proof.Region3
import proofs.«150986_j70806830842645_1_alg».proof.Proof.Region4
import proofs.«150986_j70806830842645_1_alg».proof.Proof.Region5
import proofs.«150986_j70806830842645_1_alg».proof.Proof.Region6
import proofs.«150986_j70806830842645_1_alg».proof.Proof.Region7

noncomputable section

namespace Cert.KernelIdeal.Chain

open Cert.KernelIdeal Cert.KernelIdeal.Gen Idealize.ShloMosaic Idealize.ShloMosaic.TcCoe Idealize.SL.Sem
open Cert.KernelIdeal.Kept Cert.KernelIdeal.Regions Cert.KernelIdeal.Stages
open Idealize.ShloMosaic.Pipeline (Dat)

variable (m : (ℓ : Loc nD τ sig) → Buf (Elt Ideal) ℓ) (ρ : Dev nD → PrngReg)

/-! ## The edge layer and the node launch -/

/-- Before the first launch: the edge bias as a row. -/
theorem v0_1 (c : Dev nD) : W1 m ρ c (Proc.devRef .tc main_v0) = edgeBias m c := by
  refine Eq.trans (b := shapeCast S1x64 (W0 m ρ c (Proc.devRef .tc main_arg5)) shapeCasts_S64_S1x64) ?_ ?_
  · show StableHlo.after hostOps0 (W0 m ρ c) (Proc.devRef .tc main_v0) = _
    after_results
    rfl
  · rw [show W0 m ρ c (Proc.devRef .tc main_arg5) = m ((c : Thread nD τ).loc main_arg5) from rfl]
    exact Cert.Dense.row_eq 64 _ _ _
/-- After the first launch: the edge layer on every edge. -/
theorem v1_2 (c : Dev nD) : W2 m ρ c (Proc.devRef .tc main_v1) = edgeMsg m c := by
  refine (W2_arr m ρ c 3).trans ((final0 (V1 m ρ) c).trans ?_)
  show Cert.Layers.edgeLin (W1 m ρ c (Proc.devRef .tc main_arg1)) (W1 m ρ c (Proc.devRef .tc main_arg4)) (W1 m ρ c (Proc.devRef .tc main_v0)) = _
  rw [kept_arg1_1 m ρ c, kept_arg4_1 m ρ c, v0_1 m ρ c]
  rfl
set_option maxHeartbeats 2000000 in
/-- The edge messages summed at their destination nodes. -/
theorem v4_3 (c : Dev nD) : W3 m ρ c (Proc.devRef .tc main_v4) = sumAtDst m c (edgeMsg m c) := by
  show StableHlo.after hostOps1 (W2 m ρ c) (Proc.devRef .tc main_v4) = _
  after_results
  rw [kept_arg15_2 m ρ c, v1_2 m ρ c]
  rfl
/-- The node bias as a row. -/
theorem v5_3 (c : Dev nD) : W3 m ρ c (Proc.devRef .tc main_v5) = nodeBias m c := by
  refine Eq.trans (b := shapeCast S1x64 (W2 m ρ c (Proc.devRef .tc main_arg3)) shapeCasts_S64_S1x64) ?_ ?_
  · show StableHlo.after hostOps1 (W2 m ρ c) (Proc.devRef .tc main_v5) = _
    after_results
    rfl
  · rw [kept_arg3_2 m ρ c]
    exact Cert.Dense.row_eq 64 _ _ _
/-- After the node launch: the node input. -/
theorem v6_0_4 (c : Dev nD) : W4 m ρ c (Proc.devRef .tc main_v6_0) = nodeIn m c := by
  refine (W4_arr m ρ c 4).trans ((final1_4 (V3 m ρ) c).trans ?_)
  show Cert.Layers.nodeIn (W3 m ρ c (Proc.devRef .tc main_arg0)) (W3 m ρ c (Proc.devRef .tc main_arg2)) (W3 m ρ c (Proc.devRef .tc main_v5)) (W3 m ρ c (Proc.devRef .tc main_v4)) = _
  rw [kept_arg0_3 m ρ c, kept_arg2_3 m ρ c, v5_3 m ρ c, v4_3 m ρ c]
  rfl
/-- After the node launch: the first node state. -/
theorem v6_1_4 (c : Dev nD) : W4 m ρ c (Proc.devRef .tc main_v6_1) = state0 m c := by
  refine (W4_arr m ρ c 5).trans ((final1_5 (V3 m ρ) c).trans ?_)
  show Cert.Layers.relu64 (Cert.Layers.nodeIn (W3 m ρ c (Proc.devRef .tc main_arg0)) (W3 m ρ c (Proc.devRef .tc main_arg2)) (W3 m ρ c (Proc.devRef .tc main_v5)) (W3 m ρ c (Proc.devRef .tc main_v4))) = _
  rw [kept_arg0_3 m ρ c, kept_arg2_3 m ρ c, v5_3 m ρ c, v4_3 m ρ c]
  rfl

/-! ## The four convolution steps -/

set_option maxHeartbeats 2000000 in
/-- Step 1: the state gathered at the sources and summed at the destinations. -/
theorem v16_5 (c : Dev nD) : W5 m ρ c (Proc.devRef .tc main_v16) = sumAtDst m c (atSrc m c (state0 m c)) := by
  show StableHlo.after hostOps2 (W4 m ρ c) (Proc.devRef .tc main_v16) = _
  after_results
  rw [kept_arg15_4 m ρ c, kept_arg14_4 m ρ c, v6_1_4 m ρ c]
  rfl
/-- Step 1: the convolution bias as a row. -/
theorem v17_5 (c : Dev nD) : W5 m ρ c (Proc.devRef .tc main_v17) = convBias m c := by
  refine Eq.trans (b := shapeCast S1x64 (W4 m ρ c (Proc.devRef .tc main_arg7)) shapeCasts_S64_S1x64) ?_ ?_
  · show StableHlo.after hostOps2 (W4 m ρ c) (Proc.devRef .tc main_v17) = _
    after_results
    rfl
  · rw [kept_arg7_4 m ρ c]
    exact Cert.Dense.row_eq 64 _ _ _
/-- Step 1: the node input is carried over the host stretch. -/
theorem v6_0_5 (c : Dev nD) : W5 m ρ c (Proc.devRef .tc main_v6_0) = nodeIn m c :=
  (StableHlo.after_of_forall_not_mem (b := Proc.devRef .tc main_v6_0) _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (v6_0_4 m ρ c)
/-- Step 1: the launch leaves the next node state. -/
theorem v18_6 (c : Dev nD) : W6 m ρ c (Proc.devRef .tc main_v18) = state1 m c := by
  refine (W6_arr m ρ c 4).trans ((final2_4 (V5 m ρ) c).trans ?_)
  show Cert.Layers.conv (W5 m ρ c (Proc.devRef .tc main_v16)) (W5 m ρ c (Proc.devRef .tc main_arg6)) (W5 m ρ c (Proc.devRef .tc main_v17)) (W5 m ρ c (Proc.devRef .tc main_v6_0)) = _
  rw [v16_5 m ρ c, kept_arg6_5 m ρ c, v17_5 m ρ c, v6_0_5 m ρ c]
  rfl
/-- Step 1: the launch only reads the node input. -/
theorem v6_0_6 (c : Dev nD) : W6 m ρ c (Proc.devRef .tc main_v6_0) = nodeIn m c :=
  ((W6_arr m ρ c 3).trans (((dat2 (V5 m ρ) c).arrAt_in 3 rfl _).trans (A_eq2 (V5 m ρ) c 3))).trans (v6_0_5 m ρ c)
set_option maxHeartbeats 2000000 in
/-- Step 2: the state gathered at the sources and summed at the destinations. -/
theorem v28_7 (c : Dev nD) : W7 m ρ c (Proc.devRef .tc main_v28) = sumAtDst m c (atSrc m c (state1 m c)) := by
  show StableHlo.after hostOps3 (W6 m ρ c) (Proc.devRef .tc main_v28) = _
  after_results
  rw [kept_arg15_6 m ρ c, kept_arg14_6 m ρ c, v18_6 m ρ c]
  rfl
/-- Step 2: the convolution bias as a row. -/
theorem v29_7 (c : Dev nD) : W7 m ρ c (Proc.devRef .tc main_v29) = convBias m c := by
  refine Eq.trans (b := shapeCast S1x64 (W6 m ρ c (Proc.devRef .tc main_arg7)) shapeCasts_S64_S1x64) ?_ ?_
  · show StableHlo.after hostOps3 (W6 m ρ c) (Proc.devRef .tc main_v29) = _
    after_results
    rfl
  · rw [kept_arg7_6 m ρ c]
    exact Cert.Dense.row_eq 64 _ _ _
/-- Step 2: the node input is carried over the host stretch. -/
theorem v6_0_7 (c : Dev nD) : W7 m ρ c (Proc.devRef .tc main_v6_0) = nodeIn m c :=
  (StableHlo.after_of_forall_not_mem (b := Proc.devRef .tc main_v6_0) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (v6_0_6 m ρ c)
/-- Step 2: the launch leaves the next node state. -/
theorem v30_8 (c : Dev nD) : W8 m ρ c (Proc.devRef .tc main_v30) = state2 m c := by
  refine (W8_arr m ρ c 4).trans ((final3_4 (V7 m ρ) c).trans ?_)
  show Cert.Layers.conv (W7 m ρ c (Proc.devRef .tc main_v28)) (W7 m ρ c (Proc.devRef .tc main_arg6)) (W7 m ρ c (Proc.devRef .tc main_v29)) (W7 m ρ c (Proc.devRef .tc main_v6_0)) = _
  rw [v28_7 m ρ c, kept_arg6_7 m ρ c, v29_7 m ρ c, v6_0_7 m ρ c]
  rfl
/-- Step 2: the launch only reads the node input. -/
theorem v6_0_8 (c : Dev nD) : W8 m ρ c (Proc.devRef .tc main_v6_0) = nodeIn m c :=
  ((W8_arr m ρ c 3).trans (((dat3 (V7 m ρ) c).arrAt_in 3 rfl _).trans (A_eq3 (V7 m ρ) c 3))).trans (v6_0_7 m ρ c)
set_option maxHeartbeats 2000000 in
/-- Step 3: the state gathered at the sources and summed at the destinations. -/
theorem v40_9 (c : Dev nD) : W9 m ρ c (Proc.devRef .tc main_v40) = sumAtDst m c (atSrc m c (state2 m c)) := by
  show StableHlo.after hostOps4 (W8 m ρ c) (Proc.devRef .tc main_v40) = _
  after_results
  rw [kept_arg15_8 m ρ c, kept_arg14_8 m ρ c, v30_8 m ρ c]
  rfl
/-- Step 3: the convolution bias as a row. -/
theorem v41_9 (c : Dev nD) : W9 m ρ c (Proc.devRef .tc main_v41) = convBias m c := by
  refine Eq.trans (b := shapeCast S1x64 (W8 m ρ c (Proc.devRef .tc main_arg7)) shapeCasts_S64_S1x64) ?_ ?_
  · show StableHlo.after hostOps4 (W8 m ρ c) (Proc.devRef .tc main_v41) = _
    after_results
    rfl
  · rw [kept_arg7_8 m ρ c]
    exact Cert.Dense.row_eq 64 _ _ _
/-- Step 3: the node input is carried over the host stretch. -/
theorem v6_0_9 (c : Dev nD) : W9 m ρ c (Proc.devRef .tc main_v6_0) = nodeIn m c :=
  (StableHlo.after_of_forall_not_mem (b := Proc.devRef .tc main_v6_0) _ _ (List.forall_iff_forall_mem.mp (by
      simp only [hostOps4, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (v6_0_8 m ρ c)
/-- Step 3: the launch leaves the next node state. -/
theorem v42_10 (c : Dev nD) : W10 m ρ c (Proc.devRef .tc main_v42) = state3 m c := by
  refine (W10_arr m ρ c 4).trans ((final4_4 (V9 m ρ) c).trans ?_)
  show Cert.Layers.conv (W9 m ρ c (Proc.devRef .tc main_v40)) (W9 m ρ c (Proc.devRef .tc main_arg6)) (W9 m ρ c (Proc.devRef .tc main_v41)) (W9 m ρ c (Proc.devRef .tc main_v6_0)) = _
  rw [v40_9 m ρ c, kept_arg6_9 m ρ c, v41_9 m ρ c, v6_0_9 m ρ c]
  rfl
/-- Step 3: the launch only reads the node input. -/
theorem v6_0_10 (c : Dev nD) : W10 m ρ c (Proc.devRef .tc main_v6_0) = nodeIn m c :=
  ((W10_arr m ρ c 3).trans (((dat4 (V9 m ρ) c).arrAt_in 3 rfl _).trans (A_eq4 (V9 m ρ) c 3))).trans (v6_0_9 m ρ c)
set_option maxHeartbeats 2000000 in
/-- Step 4: the state gathered at the sources and summed at the destinations. -/
theorem v52_11 (c : Dev nD) : W11 m ρ c (Proc.devRef .tc main_v52) = sumAtDst m c (atSrc m c (state3 m c)) := by
  show StableHlo.after hostOps5 (W10 m ρ c) (Proc.devRef .tc main_v52) = _
  after_results
  rw [kept_arg15_10 m ρ c, kept_arg14_10 m ρ c, v42_10 m ρ c]
  rfl
/-- Step 4: the convolution bias as a row. -/
theorem v53_11 (c : Dev nD) : W11 m ρ c (Proc.devRef .tc main_v53) = convBias m c := by
  refine Eq.trans (b := shapeCast S1x64 (W10 m ρ c (Proc.devRef .tc main_arg7)) shapeCasts_S64_S1x64) ?_ ?_
  · show StableHlo.after hostOps5 (W10 m ρ c) (Proc.devRef .tc main_v53) = _
    after_results
    rfl
  · rw [kept_arg7_10 m ρ c]
    exact Cert.Dense.row_eq 64 _ _ _
/-- Step 4: the node input is carried over the host stretch. -/
theorem v6_0_11 (c : Dev nD) : W11 m ρ c (Proc.devRef .tc main_v6_0) = nodeIn m c :=
  (StableHlo.after_of_forall_not_mem (b := Proc.devRef .tc main_v6_0) _ _ (List.forall_iff_forall_mem.mp (by
      simp only [hostOps5, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (v6_0_10 m ρ c)
/-- Step 4: the launch leaves the next node state. -/
theorem v54_12 (c : Dev nD) : W12 m ρ c (Proc.devRef .tc main_v54) = state4 m c := by
  refine (W12_arr m ρ c 4).trans ((final5_4 (V11 m ρ) c).trans ?_)
  show Cert.Layers.conv (W11 m ρ c (Proc.devRef .tc main_v52)) (W11 m ρ c (Proc.devRef .tc main_arg6)) (W11 m ρ c (Proc.devRef .tc main_v53)) (W11 m ρ c (Proc.devRef .tc main_v6_0)) = _
  rw [v52_11 m ρ c, kept_arg6_11 m ρ c, v53_11 m ρ c, v6_0_11 m ρ c]
  rfl

/-! ## The output layer, the pooling and the head -/

/-- The output bias as a row. -/
theorem v55_13 (c : Dev nD) : W13 m ρ c (Proc.devRef .tc main_v55) = outBias m c := by
  refine Eq.trans (b := shapeCast S1x1024 (W12 m ρ c (Proc.devRef .tc main_arg9)) shapeCasts_S1024_S1x1024) ?_ ?_
  · show StableHlo.after hostOps6 (W12 m ρ c) (Proc.devRef .tc main_v55) = _
    after_results
    rfl
  · rw [kept_arg9_12 m ρ c]
    exact Cert.Dense.row_eq 1024 _ _ _
/-- The last node state is carried over the host stretch. -/
theorem v54_13 (c : Dev nD) : W13 m ρ c (Proc.devRef .tc main_v54) = state4 m c :=
  (StableHlo.after_of_forall_not_mem (b := Proc.devRef .tc main_v54) _ _ (List.forall_iff_forall_mem.mp (by
      simp only [hostOps6, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (v54_12 m ρ c)
/-- After the output launch: the output layer on the last state. -/
theorem v56_14 (c : Dev nD) : W14 m ρ c (Proc.devRef .tc main_v56) = nodeOut m c := by
  refine (W14_arr m ρ c 3).trans ((final6_3 (V13 m ρ) c).trans ?_)
  show Cert.Layers.nodeOut (W13 m ρ c (Proc.devRef .tc main_v54)) (W13 m ρ c (Proc.devRef .tc main_arg8)) (W13 m ρ c (Proc.devRef .tc main_v55)) = _
  rw [v54_13 m ρ c, kept_arg8_13 m ρ c, v55_13 m ρ c]
  rfl
set_option maxHeartbeats 2000000 in
/-- The rows summed per graph, then the maximum with zero. -/
theorem v61_15 (c : Dev nD) : W15 m ρ c (Proc.devRef .tc main_v61) = pooled m c := by
  show StableHlo.after hostOps7 (W14 m ρ c) (Proc.devRef .tc main_v61) = _
  after_results
  rw [kept_arg16_14 m ρ c, v56_14 m ρ c]
  rfl
/-- The hidden bias as a row. -/
theorem v62_15 (c : Dev nD) : W15 m ρ c (Proc.devRef .tc main_v62) = hiddenBias m c := by
  refine Eq.trans (b := shapeCast S1x128 (W14 m ρ c (Proc.devRef .tc main_arg11)) shapeCasts_S128_S1x128) ?_ ?_
  · show StableHlo.after hostOps7 (W14 m ρ c) (Proc.devRef .tc main_v62) = _
    after_results
    rfl
  · rw [kept_arg11_14 m ρ c]
    exact Cert.Dense.row_eq 128 _ _ _
/-- The last bias as a row. -/
theorem v63_15 (c : Dev nD) : W15 m ρ c (Proc.devRef .tc main_v63) = lastBias m c := by
  refine Eq.trans (b := shapeCast S1x1 (W14 m ρ c (Proc.devRef .tc main_arg13)) shapeCasts_S1_S1x1) ?_ ?_
  · show StableHlo.after hostOps7 (W14 m ρ c) (Proc.devRef .tc main_v63) = _
    after_results
    rfl
  · rw [kept_arg13_14 m ρ c]
    exact Cert.Dense.row_eq 1 _ _ _
/-- After the last launch: one number per graph. -/
theorem v64_16 (c : Dev nD) : W16 m ρ c (Proc.devRef .tc main_v64) = pred m c := by
  refine (W16_arr m ρ c 5).trans ((final7 (V15 m ρ) c).trans ?_)
  show Cert.Layers.head (W15 m ρ c (Proc.devRef .tc main_v61)) (W15 m ρ c (Proc.devRef .tc main_arg10)) (W15 m ρ c (Proc.devRef .tc main_v62)) (W15 m ρ c (Proc.devRef .tc main_arg12)) (W15 m ρ c (Proc.devRef .tc main_v63)) = _
  rw [v61_15 m ρ c, kept_arg10_15 m ρ c, v62_15 m ρ c, kept_arg12_15 m ρ c, v63_15 m ρ c]
  rfl

end Cert.KernelIdeal.Chain

end
-- ==== Proof.Run.lean ====
/-
  The kernel's run with its result named: every weakly fair execution terminates, nothing faulting, with the result
  buffer at the network's value of the argument arrays and the arguments as launched. The segments of the run are
  chained from the launch memory, the last thread state is read against the final memory, and the result buffer's
  contents at the last boundary are what the walk through the boundaries found.
-/
import proofs.«150986_j70806830842645_1_alg».proof.Proof.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Chain

open Cert.KernelIdeal Cert.KernelIdeal.Gen Cert.KernelIdeal.Stages
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the program terminates, nothing faulting, with the result buffer at the network's
    value of the argument arrays and the arguments as launched: the segments of the run chained from the launch
    memory, the last thread state read against the final memory, the result buffer by the walk above. -/
theorem run : θ_run defs (onTc (τ := τ) (main (F := Ideal))) ⟨m, fun _ => 0, ρ⟩ (fun r => ∀ c : Dev nD,
      r.2.mem ((c.tc : Thread nD τ).loc main_v64) = pred m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨(h c _ (mem_uc main_v64 (by decide))).trans (v64_16 m ρ c),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c)⟩)

end Cert.KernelIdeal.Chain

end
-- ==== Proof.RefSide.lean ====
/-
  The reference computes the same chain of layers: its host operations, composed, are the edge layer, the sum at the
  destinations, the node input, four convolution steps, the output layer, the pooling and the head, spelt with the same
  products, broadcasts, gathers and scatters in the same order. So from arguments that agree its result is the
  network's value of the arguments.
-/
import proofs.«150986_j70806830842645_1_alg».proof.Defs
import proofs.«150986_j70806830842645_1_alg».proof.Proof.Gen.ReferenceIdeal.Run
import proofs.«150986_j70806830842645_1_alg».proof.Proof.Stages

noncomputable section

namespace Cert.Proof.RefSide

open Idealize.ShloMosaic Idealize.ShloMosaic.TcCoe Idealize.SL.Sem

set_option maxRecDepth 8192 in
/-- The reference's composed term at arguments agreeing with the kernel's is the network's value of those arguments. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.Value.res_main_v94 m' c = Cert.KernelIdeal.Stages.pred m c := by
  obtain ⟨h0, h1, h2, h3, h4, h5, h6, h7, h8, h9, h10, h11, h12, h13, h14, h15, h16⟩ := h
  unfold Cert.ReferenceIdeal.Value.res_main_v94
  rw [h0, h1, h2, h3, h4, h5, h6, h7, h8, h9, h10, h11, h12, h13, h14, h15, h16]
  rfl

end Cert.Proof.RefSide

end
-- ==== Proof.lean ====
/- The kernel and its reference are the same network on the extended reals.

   The kernel runs eight launches among stretches of host operations: dense layers (a matrix product of operands whose
   change of float format is the identity on extended reals, a bias row, sometimes an added array and a maximum with
   zero) on row blocks that tile their arrays, with the gathers, the sums at destination indices and the pooling left
   to the host. The reference spells every dense layer as a host product plus a broadcast row. Entry by entry a block's
   layer is the whole array's layer at the block's rows, so each launch leaves the host's spelling of its layer; the
   host operations between launches are the reference's own; and composing the boundaries of the run gives the result
   buffer as the very term the reference computes. No law of arithmetic beyond that is used, so the finiteness of the
   inputs is never opened.

   The three frames are the generated ones (the reference's from its generated run); the idealization rewrote nothing,
   so its conjunct is trivial; the last conjunct sets the kernel's run, read boundary by boundary, beside the
   reference's run. -/
import proofs.«150986_j70806830842645_1_alg».proof.Defs
import proofs.«150986_j70806830842645_1_alg».proof.Proof.Gen.Kernel
import proofs.«150986_j70806830842645_1_alg».proof.Proof.Gen.Kernel.Skeleton
import proofs.«150986_j70806830842645_1_alg».proof.Proof.Gen.Kernel.Launch
import proofs.«150986_j70806830842645_1_alg».proof.Proof.Gen.Kernel.Points
import proofs.«150986_j70806830842645_1_alg».proof.Proof.Gen.Kernel.Frame
import proofs.«150986_j70806830842645_1_alg».proof.Proof.Gen.KernelIdeal
import proofs.«150986_j70806830842645_1_alg».proof.Proof.Gen.KernelIdeal.Skeleton
import proofs.«150986_j70806830842645_1_alg».proof.Proof.Gen.KernelIdeal.Launch
import proofs.«150986_j70806830842645_1_alg».proof.Proof.Gen.KernelIdeal.Points
import proofs.«150986_j70806830842645_1_alg».proof.Proof.Gen.KernelIdeal.Frame
import proofs.«150986_j70806830842645_1_alg».proof.Proof.Gen.ReferenceIdeal
import proofs.«150986_j70806830842645_1_alg».proof.Proof.Gen.ReferenceIdeal.Run
import proofs.«150986_j70806830842645_1_alg».proof.Proof.Gen.Pre_finite_inputs
import proofs.«150986_j70806830842645_1_alg».proof.Proof.Run
import proofs.«150986_j70806830842645_1_alg».proof.Proof.RefSide
import Idealize.ShloMosaic.Adequacy
import Idealize.ShloMosaic.Init

noncomputable section

namespace Cert.Proof

open Idealize.ShloMosaic Idealize.SL.Sem Cert.Kernel

/-- From memories agreeing on the arguments both programs run and end with the same result: the kernel's run with its
    result named, and the reference's run whose composed term is that same value. -/
theorem algebraic : Cert.algebraic_KernelIdeal_ReferenceIdeal := by
  intro m ρ m' ρ' _ hagree
  refine ⟨fun c => Cert.KernelIdeal.Stages.pred m c, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  exact Cert.Proof.RefSide.result_eq m m' c (hagree c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
